-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S5000x128 : Shape := ⟨2, ![5000, 128]⟩
abbrev S100000x128 : Shape := ⟨2, ![100000, 128]⟩
abbrev S200000 : Shape := ⟨1, ![200000]⟩
abbrev S400000 : Shape := ⟨1, ![400000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S256x768 : Shape := ⟨2, ![256, 768]⟩
abbrev S1x256 : Shape := ⟨2, ![1, 256]⟩
abbrev S1 : Shape := ⟨1, ![1]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S5000x128 : S_.BroadcastsInDim S5000x128 (![] : Fin 0 → Fin S5000x128.rank)
  reducesTo_S5000x128_S_d0_1 : S5000x128.ReducesTo [0, 1] S_
  bcast_S_S100000x128 : S_.BroadcastsInDim S100000x128 (![] : Fin 0 → Fin S100000x128.rank)
  reducesTo_S100000x128_S_d0_1 : S100000x128.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x768 : S_.BroadcastsInDim S256x768 (![] : Fin 0 → Fin S256x768.rank)
  reducesTo_S256x768_S_d0_1 : S256x768.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg25 : FVec F S256 .f32) (main_arg26 : FVec F S1x256 .f32) (main_arg27 : FVec F S1 .f32) (main_v83 : IVec S_ 1) (main_v84 : FVec F S256x768 .f32) (main_cst_32 : FVec F S_ .f32) : IVec S_ 1 :=
  let main_v85 : FVec F S256x768 .f32 := broadcastInDim S256x768 ![] bcast_S_S256x768 main_cst_32
  let main_v86 : IVec S256x768 1 := cmpf .olt main_v84 main_v85
  let main_c_33 : IVec S_ 1 := constantI S_ 1 1#1
  let main_v87 : IVec S_ 1 := (fun x v => Host.reduce IntOp.andi x v reducesTo_S256x768_S_d0_1 h_S_) main_v86 main_c_33
  let main_v88 : IVec S_ 1 := andi main_v83 main_v87
  let main_v89 : FVec F S256 .f32 := Host.absf main_arg25
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S1x256 .f32 := Host.absf main_arg26
  let main_cst_36 : FVec F S_ .f32 := constant S_ .f32 0x7F800000#32
  let main_v95 : FVec F S1x256 .f32 := broadcastInDim S1x256 ![] bcast_S_S1x256 main_cst_36
  let main_v96 : IVec S1x256 1 := cmpf .olt main_v94 main_v95
  let main_c_37 : IVec S_ 1 := constantI S_ 1 1#1
  let main_v97 : IVec S_ 1 := (fun x v => Host.reduce IntOp.andi x v reducesTo_S1x256_S_d0_1 h_S_) main_v96 main_c_37
  let main_v98 : IVec S_ 1 := andi main_v93 main_v97
  let main_v99 : FVec F S1 .f32 := Host.absf main_arg27
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg21 : FVec F S256x256 .f32) (main_arg22 : FVec F S256x128 .f32) (main_arg23 : FVec F S256 .f32) (main_arg24 : FVec F S256x768 .f32) (main_arg25 : FVec F S256 .f32) (main_arg26 : FVec F S1x256 .f32) (main_arg27 : FVec F S1 .f32) (main_v63 : IVec S_ 1) (main_v67 : IVec S_ 1) : IVec S_ 1 :=
  let main_v68 : IVec S_ 1 := andi main_v63 main_v67
  let main_v69 : FVec F S256x256 .f32 := Host.absf main_arg21
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256x128 .f32 := Host.absf main_arg22
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S256 .f32 := Host.absf main_arg23
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x768 .f32 := Host.absf main_arg24
  let main_cst_32 : FVec F S_ .f32 := constant S_ .f32 0x7F800000#32
  fn_part5 (F := F) main_arg25 main_arg26 main_arg27 main_v83 main_v84 main_cst_32

def fn_part3 {F : FTy → Type} [FloatOps F] (main_arg18 : FVec F S256x256 .f32) (main_arg19 : FVec F S256x256 .f32) (main_arg20 : FVec F S256 .f32) (main_arg21 : FVec F S256x256 .f32) (main_arg22 : FVec F S256x128 .f32) (main_arg23 : FVec F S256 .f32) (main_arg24 : FVec F S256x768 .f32) (main_arg25 : FVec F S256 .f32) (main_arg26 : FVec F S1x256 .f32) (main_arg27 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg18
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg19
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg20
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg21 main_arg22 main_arg23 main_arg24 main_arg25 main_arg26 main_arg27 main_v63 main_v67

def fn_part2 {F : FTy → Type} [FloatOps F] (main_arg14 : FVec F S256 .f32) (main_arg15 : FVec F S256x128 .f32) (main_arg16 : FVec F S256x128 .f32) (main_arg17 : FVec F S256 .f32) (main_arg18 : FVec F S256x256 .f32) (main_arg19 : FVec F S256x256 .f32) (main_arg20 : FVec F S256 .f32) (main_arg21 : FVec F S256x256 .f32) (main_arg22 : FVec F S256x128 .f32) (main_arg23 : FVec F S256 .f32) (main_arg24 : FVec F S256x768 .f32) (main_arg25 : FVec F S256 .f32) (main_arg26 : FVec F S1x256 .f32) (main_arg27 : FVec F S1 .f32) (main_v33 : IVec S_ 1) : IVec S_ 1 :=
  let main_v34 : FVec F S256 .f32 := Host.absf main_arg14
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg15
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S256x128 .f32 := Host.absf main_arg16
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S256 .f32 := Host.absf main_arg17
  let main_cst_18 : FVec F S_ .f32 := constant S_ .f32 0x7F800000#32
  let main_v50 : FVec F S256 .f32 := broadcastInDim S256 ![] bcast_S_S256 main_cst_18
  fn_part3 (F := F) main_arg18 main_arg19 main_arg20 main_arg21 main_arg22 main_arg23 main_arg24 main_arg25 main_arg26 main_arg27 main_v48 main_v49 main_v50

def fn_part1 {F : FTy → Type} [FloatOps F] (main_arg11 : FVec F S256 .f32) (main_arg12 : FVec F S256x128 .f32) (main_arg13 : FVec F S256x128 .f32) (main_arg14 : FVec F S256 .f32) (main_arg15 : FVec F S256x128 .f32) (main_arg16 : FVec F S256x128 .f32) (main_arg17 : FVec F S256 .f32) (main_arg18 : FVec F S256x256 .f32) (main_arg19 : FVec F S256x256 .f32) (main_arg20 : FVec F S256 .f32) (main_arg21 : FVec F S256x256 .f32) (main_arg22 : FVec F S256x128 .f32) (main_arg23 : FVec F S256 .f32) (main_arg24 : FVec F S256x768 .f32) (main_arg25 : FVec F S256 .f32) (main_arg26 : FVec F S1x256 .f32) (main_arg27 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg11
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg12
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x128 .f32 := Host.absf main_arg13
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg14 main_arg15 main_arg16 main_arg17 main_arg18 main_arg19 main_arg20 main_arg21 main_arg22 main_arg23 main_arg24 main_arg25 main_arg26 main_arg27 main_v33

def fn {F : FTy → Type} [FloatOps F] (main_arg0 : FVec F S20000x128 .f32) (main_arg1 : FVec F S5000x128 .f32) (main_arg2 : FVec F S100000x128 .f32) (main_arg3 : IVec S200000 32) (main_arg4 : IVec S200000 32) (main_arg5 : IVec S400000 32) (main_arg6 : IVec S400000 32) (main_arg7 : IVec S50000 32) (main_arg8 : IVec S50000 32) (main_arg9 : IVec S50000 32) (main_arg10 : FVec F S256x128 .f32) (main_arg11 : FVec F S256 .f32) (main_arg12 : FVec F S256x128 .f32) (main_arg13 : FVec F S256x128 .f32) (main_arg14 : FVec F S256 .f32) (main_arg15 : FVec F S256x128 .f32) (main_arg16 : FVec F S256x128 .f32) (main_arg17 : FVec F S256 .f32) (main_arg18 : FVec F S256x256 .f32) (main_arg19 : FVec F S256x256 .f32) (main_arg20 : FVec F S256 .f32) (main_arg21 : FVec F S256x256 .f32) (main_arg22 : FVec F S256x128 .f32) (main_arg23 : FVec F S256 .f32) (main_arg24 : FVec F S256x768 .f32) (main_arg25 : FVec F S256 .f32) (main_arg26 : FVec F S1x256 .f32) (main_arg27 : FVec F S1 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S5000x128 .f32 := Host.absf main_arg1
  let main_cst_0 : FVec F S_ .f32 := constant S_ .f32 0x7F800000#32
  let main_v5 : FVec F S5000x128 .f32 := broadcastInDim S5000x128 ![] bcast_S_S5000x128 main_cst_0
  let main_v6 : IVec S5000x128 1 := cmpf .olt main_v4 main_v5
  let main_c_1 : IVec S_ 1 := constantI S_ 1 1#1
  let main_v7 : IVec S_ 1 := (fun x v => Host.reduce IntOp.andi x v reducesTo_S5000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S256x128 .f32 := Host.absf main_arg10
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S20000x128 : Shape := ⟨2, ![20000, 128]⟩
abbrev S5000x128 : Shape := ⟨2, ![5000, 128]⟩
abbrev S100000x128 : Shape := ⟨2, ![100000, 128]⟩
abbrev S200000 : Shape := ⟨1, ![200000]⟩
abbrev S400000 : Shape := ⟨1, ![400000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S256x768 : Shape := ⟨2, ![256, 768]⟩
abbrev S1x256 : Shape := ⟨2, ![1, 256]⟩
abbrev S1 : Shape := ⟨1, ![1]⟩
abbrev S_ : Shape := ⟨0, ![]⟩
abbrev S200000x1 : Shape := ⟨2, ![200000, 1]⟩
abbrev S200000x128 : Shape := ⟨2, ![200000, 128]⟩
abbrev S5000 : Shape := ⟨1, ![5000]⟩
abbrev S5000x1 : Shape := ⟨2, ![5000, 1]⟩
abbrev S400000x1 : Shape := ⟨2, ![400000, 1]⟩
abbrev S400000x128 : Shape := ⟨2, ![400000, 128]⟩
abbrev S100000 : Shape := ⟨1, ![100000]⟩
abbrev S100000x1 : Shape := ⟨2, ![100000, 1]⟩
abbrev S5000x256 : Shape := ⟨2, ![5000, 256]⟩
abbrev S1000x128 : Shape := ⟨2, ![1000, 128]⟩
abbrev S1000x256 : Shape := ⟨2, ![1000, 256]⟩
abbrev S100000x256 : Shape := ⟨2, ![100000, 256]⟩
abbrev S2000x128 : Shape := ⟨2, ![2000, 128]⟩
abbrev S2000x256 : Shape := ⟨2, ![2000, 256]⟩
abbrev S400000x256 : Shape := ⟨2, ![400000, 256]⟩
abbrev S20000x256 : Shape := ⟨2, ![20000, 256]⟩
abbrev S50000x1 : Shape := ⟨2, ![50000, 1]⟩
abbrev S50000x256 : Shape := ⟨2, ![50000, 256]⟩
abbrev S1x1 : Shape := ⟨2, ![1, 1]⟩
abbrev S2000x1 : Shape := ⟨2, ![2000, 1]⟩
abbrev S2000 : Shape := ⟨1, ![2000]⟩

abbrev nBuf : Space → Nat
  | .hbm => 147
  | .vmem => 56
  | .smem => 0
  | _ => 0

abbrev hbmTy0_0 (i : Nat) : BufTy := match i % 128 with
  | 0 => ⟨S20000x128, .f32⟩
  | 1 => ⟨S5000x128, .f32⟩
  | 2 => ⟨S100000x128, .f32⟩
  | 3 => ⟨S200000, .i32⟩
  | 4 => ⟨S200000, .i32⟩
  | 5 => ⟨S400000, .i32⟩
  | 6 => ⟨S400000, .i32⟩
  | 7 => ⟨S50000, .i32⟩
  | 8 => ⟨S50000, .i32⟩
  | 9 => ⟨S50000, .i32⟩
  | 10 => ⟨S256x128, .f32⟩
  | 11 => ⟨S256, .f32⟩
  | 12 => ⟨S256x128, .f32⟩
  | 13 => ⟨S256x128, .f32⟩
  | 14 => ⟨S256, .f32⟩
  | 15 => ⟨S256x128, .f32⟩
  | 16 => ⟨S256x128, .f32⟩
  | 17 => ⟨S256, .f32⟩
  | 18 => ⟨S256x256, .f32⟩
  | 19 => ⟨S256x256, .f32⟩
  | 20 => ⟨S256, .f32⟩
  | 21 => ⟨S256x256, .f32⟩
  | 22 => ⟨S256x128, .f32⟩
  | 23 => ⟨S256, .f32⟩
  | 24 => ⟨S256x768, .f32⟩
  | 25 => ⟨S256, .f32⟩
  | 26 => ⟨S1x256, .f32⟩
  | 27 => ⟨S1, .f32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000x128, .f32⟩
  | 37 => ⟨S_, .f32⟩
  | 38 => ⟨S5000x128, .f32⟩
  | 39 => ⟨S200000x1, .i32⟩
  | 40 => ⟨S5000x128, .f32⟩
  | 41 => ⟨S_, .f32⟩
  | 42 => ⟨S200000, .f32⟩
  | 43 => ⟨S_, .f32⟩
  | 44 => ⟨S5000, .f32⟩
  | 45 => ⟨S200000x1, .i32⟩
  | 46 => ⟨S5000, .f32⟩
  | 47 => ⟨S_, .f32⟩
  | 48 => ⟨S5000, .f32⟩
  | 49 => ⟨S5000, .f32⟩
  | 50 => ⟨S5000x1, .f32⟩
  | 51 => ⟨S5000x128, .f32⟩
  | 52 => ⟨S5000x128, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x128, .f32⟩
  | 62 => ⟨S_, .f32⟩
  | 63 => ⟨S100000x128, .f32⟩
  | 64 => ⟨S400000x1, .i32⟩
  | 65 => ⟨S100000x128, .f32⟩
  | 66 => ⟨S_, .f32⟩
  | 67 => ⟨S400000, .f32⟩
  | 68 => ⟨S_, .f32⟩
  | 69 => ⟨S100000, .f32⟩
  | 70 => ⟨S400000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x128, .f32⟩
  | 77 => ⟨S100000x128, .f32⟩
  | 78 => ⟨S1x256, .f32⟩
  | 79 => ⟨S5000x256, .f32⟩
  | 80 => ⟨S1x256, .f32⟩
  | 81 => ⟨S100000x256, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S400000x256, .f32⟩
  | 91 => ⟨S_, .f32⟩
  | 92 => ⟨S100000x256, .f32⟩
  | 93 => ⟨S400000x1, .i32⟩
  | 94 => ⟨S100000x256, .f32⟩
  | 95 => ⟨S_, .f32⟩
  | 96 => ⟨S400000, .f32⟩
  | 97 => ⟨S_, .f32⟩
  | 98 => ⟨S100000, .f32⟩
  | 99 => ⟨S400000x1, .i32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x256, .f32⟩
  | 106 => ⟨S100000x256, .f32⟩
  | 107 => ⟨S1x256, .f32⟩
  | 108 => ⟨S5000x256, .f32⟩
  | 109 => ⟨S1x256, .f32⟩
  | 110 => ⟨S100000x256, .f32⟩
  | 111 => ⟨S1x256, .f32⟩
  | 112 => ⟨S20000x256, .f32⟩
  | 113 => ⟨S_, .i32⟩
  | 114 => ⟨S50000, .i32⟩
  | 115 => ⟨S50000, .i1⟩
  | 116 => ⟨S_, .i32⟩
  | 117 => ⟨S50000, .i32⟩
  | 118 => ⟨S50000, .i32⟩
  | 119 => ⟨S50000, .i32⟩
  | 120 => ⟨S50000x1, .i32⟩
  | 121 => ⟨S50000x256, .f32⟩
  | 122 => ⟨S_, .i32⟩
  | 123 => ⟨S50000, .i32⟩
  | 124 => ⟨S50000, .i1⟩
  | 125 => ⟨S_, .i32⟩
  | 126 => ⟨S50000, .i32⟩
  | 127 => ⟨S50000, .i32⟩
  | _ => ⟨S20000x128, .f32⟩

abbrev hbmTy0_1 (i : Nat) : BufTy := match i % 128 with
  | 0 => ⟨S50000, .i32⟩
  | 1 => ⟨S50000x1, .i32⟩
  | 2 => ⟨S50000x256, .f32⟩
  | 3 => ⟨S_, .i32⟩
  | 4 => ⟨S50000, .i32⟩
  | 5 => ⟨S50000, .i1⟩
  | 6 => ⟨S_, .i32⟩
  | 7 => ⟨S50000, .i32⟩
  | 8 => ⟨S50000, .i32⟩
  | 9 => ⟨S50000, .i32⟩
  | 10 => ⟨S50000x1, .i32⟩
  | 11 => ⟨S50000x256, .f32⟩
  | 12 => ⟨S256x256, .f32⟩
  | 13 => ⟨S256x256, .f32⟩
  | 14 => ⟨S256x256, .f32⟩
  | 15 => ⟨S1x256, .f32⟩
  | 16 => ⟨S1x1, .f32⟩
  | 17 => ⟨S50000x1, .f32⟩
  | 18 => ⟨S50000, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S256x128, .f32⟩
  | .local _ .vmem, ⟨5, _⟩ => ⟨S1x256, .f32⟩
  | .local _ .vmem, ⟨6, _⟩ => ⟨S256x128, .f32⟩
  | .local _ .vmem, ⟨7, _⟩ => ⟨S1000x256, .f32⟩
  | .local _ .vmem, ⟨8, _⟩ => ⟨S1000x256, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S256x128, .f32⟩
  | .local _ .vmem, ⟨14, _⟩ => ⟨S1x256, .f32⟩
  | .local _ .vmem, ⟨15, _⟩ => ⟨S256x128, .f32⟩
  | .local _ .vmem, ⟨16, _⟩ => ⟨S2000x256, .f32⟩
  | .local _ .vmem, ⟨17, _⟩ => ⟨S2000x256, .f32⟩
  | .local _ .vmem, ⟨18, _⟩ => ⟨S1000x128, .f32⟩
  | .local _ .vmem, ⟨19, _⟩ => ⟨S1000x128, .f32⟩
  | .local _ .vmem, ⟨20, _⟩ => ⟨S1000x256, .f32⟩
  | .local _ .vmem, ⟨21, _⟩ => ⟨S1000x256, .f32⟩
  | .local _ .vmem, ⟨22, _⟩ => ⟨S256x128, .f32⟩
  | .local _ .vmem, ⟨23, _⟩ => ⟨S1x256, .f32⟩
  | .local _ .vmem, ⟨24, _⟩ => ⟨S256x256, .f32⟩
  | .local _ .vmem, ⟨25, _⟩ => ⟨S1000x256, .f32⟩
  | .local _ .vmem, ⟨26, _⟩ => ⟨S1000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S256x256, .f32⟩
  | .local _ .vmem, ⟨32, _⟩ => ⟨S1x256, .f32⟩
  | .local _ .vmem, ⟨33, _⟩ => ⟨S256x256, .f32⟩
  | .local _ .vmem, ⟨34, _⟩ => ⟨S2000x256, .f32⟩
  | .local _ .vmem, ⟨35, _⟩ => ⟨S2000x256, .f32⟩
  | .local _ .vmem, ⟨36, _⟩ => ⟨S2000x128, .f32⟩
  | .local _ .vmem, ⟨37, _⟩ => ⟨S2000x128, .f32⟩
  | .local _ .vmem, ⟨38, _⟩ => ⟨S256x128, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S256x256, .f32⟩
  | .local _ .vmem, ⟨49, _⟩ => ⟨S256x256, .f32⟩
  | .local _ .vmem, ⟨50, _⟩ => ⟨S256x256, .f32⟩
  | .local _ .vmem, ⟨51, _⟩ => ⟨S1x256, .f32⟩
  | .local _ .vmem, ⟨52, _⟩ => ⟨S1x256, .f32⟩
  | .local _ .vmem, ⟨53, _⟩ => ⟨S1x1, .f32⟩
  | .local _ .vmem, ⟨54, _⟩ => ⟨S2000x1, .f32⟩
  | .local _ .vmem, ⟨55, _⟩ => ⟨S2000x1, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_cst_2 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_3 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_c_4 : Ref sig .tc := ⟨.hbm, 53, rfl⟩
abbrev main_v19 : Ref sig .tc := ⟨.hbm, 54, rfl⟩
abbrev main_v20 : Ref sig .tc := ⟨.hbm, 55, rfl⟩
abbrev main_c_5 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_6 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_7 : Ref sig .tc := ⟨.hbm, 66, rfl⟩
abbrev main_v29 : Ref sig .tc := ⟨.hbm, 67, rfl⟩
abbrev main_cst_8 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_9 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_10 : Ref sig .tc := ⟨.hbm, 82, rfl⟩
abbrev main_v42 : Ref sig .tc := ⟨.hbm, 83, rfl⟩
abbrev main_v43 : Ref sig .tc := ⟨.hbm, 84, rfl⟩
abbrev main_c_11 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_12 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_13 : Ref sig .tc := ⟨.hbm, 95, rfl⟩
abbrev main_v52 : Ref sig .tc := ⟨.hbm, 96, rfl⟩
abbrev main_cst_14 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_15 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_c_16 : Ref sig .tc := ⟨.hbm, 113, rfl⟩
abbrev main_v67 : Ref sig .tc := ⟨.hbm, 114, rfl⟩
abbrev main_v68 : Ref sig .tc := ⟨.hbm, 115, rfl⟩
abbrev main_c_17 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_c_18 : Ref sig .tc := ⟨.hbm, 122, rfl⟩
abbrev main_v74 : Ref sig .tc := ⟨.hbm, 123, rfl⟩
abbrev main_v75 : Ref sig .tc := ⟨.hbm, 124, rfl⟩
abbrev main_c_19 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_c_20 : Ref sig .tc := ⟨.hbm, 131, rfl⟩
abbrev main_v81 : Ref sig .tc := ⟨.hbm, 132, rfl⟩
abbrev main_v82 : Ref sig .tc := ⟨.hbm, 133, rfl⟩
abbrev main_c_21 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg8_0 : Ref sig .tc := ⟨.vmem, 53, rfl⟩
abbrev cc5_stg9_0 : Ref sig .tc := ⟨.vmem, 54, rfl⟩
abbrev cc5_stg9_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem8_0 : DmaSem sig := 53
abbrev cc5_sem9_0 : DmaSem sig := 54
abbrev cc5_sem9_1 : DmaSem sig := 55

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S2000x1 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S5000x128 : S_.BroadcastsInDim S5000x128 (![] : Fin 0 → Fin S5000x128.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S256_S1x256 : S256.ShapeCasts S1x256
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S2000x256_S2000x256 : S2000x256.ShapeCasts S2000x256
  bcast_S_S50000 : S_.BroadcastsInDim S50000 (![] : Fin 0 → Fin S50000.rank)
  bcast_S50000_S50000x1_0 : S50000.BroadcastsInDim S50000x1 (![0] : Fin 1 → Fin S50000x1.rank)
  slices_S256x768_S256x256_0_0 : S256x768.Slices ![0, 0] S256x256
  slices_S256x768_S256x256_0_256 : S256x768.Slices ![0, 256] S256x256
  slices_S256x768_S256x256_0_512 : S256x768.Slices ![0, 512] S256x256
  shapeCasts_S1_S1x1 : S1.ShapeCasts S1x1
  shapeCasts_S256x256_S256x256 : S256x256.ShapeCasts S256x256
  reduces_S2000x256_S2000 : S2000x256.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  gather_S20000x128_S200000x1_S200000x128_1_0_n_n_0_1_1128_wf : GatherDims.WF S20000x128 S200000x1 S200000x128 [1] [0] [] [0] [] 1 ![1, 128]
  scatter_S5000x128_S200000x1_S200000x128_1_0_0_1_wf : ScatterDims.WF S5000x128 S200000x1 S200000x128 [1] [0] [0] 1
  scatter_S5000_S200000x1_S200000_n_0_0_1_wf : ScatterDims.WF S5000 S200000x1 S200000 [] [0] [0] 1
  gather_S5000x128_S400000x1_S400000x128_1_0_n_n_0_1_1128_wf : GatherDims.WF S5000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S1000x128_S256x128_S1000x256_1_1_0_0_n_n_wf : DotDims.WF S1000x128 S256x128 S1000x256 [1] [1] [0] [0] [] []
  dot_S2000x128_S256x128_S2000x256_1_1_0_0_n_n_wf : DotDims.WF S2000x128 S256x128 S2000x256 [1] [1] [0] [0] [] []
  gather_S5000x256_S400000x1_S400000x256_1_0_n_n_0_1_1256_wf : GatherDims.WF S5000x256 S400000x1 S400000x256 [1] [0] [] [0] [] 1 ![1, 256]
  scatter_S100000x256_S400000x1_S400000x256_1_0_0_1_wf : ScatterDims.WF S100000x256 S400000x1 S400000x256 [1] [0] [0] 1
  dot_S1000x256_S256x256_S1000x256_1_1_0_0_n_n_wf : DotDims.WF S1000x256 S256x256 S1000x256 [1] [1] [0] [0] [] []
  dot_S2000x256_S256x256_S2000x256_1_1_0_0_n_n_wf : DotDims.WF S2000x256 S256x256 S2000x256 [1] [1] [0] [0] [] []
  gather_S20000x256_S50000x1_S50000x256_1_0_n_n_0_1_1256_wf : GatherDims.WF S20000x256 S50000x1 S50000x256 [1] [0] [] [0] [] 1 ![1, 256]
  gather_S5000x256_S50000x1_S50000x256_1_0_n_n_0_1_1256_wf : GatherDims.WF S5000x256 S50000x1 S50000x256 [1] [0] [] [0] [] 1 ![1, 256]
  gather_S100000x256_S50000x1_S50000x256_1_0_n_n_0_1_1256_wf : GatherDims.WF S100000x256 S50000x1 S50000x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S5000x128.size a
  hwx0_0 : ∀ i : grid0.Coords, EltTy.bits .f32 = 32 ∨ (Rect.block (s := S5000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S5000x128.size a
  hwx0_1 : ∀ i : grid0.Coords, EltTy.bits .f32 = 32 ∨ (Rect.block (s := S5000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S5000x256.size a
  hwx0_5 : ∀ i : grid0.Coords, EltTy.bits .f32 = 32 ∨ (Rect.block (s := S5000x256) S1000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S5000x128.size a
  hwx2_0 : ∀ i : grid2.Coords, EltTy.bits .f32 = 32 ∨ (Rect.block (s := S5000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S5000x256.size a
  hwx2_1 : ∀ i : grid2.Coords, EltTy.bits .f32 = 32 ∨ (Rect.block (s := S5000x256) S1000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x256.size a ≤ S5000x256.size a
  hwx2_5 : ∀ i : grid2.Coords, EltTy.bits .f32 = 32 ∨ (Rect.block (s := S5000x256) S1000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S100000x256.size a
  hwx3_5 : ∀ i : grid3.Coords, EltTy.bits .f32 = 32 ∨ (Rect.block (s := S100000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S20000x128.size a
  hwx4_0 : ∀ i : grid4.Coords, EltTy.bits .f32 = 32 ∨ (Rect.block (s := S20000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S20000x256.size a
  hwx4_3 : ∀ i : grid4.Coords, EltTy.bits .f32 = 32 ∨ (Rect.block (s := S20000x256) S2000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S50000x256.size a
  hwx5_2 : ∀ i : grid5.Coords, EltTy.bits .f32 = 32 ∨ (Rect.block (s := S50000x256) S2000x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .f32 = 32 ∨ (Rect.block (s := S256x256) S256x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x256.size a ≤ S256x256.size a
  hwx5_5 : ∀ i : grid5.Coords, EltTy.bits .f32 = 32 ∨ (Rect.block (s := S256x256) S256x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x1.size a ≤ S1x1.size a
  hwx5_8 : ∀ i : grid5.Coords, EltTy.bits .f32 = 32 ∨ (Rect.block (s := S1x1) S1x1.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2000x1.size a ≤ S50000x1.size a
  hwx5_9 : ∀ i : grid5.Coords, EltTy.bits .f32 = 32 ∨ (Rect.block (s := S50000x1) S2000x1.size (cc5_transform_9 i) (hinb5_9 i)).WholeWords (EltTy.packing .f32)

variable [Facts₀]

def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def scatter_S5000x128_S200000x1_S200000x128_1_0_0_1 : ScatterDims S5000x128 S200000x1 S200000x128 where
  updateWindowDims := [1]
  insertedWindowDims := [0]
  scatterDimsToOperandDims := [0]
  indexVectorDim := 1
  wf := scatter_S5000x128_S200000x1_S200000x128_1_0_0_1_wf
def scatter_S5000_S200000x1_S200000_n_0_0_1 : ScatterDims S5000 S200000x1 S200000 where
  updateWindowDims := []
  insertedWindowDims := [0]
  scatterDimsToOperandDims := [0]
  indexVectorDim := 1
  wf := scatter_S5000_S200000x1_S200000_n_0_0_1_wf
def gather_S5000x128_S400000x1_S400000x128_1_0_n_n_0_1_1128 : GatherDims S5000x128 S400000x1 S400000x128 where
  offsetDims := [1]
  collapsedSliceDims := [0]
  operandBatchingDims := []
  startIndicesBatchingDims := []
  startIndexMap := [0]
  indexVectorDim := 1
  sliceSizes := ![1, 128]
  wf := gather_S5000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S1000x128_S256x128_S1000x256_1_1_0_0_n_n : DotDims S1000x128 S256x128 S1000x256 where
  lhsContracting := [1]
  rhsContracting := [1]
  lhsNonContracting := [0]
  rhsNonContracting := [0]
  lhsBatch := []
  rhsBatch := []
  wf := dot_S1000x128_S256x128_S1000x256_1_1_0_0_n_n_wf
def dot_S2000x128_S256x128_S2000x256_1_1_0_0_n_n : DotDims S2000x128 S256x128 S2000x256 where
  lhsContracting := [1]
  rhsContracting := [1]
  lhsNonContracting := [0]
  rhsNonContracting := [0]
  lhsBatch := []
  rhsBatch := []
  wf := dot_S2000x128_S256x128_S2000x256_1_1_0_0_n_n_wf
def gather_S5000x256_S400000x1_S400000x256_1_0_n_n_0_1_1256 : GatherDims S5000x256 S400000x1 S400000x256 where
  offsetDims := [1]
  collapsedSliceDims := [0]
  operandBatchingDims := []
  startIndicesBatchingDims := []
  startIndexMap := [0]
  indexVectorDim := 1
  sliceSizes := ![1, 256]
  wf := gather_S5000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S1000x256_S256x256_S1000x256_1_1_0_0_n_n : DotDims S1000x256 S256x256 S1000x256 where
  lhsContracting := [1]
  rhsContracting := [1]
  lhsNonContracting := [0]
  rhsNonContracting := [0]
  lhsBatch := []
  rhsBatch := []
  wf := dot_S1000x256_S256x256_S1000x256_1_1_0_0_n_n_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def gather_S20000x256_S50000x1_S50000x256_1_0_n_n_0_1_1256 : GatherDims S20000x256 S50000x1 S50000x256 where
  offsetDims := [1]
  collapsedSliceDims := [0]
  operandBatchingDims := []
  startIndicesBatchingDims := []
  startIndexMap := [0]
  indexVectorDim := 1
  sliceSizes := ![1, 256]
  wf := gather_S20000x256_S50000x1_S50000x256_1_0_n_n_0_1_1256_wf
def gather_S5000x256_S50000x1_S50000x256_1_0_n_n_0_1_1256 : GatherDims S5000x256 S50000x1 S50000x256 where
  offsetDims := [1]
  collapsedSliceDims := [0]
  operandBatchingDims := []
  startIndicesBatchingDims := []
  startIndexMap := [0]
  indexVectorDim := 1
  sliceSizes := ![1, 256]
  wf := gather_S5000x256_S50000x1_S50000x256_1_0_n_n_0_1_1256_wf
def gather_S100000x256_S50000x1_S50000x256_1_0_n_n_0_1_1256 : GatherDims S100000x256 S50000x1 S50000x256 where
  offsetDims := [1]
  collapsedSliceDims := [0]
  operandBatchingDims := []
  startIndicesBatchingDims := []
  startIndexMap := [0]
  indexVectorDim := 1
  sliceSizes := ![1, 256]
  wf := gather_S100000x256_S50000x1_S50000x256_1_0_n_n_0_1_1256_wf

abbrev win0_0 : Pipeline.Window sig grid0 :=
  Pipeline.Window.ofSpec (Memref.whole main_v18) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v18) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg19) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg21) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg22) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v73) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v87) S2000x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v88) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v89) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v90) S256x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v91) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg26) S1x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v92) S1x1.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v93) S2000x1.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S20000x128 : Shape := ⟨2, ![20000, 128]⟩
abbrev S5000x128 : Shape := ⟨2, ![5000, 128]⟩
abbrev S100000x128 : Shape := ⟨2, ![100000, 128]⟩
abbrev S200000 : Shape := ⟨1, ![200000]⟩
abbrev S400000 : Shape := ⟨1, ![400000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S256x768 : Shape := ⟨2, ![256, 768]⟩
abbrev S1x256 : Shape := ⟨2, ![1, 256]⟩
abbrev S1 : Shape := ⟨1, ![1]⟩
abbrev S_ : Shape := ⟨0, ![]⟩
abbrev S200000x1 : Shape := ⟨2, ![200000, 1]⟩
abbrev S200000x128 : Shape := ⟨2, ![200000, 128]⟩
abbrev S5000 : Shape := ⟨1, ![5000]⟩
abbrev S5000x1 : Shape := ⟨2, ![5000, 1]⟩
abbrev S128x256 : Shape := ⟨2, ![128, 256]⟩
abbrev S5000x256 : Shape := ⟨2, ![5000, 256]⟩
abbrev S400000x1 : Shape := ⟨2, ![400000, 1]⟩
abbrev S400000x128 : Shape := ⟨2, ![400000, 128]⟩
abbrev S100000 : Shape := ⟨1, ![100000]⟩
abbrev S100000x1 : Shape := ⟨2, ![100000, 1]⟩
abbrev S100000x256 : Shape := ⟨2, ![100000, 256]⟩
abbrev S400000x256 : Shape := ⟨2, ![400000, 256]⟩
abbrev S20000x256 : Shape := ⟨2, ![20000, 256]⟩
abbrev S50000x1 : Shape := ⟨2, ![50000, 1]⟩
abbrev S50000x256 : Shape := ⟨2, ![50000, 256]⟩
abbrev S50000x768 : Shape := ⟨2, ![50000, 768]⟩
abbrev S768x256 : Shape := ⟨2, ![768, 256]⟩
abbrev S256x1 : Shape := ⟨2, ![256, 1]⟩
abbrev S1x1 : Shape := ⟨2, ![1, 1]⟩

abbrev nBuf : Space → Nat
  | .hbm => 219
  | .vmem => 0
  | .smem => 0
  | _ => 0

abbrev hbmTy0_0 (i : Nat) : BufTy := match i % 128 with
  | 0 => ⟨S20000x128, .f32⟩
  | 1 => ⟨S5000x128, .f32⟩
  | 2 => ⟨S100000x128, .f32⟩
  | 3 => ⟨S200000, .i32⟩
  | 4 => ⟨S200000, .i32⟩
  | 5 => ⟨S400000, .i32⟩
  | 6 => ⟨S400000, .i32⟩
  | 7 => ⟨S50000, .i32⟩
  | 8 => ⟨S50000, .i32⟩
  | 9 => ⟨S50000, .i32⟩
  | 10 => ⟨S256x128, .f32⟩
  | 11 => ⟨S256, .f32⟩
  | 12 => ⟨S256x128, .f32⟩
  | 13 => ⟨S256x128, .f32⟩
  | 14 => ⟨S256, .f32⟩
  | 15 => ⟨S256x128, .f32⟩
  | 16 => ⟨S256x128, .f32⟩
  | 17 => ⟨S256, .f32⟩
  | 18 => ⟨S256x256, .f32⟩
  | 19 => ⟨S256x256, .f32⟩
  | 20 => ⟨S256, .f32⟩
  | 21 => ⟨S256x256, .f32⟩
  | 22 => ⟨S256x128, .f32⟩
  | 23 => ⟨S256, .f32⟩
  | 24 => ⟨S256x768, .f32⟩
  | 25 => ⟨S256, .f32⟩
  | 26 => ⟨S1x256, .f32⟩
  | 27 => ⟨S1, .f32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000x128, .f32⟩
  | 37 => ⟨S_, .f32⟩
  | 38 => ⟨S5000x128, .f32⟩
  | 39 => ⟨S200000x1, .i32⟩
  | 40 => ⟨S5000x128, .f32⟩
  | 41 => ⟨S_, .f32⟩
  | 42 => ⟨S200000, .f32⟩
  | 43 => ⟨S_, .f32⟩
  | 44 => ⟨S5000, .f32⟩
  | 45 => ⟨S200000x1, .i32⟩
  | 46 => ⟨S5000, .f32⟩
  | 47 => ⟨S_, .f32⟩
  | 48 => ⟨S5000, .f32⟩
  | 49 => ⟨S5000, .f32⟩
  | 50 => ⟨S5000x1, .f32⟩
  | 51 => ⟨S5000x128, .f32⟩
  | 52 => ⟨S5000x128, .f32⟩
  | 53 => ⟨S128x256, .f32⟩
  | 54 => ⟨S5000x256, .f32⟩
  | 55 => ⟨S1x256, .f32⟩
  | 56 => ⟨S5000x256, .f32⟩
  | 57 => ⟨S5000x256, .f32⟩
  | 58 => ⟨S128x256, .f32⟩
  | 59 => ⟨S5000x256, .f32⟩
  | 60 => ⟨S5000x256, .f32⟩
  | 61 => ⟨S_, .f32⟩
  | 62 => ⟨S5000x256, .f32⟩
  | 63 => ⟨S5000x256, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S400000x128, .f32⟩
  | 73 => ⟨S_, .f32⟩
  | 74 => ⟨S100000x128, .f32⟩
  | 75 => ⟨S400000x1, .i32⟩
  | 76 => ⟨S100000x128, .f32⟩
  | 77 => ⟨S_, .f32⟩
  | 78 => ⟨S400000, .f32⟩
  | 79 => ⟨S_, .f32⟩
  | 80 => ⟨S100000, .f32⟩
  | 81 => ⟨S400000x1, .i32⟩
  | 82 => ⟨S100000, .f32⟩
  | 83 => ⟨S_, .f32⟩
  | 84 => ⟨S100000, .f32⟩
  | 85 => ⟨S100000, .f32⟩
  | 86 => ⟨S100000x1, .f32⟩
  | 87 => ⟨S100000x128, .f32⟩
  | 88 => ⟨S100000x128, .f32⟩
  | 89 => ⟨S128x256, .f32⟩
  | 90 => ⟨S100000x256, .f32⟩
  | 91 => ⟨S1x256, .f32⟩
  | 92 => ⟨S100000x256, .f32⟩
  | 93 => ⟨S100000x256, .f32⟩
  | 94 => ⟨S128x256, .f32⟩
  | 95 => ⟨S100000x256, .f32⟩
  | 96 => ⟨S100000x256, .f32⟩
  | 97 => ⟨S_, .f32⟩
  | 98 => ⟨S100000x256, .f32⟩
  | 99 => ⟨S100000x256, .f32⟩
  | 100 => ⟨S_, .i32⟩
  | 101 => ⟨S200000, .i32⟩
  | 102 => ⟨S200000, .i1⟩
  | 103 => ⟨S_, .i32⟩
  | 104 => ⟨S200000, .i32⟩
  | 105 => ⟨S200000, .i32⟩
  | 106 => ⟨S200000, .i32⟩
  | 107 => ⟨S200000x1, .i32⟩
  | 108 => ⟨S200000x128, .f32⟩
  | 109 => ⟨S_, .f32⟩
  | 110 => ⟨S5000x128, .f32⟩
  | 111 => ⟨S200000x1, .i32⟩
  | 112 => ⟨S5000x128, .f32⟩
  | 113 => ⟨S_, .f32⟩
  | 114 => ⟨S200000, .f32⟩
  | 115 => ⟨S_, .f32⟩
  | 116 => ⟨S5000, .f32⟩
  | 117 => ⟨S200000x1, .i32⟩
  | 118 => ⟨S5000, .f32⟩
  | 119 => ⟨S_, .f32⟩
  | 120 => ⟨S5000, .f32⟩
  | 121 => ⟨S5000, .f32⟩
  | 122 => ⟨S5000x1, .f32⟩
  | 123 => ⟨S5000x128, .f32⟩
  | 124 => ⟨S5000x128, .f32⟩
  | 125 => ⟨S128x256, .f32⟩
  | 126 => ⟨S5000x256, .f32⟩
  | 127 => ⟨S1x256, .f32⟩
  | _ => ⟨S20000x128, .f32⟩

abbrev hbmTy0_1 (i : Nat) : BufTy := match i % 128 with
  | 0 => ⟨S5000x256, .f32⟩
  | 1 => ⟨S5000x256, .f32⟩
  | 2 => ⟨S256x256, .f32⟩
  | 3 => ⟨S5000x256, .f32⟩
  | 4 => ⟨S5000x256, .f32⟩
  | 5 => ⟨S_, .f32⟩
  | 6 => ⟨S5000x256, .f32⟩
  | 7 => ⟨S5000x256, .f32⟩
  | 8 => ⟨S_, .i32⟩
  | 9 => ⟨S400000, .i32⟩
  | 10 => ⟨S400000, .i1⟩
  | 11 => ⟨S_, .i32⟩
  | 12 => ⟨S400000, .i32⟩
  | 13 => ⟨S400000, .i32⟩
  | 14 => ⟨S400000, .i32⟩
  | 15 => ⟨S400000x1, .i32⟩
  | 16 => ⟨S400000x256, .f32⟩
  | 17 => ⟨S_, .f32⟩
  | 18 => ⟨S100000x256, .f32⟩
  | 19 => ⟨S400000x1, .i32⟩
  | 20 => ⟨S100000x256, .f32⟩
  | 21 => ⟨S_, .f32⟩
  | 22 => ⟨S400000, .f32⟩
  | 23 => ⟨S_, .f32⟩
  | 24 => ⟨S100000, .f32⟩
  | 25 => ⟨S400000x1, .i32⟩
  | 26 => ⟨S100000, .f32⟩
  | 27 => ⟨S_, .f32⟩
  | 28 => ⟨S100000, .f32⟩
  | 29 => ⟨S100000, .f32⟩
  | 30 => ⟨S100000x1, .f32⟩
  | 31 => ⟨S100000x256, .f32⟩
  | 32 => ⟨S100000x256, .f32⟩
  | 33 => ⟨S256x256, .f32⟩
  | 34 => ⟨S100000x256, .f32⟩
  | 35 => ⟨S1x256, .f32⟩
  | 36 => ⟨S100000x256, .f32⟩
  | 37 => ⟨S100000x256, .f32⟩
  | 38 => ⟨S256x256, .f32⟩
  | 39 => ⟨S100000x256, .f32⟩
  | 40 => ⟨S100000x256, .f32⟩
  | 41 => ⟨S_, .f32⟩
  | 42 => ⟨S100000x256, .f32⟩
  | 43 => ⟨S100000x256, .f32⟩
  | 44 => ⟨S128x256, .f32⟩
  | 45 => ⟨S20000x256, .f32⟩
  | 46 => ⟨S1x256, .f32⟩
  | 47 => ⟨S20000x256, .f32⟩
  | 48 => ⟨S20000x256, .f32⟩
  | 49 => ⟨S_, .i32⟩
  | 50 => ⟨S50000, .i32⟩
  | 51 => ⟨S50000, .i1⟩
  | 52 => ⟨S_, .i32⟩
  | 53 => ⟨S50000, .i32⟩
  | 54 => ⟨S50000, .i32⟩
  | 55 => ⟨S50000, .i32⟩
  | 56 => ⟨S50000x1, .i32⟩
  | 57 => ⟨S50000x256, .f32⟩
  | 58 => ⟨S_, .i32⟩
  | 59 => ⟨S50000, .i32⟩
  | 60 => ⟨S50000, .i1⟩
  | 61 => ⟨S_, .i32⟩
  | 62 => ⟨S50000, .i32⟩
  | 63 => ⟨S50000, .i32⟩
  | 64 => ⟨S50000, .i32⟩
  | 65 => ⟨S50000x1, .i32⟩
  | 66 => ⟨S50000x256, .f32⟩
  | 67 => ⟨S_, .i32⟩
  | 68 => ⟨S50000, .i32⟩
  | 69 => ⟨S50000, .i1⟩
  | 70 => ⟨S_, .i32⟩
  | 71 => ⟨S50000, .i32⟩
  | 72 => ⟨S50000, .i32⟩
  | 73 => ⟨S50000, .i32⟩
  | 74 => ⟨S50000x1, .i32⟩
  | 75 => ⟨S50000x256, .f32⟩
  | 76 => ⟨S50000x768, .f32⟩
  | 77 => ⟨S768x256, .f32⟩
  | 78 => ⟨S50000x256, .f32⟩
  | 79 => ⟨S1x256, .f32⟩
  | 80 => ⟨S50000x256, .f32⟩
  | 81 => ⟨S50000x256, .f32⟩
  | 82 => ⟨S_, .f32⟩
  | 83 => ⟨S50000x256, .f32⟩
  | 84 => ⟨S50000x256, .f32⟩
  | 85 => ⟨S256x1, .f32⟩
  | 86 => ⟨S50000x1, .f32⟩
  | 87 => ⟨S1x1, .f32⟩
  | 88 => ⟨S50000x1, .f32⟩
  | 89 => ⟨S50000x1, .f32⟩
  | 90 => ⟨S50000, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_cst_2 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_3 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_call0_cst : Ref sig .tc := ⟨.hbm, 61, rfl⟩
abbrev main_call0_v0 : Ref sig .tc := ⟨.hbm, 62, rfl⟩
abbrev main_v27 : Ref sig .tc := ⟨.hbm, 63, rfl⟩
abbrev main_c_4 : Ref sig .tc := ⟨.hbm, 64, rfl⟩
abbrev main_v28 : Ref sig .tc := ⟨.hbm, 65, rfl⟩
abbrev main_v29 : Ref sig .tc := ⟨.hbm, 66, rfl⟩
abbrev main_c_5 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_6 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_7 : Ref sig .tc := ⟨.hbm, 77, rfl⟩
abbrev main_v38 : Ref sig .tc := ⟨.hbm, 78, rfl⟩
abbrev main_cst_8 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_9 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_call1_cst : Ref sig .tc := ⟨.hbm, 97, rfl⟩
abbrev main_call1_v0 : Ref sig .tc := ⟨.hbm, 98, rfl⟩
abbrev main_v55 : Ref sig .tc := ⟨.hbm, 99, rfl⟩
abbrev main_c_10 : Ref sig .tc := ⟨.hbm, 100, rfl⟩
abbrev main_v56 : Ref sig .tc := ⟨.hbm, 101, rfl⟩
abbrev main_v57 : Ref sig .tc := ⟨.hbm, 102, rfl⟩
abbrev main_c_11 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_12 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_13 : Ref sig .tc := ⟨.hbm, 113, rfl⟩
abbrev main_v66 : Ref sig .tc := ⟨.hbm, 114, rfl⟩
abbrev main_cst_14 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_15 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_call2_cst : Ref sig .tc := ⟨.hbm, 133, rfl⟩
abbrev main_call2_v0 : Ref sig .tc := ⟨.hbm, 134, rfl⟩
abbrev main_v83 : Ref sig .tc := ⟨.hbm, 135, rfl⟩
abbrev main_c_16 : Ref sig .tc := ⟨.hbm, 136, rfl⟩
abbrev main_v84 : Ref sig .tc := ⟨.hbm, 137, rfl⟩
abbrev main_v85 : Ref sig .tc := ⟨.hbm, 138, rfl⟩
abbrev main_c_17 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_18 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_19 : Ref sig .tc := ⟨.hbm, 149, rfl⟩
abbrev main_v94 : Ref sig .tc := ⟨.hbm, 150, rfl⟩
abbrev main_cst_20 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_21 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_call3_cst : Ref sig .tc := ⟨.hbm, 169, rfl⟩
abbrev main_call3_v0 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_c_22 : Ref sig .tc := ⟨.hbm, 177, rfl⟩
abbrev main_v117 : Ref sig .tc := ⟨.hbm, 178, rfl⟩
abbrev main_v118 : Ref sig .tc := ⟨.hbm, 179, rfl⟩
abbrev main_c_23 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_c_24 : Ref sig .tc := ⟨.hbm, 186, rfl⟩
abbrev main_v124 : Ref sig .tc := ⟨.hbm, 187, rfl⟩
abbrev main_v125 : Ref sig .tc := ⟨.hbm, 188, rfl⟩
abbrev main_c_25 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_c_26 : Ref sig .tc := ⟨.hbm, 195, rfl⟩
abbrev main_v131 : Ref sig .tc := ⟨.hbm, 196, rfl⟩
abbrev main_v132 : Ref sig .tc := ⟨.hbm, 197, rfl⟩
abbrev main_c_27 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_call4_cst : Ref sig .tc := ⟨.hbm, 210, rfl⟩
abbrev main_call4_v0 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S5000x128 : S_.BroadcastsInDim S5000x128 (![] : Fin 0 → Fin S5000x128.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  transposes_S256x128_S128x256_1_0 : S256x128.Transposes [1, 0] S128x256
  bcast_S256_S1x256_1 : S256.BroadcastsInDim S1x256 (![1] : Fin 1 → Fin S1x256.rank)
  bcast_S1x256_S5000x256_0_1 : S1x256.BroadcastsInDim S5000x256 (![0, 1] : Fin 2 → Fin S5000x256.rank)
  bcast_S_S5000x256 : S_.BroadcastsInDim S5000x256 (![] : Fin 0 → Fin S5000x256.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S256x256_S256x256_1_0 : S256x256.Transposes [1, 0] S256x256
  bcast_S100000x1_S100000x256_0_1 : S100000x1.BroadcastsInDim S100000x256 (![0, 1] : Fin 2 → Fin S100000x256.rank)
  bcast_S1x256_S20000x256_0_1 : S1x256.BroadcastsInDim S20000x256 (![0, 1] : Fin 2 → Fin S20000x256.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x256_S50000x256_S50000x256_S50000x768_d1 : Shape.Concatenates [S50000x256, S50000x256, S50000x256] S50000x768 1
  transposes_S256x768_S768x256_1_0 : S256x768.Transposes [1, 0] S768x256
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S1x256_S256x1_1_0 : S1x256.Transposes [1, 0] S256x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S20000x128_S200000x1_S200000x128_1_0_n_n_0_1_1128_wf : GatherDims.WF S20000x128 S200000x1 S200000x128 [1] [0] [] [0] [] 1 ![1, 128]
  scatter_S5000x128_S200000x1_S200000x128_1_0_0_1_wf : ScatterDims.WF S5000x128 S200000x1 S200000x128 [1] [0] [0] 1
  scatter_S5000_S200000x1_S200000_n_0_0_1_wf : ScatterDims.WF S5000 S200000x1 S200000 [] [0] [0] 1
  dot_S5000x128_S128x256_S5000x256_1_0_0_1_n_n_wf : DotDims.WF S5000x128 S128x256 S5000x256 [1] [0] [0] [1] [] []
  gather_S5000x128_S400000x1_S400000x128_1_0_n_n_0_1_1128_wf : GatherDims.WF S5000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S100000x128_S128x256_S100000x256_1_0_0_1_n_n_wf : DotDims.WF S100000x128 S128x256 S100000x256 [1] [0] [0] [1] [] []
  dot_S5000x256_S256x256_S5000x256_1_0_0_1_n_n_wf : DotDims.WF S5000x256 S256x256 S5000x256 [1] [0] [0] [1] [] []
  gather_S5000x256_S400000x1_S400000x256_1_0_n_n_0_1_1256_wf : GatherDims.WF S5000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x256_S100000x256_1_0_0_1_n_n_wf : DotDims.WF S100000x256 S256x256 S100000x256 [1] [0] [0] [1] [] []
  dot_S20000x128_S128x256_S20000x256_1_0_0_1_n_n_wf : DotDims.WF S20000x128 S128x256 S20000x256 [1] [0] [0] [1] [] []
  gather_S20000x256_S50000x1_S50000x256_1_0_n_n_0_1_1256_wf : GatherDims.WF S20000x256 S50000x1 S50000x256 [1] [0] [] [0] [] 1 ![1, 256]
  gather_S5000x256_S50000x1_S50000x256_1_0_n_n_0_1_1256_wf : GatherDims.WF S5000x256 S50000x1 S50000x256 [1] [0] [] [0] [] 1 ![1, 256]
  gather_S100000x256_S50000x1_S50000x256_1_0_n_n_0_1_1256_wf : GatherDims.WF S100000x256 S50000x1 S50000x256 [1] [0] [] [0] [] 1 ![1, 256]
  dot_S50000x768_S768x256_S50000x256_1_0_0_1_n_n_wf : DotDims.WF S50000x768 S768x256 S50000x256 [1] [0] [0] [1] [] []
  dot_S50000x256_S256x1_S50000x1_1_0_0_1_n_n_wf : DotDims.WF S50000x256 S256x1 S50000x1 [1] [0] [0] [1] [] []

variable [Facts₀]

def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def scatter_S5000x128_S200000x1_S200000x128_1_0_0_1 : ScatterDims S5000x128 S200000x1 S200000x128 where
  updateWindowDims := [1]
  insertedWindowDims := [0]
  scatterDimsToOperandDims := [0]
  indexVectorDim := 1
  wf := scatter_S5000x128_S200000x1_S200000x128_1_0_0_1_wf
def scatter_S5000_S200000x1_S200000_n_0_0_1 : ScatterDims S5000 S200000x1 S200000 where
  updateWindowDims := []
  insertedWindowDims := [0]
  scatterDimsToOperandDims := [0]
  indexVectorDim := 1
  wf := scatter_S5000_S200000x1_S200000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S5000x128_S400000x1_S400000x128_1_0_n_n_0_1_1128 : GatherDims S5000x128 S400000x1 S400000x128 where
  offsetDims := [1]
  collapsedSliceDims := [0]
  operandBatchingDims := []
  startIndicesBatchingDims := []
  startIndexMap := [0]
  indexVectorDim := 1
  sliceSizes := ![1, 128]
  wf := gather_S5000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S5000x256_S400000x1_S400000x256_1_0_n_n_0_1_1256 : GatherDims S5000x256 S400000x1 S400000x256 where
  offsetDims := [1]
  collapsedSliceDims := [0]
  operandBatchingDims := []
  startIndicesBatchingDims := []
  startIndexMap := [0]
  indexVectorDim := 1
  sliceSizes := ![1, 256]
  wf := gather_S5000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def gather_S20000x256_S50000x1_S50000x256_1_0_n_n_0_1_1256 : GatherDims S20000x256 S50000x1 S50000x256 where
  offsetDims := [1]
  collapsedSliceDims := [0]
  operandBatchingDims := []
  startIndicesBatchingDims := []
  startIndexMap := [0]
  indexVectorDim := 1
  sliceSizes := ![1, 256]
  wf := gather_S20000x256_S50000x1_S50000x256_1_0_n_n_0_1_1256_wf
def gather_S5000x256_S50000x1_S50000x256_1_0_n_n_0_1_1256 : GatherDims S5000x256 S50000x1 S50000x256 where
  offsetDims := [1]
  collapsedSliceDims := [0]
  operandBatchingDims := []
  startIndicesBatchingDims := []
  startIndexMap := [0]
  indexVectorDim := 1
  sliceSizes := ![1, 256]
  wf := gather_S5000x256_S50000x1_S50000x256_1_0_n_n_0_1_1256_wf
def gather_S100000x256_S50000x1_S50000x256_1_0_n_n_0_1_1256 : GatherDims S100000x256 S50000x1 S50000x256 where
  offsetDims := [1]
  collapsedSliceDims := [0]
  operandBatchingDims := []
  startIndicesBatchingDims := []
  startIndexMap := [0]
  indexVectorDim := 1
  sliceSizes := ![1, 256]
  wf := gather_S100000x256_S50000x1_S50000x256_1_0_n_n_0_1_1256_wf
def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KRun.lean ====
/-
  The idealized kernel's run with every buffer named. @main is thirteen segments: seven stretches of host
  operations alternating with six pipelined kernel regions. The contents of the TensorCore's buffers at the
  boundary after segment j are a fold from the launch memory: a host stretch applies its operations' pure
  functions, a region replaces each of its output arrays by what its grid points' write-backs leave and keeps
  every other buffer. Every weakly fair execution terminates without a fault, and the final memory holds, at
  every buffer that outlives the regions, the last boundary's contents. The result array and the argument
  arrays are read off this one statement.
-/
import proofs.«175308_j62130996904304_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, in a memory that agrees with the last
    boundary's contents on every buffer that is not scoped to a region. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The result array ends at the last boundary's contents, and each argument array as launched. -/
theorem run_result : θ_run defs (onTc (τ := τ) (main (F := F))) ⟨m, fun _ => 0, ρ⟩ (fun r => ∀ c : Dev nD,
      r.2.mem ((c : Thread nD τ).loc main_v94) = W13 m ρ c (Proc.devRef .tc main_v94)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)) :=
  (θ_run defs _ _).mono (fun r h c =>
    ⟨h c _ (mem_uc main_v94 (by decide)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c),
     (h c _ (mem_uc main_arg12 (by decide))).trans (W13_main_arg12 m ρ c),
     (h c _ (mem_uc main_arg13 (by decide))).trans (W13_main_arg13 m ρ c),
     (h c _ (mem_uc main_arg14 (by decide))).trans (W13_main_arg14 m ρ c),
     (h c _ (mem_uc main_arg15 (by decide))).trans (W13_main_arg15 m ρ c),
     (h c _ (mem_uc main_arg16 (by decide))).trans (W13_main_arg16 m ρ c),
     (h c _ (mem_uc main_arg17 (by decide))).trans (W13_main_arg17 m ρ c),
     (h c _ (mem_uc main_arg18 (by decide))).trans (W13_main_arg18 m ρ c),
     (h c _ (mem_uc main_arg19 (by decide))).trans (W13_main_arg19 m ρ c),
     (h c _ (mem_uc main_arg20 (by decide))).trans (W13_main_arg20 m ρ c),
     (h c _ (mem_uc main_arg21 (by decide))).trans (W13_main_arg21 m ρ c),
     (h c _ (mem_uc main_arg22 (by decide))).trans (W13_main_arg22 m ρ c),
     (h c _ (mem_uc main_arg23 (by decide))).trans (W13_main_arg23 m ρ c),
     (h c _ (mem_uc main_arg24 (by decide))).trans (W13_main_arg24 m ρ c),
     (h c _ (mem_uc main_arg25 (by decide))).trans (W13_main_arg25 m ρ c),
     (h c _ (mem_uc main_arg26 (by decide))).trans (W13_main_arg26 m ρ c),
     (h c _ (mem_uc main_arg27 (by decide))).trans (W13_main_arg27 m ρ c)⟩)
    (run_boundary m ρ)

end Cert.KernelIdeal.Hand

end
-- ==== Proof.Spec.lean ====
/-
  What the six kernel regions and the reference's matching stages compute, index by index, over the extended
  reals, and the one law that joins the two forms of the head.

  A graph layer: row `i`, column `j` of the result is
    max ( (Σ_k mean[i,k] · Wl[j,k] + bl[j]) + Σ_k x[i,k] · Wr[j,k] , 0 ).
  The projection: Σ_k x[i,k] · W[j,k] + b[j].
  The head: for row `r`,
    Σ_j max( ((Σ_k hp[r,k]·W1[j,k] + Σ_k hm[r,k]·W1[j,256+k]) + Σ_k ht[r,k]·W1[j,512+k]) + b1[j] , 0 ) · w2[j] + b2.
  The kernel computes the three inner sums as three matrix products against column blocks of W1 and adds them; the
  reference lays hp, hm, ht side by side and takes ONE product of width 768. The two agree because a sum over
  768 consecutive indices is the sum of its three blocks of 256, which holds in any commutative monoid, so in
  particular on the extended reals with no finiteness assumption.
-/
import Idealize.ShloMosaic.PureOps.Ideal
import Idealize.ShloMosaic.Lib.ValueIdx

noncomputable section

namespace Cert.Hand.Spec

open Idealize.ShloMosaic Idealize.ShloMosaic.ValueIdx

/-- The zero word of the 32-bit format, as both programs spell the rectifier's threshold. -/
abbrev zeroWord : EReal := Ideal.ofBits .f32 0x00000000#32

/-- A graph layer's output: the rectified sum of the neighbour term, its bias, and the root term. -/
def sageAt {N D1 D2 : Nat} (mean : (⟨2, ![N, D1]⟩ : Shape).Idx → EReal) (wl : (⟨2, ![256, D1]⟩ : Shape).Idx → EReal)
    (b : Fin 256 → EReal) (x : (⟨2, ![N, D2]⟩ : Shape).Idx → EReal) (wr : (⟨2, ![256, D2]⟩ : Shape).Idx → EReal) :
    (⟨2, ![N, 256]⟩ : Shape).Idx → EReal :=
  fun i => max (((∑ k : Fin D1, mean (ix2 (i 0) k) * wl (ix2 (i 1) k)) + b (i 1))
    + ∑ k : Fin D2, x (ix2 (i 0) k) * wr (ix2 (i 1) k)) zeroWord

/-- The projection's output: a matrix product against the transposed weight, plus the bias. -/
def projAt {N D : Nat} (x : (⟨2, ![N, D]⟩ : Shape).Idx → EReal) (w : (⟨2, ![256, D]⟩ : Shape).Idx → EReal)
    (b : Fin 256 → EReal) : (⟨2, ![N, 256]⟩ : Shape).Idx → EReal :=
  fun i => (∑ k : Fin D, x (ix2 (i 0) k) * w (ix2 (i 1) k)) + b (i 1)

/-- Column `off + k` of a 768-wide row, for `k < 256` and `off ≤ 512`. -/
abbrev col (off : Nat) (h : off ≤ 512) (k : Fin 256) : Fin 768 := ⟨off + k.val, by have := k.isLt; omega⟩

/-- The hidden unit `j` of the head at row `r`, before the bias: the three blocks' products added in order. -/
def hiddenPre {N : Nat} (hp hm ht : (⟨2, ![N, 256]⟩ : Shape).Idx → EReal) (w1 : (⟨2, ![256, 768]⟩ : Shape).Idx → EReal)
    (r : Fin N) (j : Fin 256) : EReal :=
  ((∑ k : Fin 256, hp (ix2 r k) * w1 (ix2 j (col 0 (by omega) k)))
    + ∑ k : Fin 256, hm (ix2 r k) * w1 (ix2 j (col 256 (by omega) k)))
    + ∑ k : Fin 256, ht (ix2 r k) * w1 (ix2 j (col 512 (by omega) k))

/-- The head's output at row `r`. -/
def headAt {N : Nat} (hp hm ht : (⟨2, ![N, 256]⟩ : Shape).Idx → EReal) (w1 : (⟨2, ![256, 768]⟩ : Shape).Idx → EReal)
    (b1 w2 : Fin 256 → EReal) (b2 : EReal) : Fin N → EReal :=
  fun r => (∑ j : Fin 256, max (hiddenPre hp hm ht w1 r j + b1 j) zeroWord * w2 j) + b2

/-- A sum over 768 consecutive indices is the sum of its three blocks of 256, in any commutative monoid. -/
theorem sum_three_blocks {M : Type*} [AddCommMonoid M] (f : Fin 768 → M) :
    ∑ k : Fin 768, f k = ((∑ k : Fin 256, f (col 0 (by omega) k)) + ∑ k : Fin 256, f (col 256 (by omega) k))
      + ∑ k : Fin 256, f (col 512 (by omega) k) := by
  have h : ∑ k : Fin 768, f k = ∑ k : Fin ((256 + 256) + 256), f (Fin.cast (by norm_num) k) :=
    (Fintype.sum_equiv (finCongr (by norm_num : (256 + 256) + 256 = 768)) _ _ (fun k => rfl)).symm
  rw [h, Fin.sum_univ_add, Fin.sum_univ_add]
  refine congrArg₂ (· + ·) (congrArg₂ (· + ·) ?_ ?_) ?_ <;>
    exact Finset.sum_congr rfl fun k _ => congrArg f (Fin.ext (by simp [col] <;> omega))

end Cert.Hand.Spec

end
-- ==== Proof.LibMatmulNT.lean ====
/-
  A matrix product against a transposed right operand, on the extended reals, read at an index.

  For `x` of shape [M, K] and `w` of shape [N, K], contracting the second axis of both into a zero accumulator,
  entry (p, q) of the product is Σ_k x[p,k] · w[q,k]: the product's element is the sum over the contraction's
  index space of the two operands at the indices the dimension numbers build, and with ONE contracted axis that
  index space is `Fin K`; the left index keeps the output's row and takes `k` on its second axis, the right
  index keeps the output's column as ITS row and takes `k` on its second axis.
-/
import Idealize.ShloMosaic.PureOps.Ideal.Laws
import Idealize.ShloMosaic.Lib.ValueIdx

noncomputable section

namespace Cert.Hand.Lib

open Idealize.ShloMosaic Idealize.ShloMosaic.ValueIdx

section
variable {M K N : Nat}

local notation "D" => DotDims.transposedRhs M K N

/-- The left index keeps the output's row. -/
theorem lhs_row (j : (⟨2, ![M, N]⟩ : Shape).Idx) (k : (D).contr.Idx) : ((D).lhsIdx j k 0).val = (j 0).val := by
  unfold DotDims.lhsIdx
  rw [dif_neg (show ¬(0 : Fin (⟨2, ![M, K]⟩ : Shape).rank) ∈ (D).lhsBatch by simp [DotDims.transposedRhs]),
    dif_pos (show (0 : Fin (⟨2, ![M, K]⟩ : Shape).rank) ∈ (D).lhsNonContracting by simp [DotDims.transposedRhs])]
  rfl

/-- The left index takes the contraction's coordinate on its second axis. -/
theorem lhs_col (j : (⟨2, ![M, N]⟩ : Shape).Idx) (k : (D).contr.Idx) : ((D).lhsIdx j k 1).val = (k ⟨0, (Nat.one_pos : 0 < 1)⟩).val :=
  (D).lhsIdx_val_of_single rfl j k

/-- The right index keeps the output's column as its row. -/
theorem rhs_row (j : (⟨2, ![M, N]⟩ : Shape).Idx) (k : (D).contr.Idx) : ((D).rhsIdx j k 0).val = (j 1).val := by
  unfold DotDims.rhsIdx
  rw [dif_neg (show ¬(0 : Fin (⟨2, ![N, K]⟩ : Shape).rank) ∈ (D).rhsBatch by simp [DotDims.transposedRhs]),
    dif_pos (show (0 : Fin (⟨2, ![N, K]⟩ : Shape).rank) ∈ (D).rhsNonContracting by simp [DotDims.transposedRhs])]
  rfl

/-- The right index takes the contraction's coordinate on its second axis. -/
theorem rhs_col (j : (⟨2, ![M, N]⟩ : Shape).Idx) (k : (D).contr.Idx) : ((D).rhsIdx j k 1).val = (k ⟨0, (Nat.one_pos : 0 < 1)⟩).val :=
  (D).rhsIdx_val_of_single rfl j k

/-- Entry (p, q) of `x · wᵀ` into a zero accumulator is the sum over the shared coordinate. -/
theorem matmul_transposedRhs_apply {φ₁ φ₂ : FTy}
    (x : FVec Ideal (⟨2, ![M, K]⟩ : Shape) φ₁) (w : FVec Ideal (⟨2, ![N, K]⟩ : Shape) φ₂) (p : Fin M) (q : Fin N) :
    FloatOps.matmul (D) none x w (constant (F := Ideal) (⟨2, ![M, N]⟩ : Shape) .f32 0x00000000#32) (ix2 p q)
      = ∑ k : Fin K, x (ix2 p k) * w (ix2 q k) := by
  rw [Ideal.matmul_constant_zero_apply, ← Equiv.sum_comp (contrEquiv1 (D) K rfl rfl).symm]
  refine Finset.sum_congr rfl fun k _ => ?_
  have hk := contrEquiv1_symm_val (D) K rfl rfl k
  have el : (D).lhsIdx (ix2 p q) ((contrEquiv1 (D) K rfl rfl).symm k) = ix2 p k :=
    funext fun a => Fin.ext (by
      match a with
      | ⟨0, _⟩ => exact lhs_row _ _
      | ⟨1, _⟩ => exact (lhs_col _ _).trans hk)
  have er : (D).rhsIdx (ix2 p q) ((contrEquiv1 (D) K rfl rfl).symm k) = ix2 q k :=
    funext fun a => Fin.ext (by
      match a with
      | ⟨0, _⟩ => exact rhs_row _ _
      | ⟨1, _⟩ => exact (rhs_col _ _).trans hk)
  rw [el, er]

end

end Cert.Hand.Lib

end
-- ==== Proof.PaySage0.lean ====
/-
  The first graph layer's kernel body on one block of 1000 rows: two matrix products against transposed
  weights, the bias row added between them, rectified. Changes of float format are the identity on the
  extended reals, and a product into a zero accumulator is the plain sum over the shared coordinate, so
  the stored block is the layer's function of the loaded blocks, index by index.
-/
import proofs.«175308_j62130996904304_1_alg».proof.Proof.Gen.KernelIdeal.Skeleton
import proofs.«175308_j62130996904304_1_alg».proof.Proof.Spec
import proofs.«175308_j62130996904304_1_alg».proof.Proof.LibMatmulNT
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.KernelIdeal.Hand

open Cert.KernelIdeal Cert.KernelIdeal.Gen Cert.Hand.Spec Cert.Hand.Lib

/-- The bias row broadcast down the block, read at row `p`, column `q`, is the row's entry `q`. -/
theorem bias_row_1000 (b : Vec Ideal S1x256 .f32) (p : Fin 1000) (q : Fin 256) :
    broadcastTo S1000x256 b broadcasts_S1x256_S1000x256 (ix2 p q) = b (ix2 0 q) := by
  exact broadcastTo_apply b broadcasts_S1x256_S1000x256 (ix2 p q) (ix2 0 q) (fun a => by
    match a with
    | ⟨0, _⟩ => rfl
    | ⟨1, _⟩ => rfl)

/-- The body's stored block is the layer's function of its five loaded blocks. -/
theorem pay0_eq (x0 x1 : Vec Ideal S1000x128 .f32) (x2 x4 : Vec Ideal S256x128 .f32) (x3 : Vec Ideal S1x256 .f32) :
    k0_pay1 (F := Ideal) x0 x1 x2 x4 x3 = sageAt (N := 1000) x0 x2 (fun q => x3 (ix2 0 q)) x1 x4 := by
  funext i
  obtain ⟨p, q, rfl⟩ : ∃ (p : Fin 1000) (q : Fin 256), i = ix2 p q := ⟨i 0, i 1, eq_ix2 i⟩
  unfold k0_pay1 sageAt
  dsimp only
  simp only [shapeCast_self]
  refine congrArg₂ max (congrArg₂ (· + ·) (congrArg₂ (· + ·) ?_ ?_) ?_) rfl
  · exact matmul_transposedRhs_apply (M := 1000) (K := 128) (N := 256) _ _ p q
  · exact bias_row_1000 x3 p q
  · exact matmul_transposedRhs_apply (M := 1000) (K := 128) (N := 256) _ _ p q

end Cert.KernelIdeal.Hand

end
-- ==== Proof.Reg0.lean ====
/-
  The first graph layer's region (the peptide-to-MHC layer): five grid points, point `t` handling rows
  1000·t … 1000·t + 999 of the 5000-row result. The two row-blocked operands move with the output; the two
  weights and the bias row are fetched whole. A block's coordinate is always block index × block size + the
  coordinate inside the block, so the layer's function of the blocks at point `t` is the layer's function of
  the whole arrays restricted to the point's rows. The five row blocks tile the result, hence the array the
  region leaves is the layer's function of the arrays the region found.
-/
import proofs.«175308_j62130996904304_1_alg».proof.Proof.Gen.KernelIdeal.Frame
import proofs.«175308_j62130996904304_1_alg».proof.Proof.PaySage0
import Idealize.ShloMosaic.Lib.Pipeline.Value

set_option maxRecDepth 16384

noncomputable section

open Idealize.ShloMosaic Idealize.ShloMosaic.TcCoe Idealize.ShloMosaic.ValueIdx Idealize.SL.Sem

open Idealize.ShloMosaic.Pipeline (Dat)

namespace Cert.KernelIdeal.Hand

open Cert.KernelIdeal Cert.KernelIdeal.Gen Cert.Hand.Spec

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the five grid points: the row-blocked windows sit at block row `t`, the
    weights and the bias at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer's result as one function of the arrays the region finds. -/
abbrev layer0 (c : Dev nD) : S5000x256.Idx → EReal :=
  sageAt (N := 5000) (V c main_v18) (V c main_arg10) (fun q => V c main_v38 (ix2 0 q)) (V c main_arg1) (V c main_arg12)

/-- The aggregated-neighbour block at point `t` is rows 1000·t … of its array. -/
theorem blk0_0 (c : Dev nD) (t : Fin cfg0.N) (x : S1000x128.Idx) (k : S5000x128.Idx)
    (hk0 : (k 0).val = 1000 * t.val + (x 0).val) (hk1 : (k 1).val = (x 1).val) :
    (iblk0 V c 0 t : Vec Ideal S1000x128 .f32) x = (V c main_v18 : S5000x128.Idx → Elt Ideal .f32) k := by
  obtain ⟨e00, e01, -⟩ := idx0 t
  unfold iblk0
  rw [View.read_apply]
  show V c main_v18 _ = V c main_v18 _
  congr 1
  funext a
  apply Fin.ext
  match a with
  | ⟨0, _⟩ => show win0_0.index t 0 * 1000 + 1 * (x 0).val = (k 0).val; rw [e00, hk0]; omega
  | ⟨1, _⟩ => show win0_0.index t 1 * 128 + 1 * (x 1).val = (k 1).val; rw [e01, hk1]; omega

/-- The root-feature block at point `t` is rows 1000·t … of its array. -/
theorem blk0_1 (c : Dev nD) (t : Fin cfg0.N) (x : S1000x128.Idx) (k : S5000x128.Idx)
    (hk0 : (k 0).val = 1000 * t.val + (x 0).val) (hk1 : (k 1).val = (x 1).val) :
    (iblk0 V c 1 t : Vec Ideal S1000x128 .f32) x = (V c main_arg1 : S5000x128.Idx → Elt Ideal .f32) k := by
  obtain ⟨-, -, e10, e11, -⟩ := idx0 t
  unfold iblk0
  rw [View.read_apply]
  show V c main_arg1 _ = V c main_arg1 _
  congr 1
  funext a
  apply Fin.ext
  match a with
  | ⟨0, _⟩ => show win0_1.index t 0 * 1000 + 1 * (x 0).val = (k 0).val; rw [e10, hk0]; omega
  | ⟨1, _⟩ => show win0_1.index t 1 * 128 + 1 * (x 1).val = (k 1).val; rw [e11, hk1]; omega

/-- The neighbour weight is fetched whole at every point. -/
theorem blk0_2 (c : Dev nD) (t : Fin cfg0.N) (x : S256x128.Idx) :
    (iblk0 V c 2 t : Vec Ideal S256x128 .f32) x = (V c main_arg10 : S256x128.Idx → Elt Ideal .f32) x := by
  obtain ⟨-, -, -, -, e20, e21, -⟩ := idx0 t
  unfold iblk0
  rw [View.read_apply]
  show V c main_arg10 _ = V c main_arg10 _
  congr 1
  funext a
  apply Fin.ext
  match a with
  | ⟨0, _⟩ => show win0_2.index t 0 * 256 + 1 * (x 0).val = (x 0).val; rw [e20]; omega
  | ⟨1, _⟩ => show win0_2.index t 1 * 128 + 1 * (x 1).val = (x 1).val; rw [e21]; omega

/-- The bias row is fetched whole at every point. -/
theorem blk0_3 (c : Dev nD) (t : Fin cfg0.N) (x : S1x256.Idx) :
    (iblk0 V c 3 t : Vec Ideal S1x256 .f32) x = (V c main_v38 : S1x256.Idx → Elt Ideal .f32) x := by
  obtain ⟨-, -, -, -, -, -, e30, e31, -⟩ := idx0 t
  unfold iblk0
  rw [View.read_apply]
  show V c main_v38 _ = V c main_v38 _
  congr 1
  funext a
  apply Fin.ext
  match a with
  | ⟨0, _⟩ => show win0_3.index t 0 * 1 + 1 * (x 0).val = (x 0).val; rw [e30]; omega
  | ⟨1, _⟩ => show win0_3.index t 1 * 256 + 1 * (x 1).val = (x 1).val; rw [e31]; omega

/-- The root weight is fetched whole at every point. -/
theorem blk0_4 (c : Dev nD) (t : Fin cfg0.N) (x : S256x128.Idx) :
    (iblk0 V c 4 t : Vec Ideal S256x128 .f32) x = (V c main_arg12 : S256x128.Idx → Elt Ideal .f32) x := by
  obtain ⟨-, -, -, -, -, -, -, -, e40, e41, -⟩ := idx0 t
  unfold iblk0
  rw [View.read_apply]
  show V c main_arg12 _ = V c main_arg12 _
  congr 1
  funext a
  apply Fin.ext
  match a with
  | ⟨0, _⟩ => show win0_4.index t 0 * 256 + 1 * (x 0).val = (x 0).val; rw [e40]; omega
  | ⟨1, _⟩ => show win0_4.index t 1 * 128 + 1 * (x 1).val = (x 1).val; rw [e41]; omega

/-- What point `t` writes back is block `t` of the layer's result. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz0]
  simp only [View.ld_unit_zero (S := S1000x128) hz0, View.ld_unit_zero (S := S256x128) hz0, View.ld_unit_zero (S := S1x256) hz0]
  rw [pay0_eq]
  obtain ⟨-, -, -, -, -, -, -, -, -, -, e50, e51⟩ := idx0 t
  funext j
  have hj0 : (j 0).val < 1000 := (j 0).isLt
  have hj1 : (j 1).val < 256 := (j 1).isLt
  have r0 : ((((cfg0.win 5).blk t).view.emb j) 0).val = 1000 * t.val + (j 0).val := by
    show win0_5.index t 0 * 1000 + 1 * (j 0).val = _; rw [e50]; omega
  have r1 : ((((cfg0.win 5).blk t).view.emb j) 1).val = (j 1).val := by
    show win0_5.index t 1 * 256 + 1 * (j 1).val = _; rw [e51]; omega
  show sageAt (N := 1000) (iblk0 V c 0 t) (iblk0 V c 2 t) (fun q => iblk0 V c 3 t (ix2 0 q)) (iblk0 V c 1 t) (iblk0 V c 4 t) j
    = layer0 V c (((cfg0.win 5).blk t).view.emb j)
  unfold layer0 sageAt
  refine congrArg₂ max (congrArg₂ (· + ·) (congrArg₂ (· + ·)
    (Finset.sum_congr rfl fun k _ => congrArg₂ (· * ·) ?_ ?_) ?_)
    (Finset.sum_congr rfl fun k _ => congrArg₂ (· * ·) ?_ ?_)) rfl
  · exact blk0_0 V c t _ _ r0 rfl
  · exact (blk0_2 V c t _).trans (congrArg (V c main_arg10) (funext fun a => Fin.ext (by
      match a with
      | ⟨0, _⟩ => exact r1.symm
      | ⟨1, _⟩ => rfl)))
  · exact (blk0_3 V c t _).trans (congrArg (V c main_v38) (funext fun a => Fin.ext (by
      match a with
      | ⟨0, _⟩ => rfl
      | ⟨1, _⟩ => exact r1.symm)))
  · exact blk0_1 V c t _ _ r0 rfl
  · exact (blk0_4 V c t _).trans (congrArg (V c main_arg12) (funext fun a => Fin.ext (by
      match a with
      | ⟨0, _⟩ => exact r1.symm
      | ⟨1, _⟩ => rfl)))

/-- Every row of the result lies in the block of the point that handles its thousand. -/
theorem cover0 (i : S5000x256.Idx) : ∃ t : Fin cfg0.N, (cfg0.win 5).flush t = true ∧ i ∈ ((cfg0.win 5).blk t).view.set := by
  have h0 : (i 0).val < 5000 := (i 0).isLt
  have h1 : (i 1).val < 256 := (i 1).isLt
  have hN : cfg0.N = 5 := N_0
  obtain ⟨t0, ht0⟩ : ∃ t0 : Fin cfg0.N, t0.val = (i 0).val / 1000 := ⟨⟨(i 0).val / 1000, by rw [hN]; omega⟩, rfl⟩
  refine ⟨t0, flush0_5 t0, ?_⟩
  obtain ⟨-, -, -, -, -, -, -, -, -, -, e50, e51⟩ := idx0 t0
  show i ∈ ((View.whole main_v39).slice (win0_5.rect t0)).set
  rw [View.set_slice_whole, Rect.mem_set_unit]
  intro a
  match a with
  | ⟨0, _⟩ =>
    show win0_5.index t0 0 * 1000 ≤ (i 0).val ∧ (i 0).val < win0_5.index t0 0 * 1000 + 1000
    rw [e50, ht0]; omega
  | ⟨1, _⟩ =>
    show win0_5.index t0 1 * 256 ≤ (i 1).val ∧ (i 1).val < win0_5.index t0 1 * 256 + 256
    rw [e51]; omega

/-- The array the region leaves: the layer's function of the arrays it found. -/
theorem arr0 (c : Dev nD) : (dat0 V c).arrAt 5 cfg0.N = layer0 V c :=
  (dat0 V c).arrAt_eq_of_cover 5 (layer0 V c) (fun t _ => flushed0 V c t) (cover0)

end Cert.KernelIdeal.Hand

end
-- ==== Proof.PaySage1.lean ====
/-
  The first graph layer's kernel body for the receptor nodes, on one block of 2000 rows: two matrix products against transposed
  weights, the bias row added between them, rectified. Changes of float format are the identity on the
  extended reals, and a product into a zero accumulator is the plain sum over the shared coordinate, so
  the stored block is the layer's function of the loaded blocks, index by index.
-/
import proofs.«175308_j62130996904304_1_alg».proof.Proof.Gen.KernelIdeal.Skeleton
import proofs.«175308_j62130996904304_1_alg».proof.Proof.Spec
import proofs.«175308_j62130996904304_1_alg».proof.Proof.LibMatmulNT
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.KernelIdeal.Hand

open Cert.KernelIdeal Cert.KernelIdeal.Gen Cert.Hand.Spec Cert.Hand.Lib

/-- The bias row broadcast down the block, read at row `p`, column `q`, is the row's entry `q`. -/
theorem bias_row_2000 (b : Vec Ideal S1x256 .f32) (p : Fin 2000) (q : Fin 256) :
    broadcastTo S2000x256 b broadcasts_S1x256_S2000x256 (ix2 p q) = b (ix2 0 q) := by
  exact broadcastTo_apply b broadcasts_S1x256_S2000x256 (ix2 p q) (ix2 0 q) (fun a => by
    match a with
    | ⟨0, _⟩ => rfl
    | ⟨1, _⟩ => rfl)

/-- The body's stored block is the layer's function of its five loaded blocks. -/
theorem pay1_eq (x0 x1 : Vec Ideal S2000x128 .f32) (x2 x4 : Vec Ideal S256x128 .f32) (x3 : Vec Ideal S1x256 .f32) :
    k1_pay1 (F := Ideal) x0 x1 x2 x4 x3 = sageAt (N := 2000) x0 x2 (fun q => x3 (ix2 0 q)) x1 x4 := by
  funext i
  obtain ⟨p, q, rfl⟩ : ∃ (p : Fin 2000) (q : Fin 256), i = ix2 p q := ⟨i 0, i 1, eq_ix2 i⟩
  unfold k1_pay1 sageAt
  dsimp only
  simp only [shapeCast_self]
  refine congrArg₂ max (congrArg₂ (· + ·) (congrArg₂ (· + ·) ?_ ?_) ?_) rfl
  · exact matmul_transposedRhs_apply (M := 2000) (K := 128) (N := 256) _ _ p q
  · exact bias_row_2000 x3 p q
  · exact matmul_transposedRhs_apply (M := 2000) (K := 128) (N := 256) _ _ p q

end Cert.KernelIdeal.Hand

end
-- ==== Proof.Reg1.lean ====
/-
  The first graph layer's region for the receptor nodes (the MHC-to-receptor layer): fifty grid points, point `t` handling rows
  2000·t … 2000·t + 1999 of the 100000-row result. The two row-blocked operands move with the output; the two
  weights and the bias row are fetched whole. A block's coordinate is always block index × block size + the
  coordinate inside the block, so the layer's function of the blocks at point `t` is the layer's function of
  the whole arrays restricted to the point's rows. The fifty row blocks tile the result, hence the array the
  region leaves is the layer's function of the arrays the region found.
-/
import proofs.«175308_j62130996904304_1_alg».proof.Proof.Gen.KernelIdeal.Frame
import proofs.«175308_j62130996904304_1_alg».proof.Proof.PaySage1
import Idealize.ShloMosaic.Lib.Pipeline.Value

set_option maxRecDepth 16384

noncomputable section

open Idealize.ShloMosaic Idealize.ShloMosaic.TcCoe Idealize.ShloMosaic.ValueIdx Idealize.SL.Sem

open Idealize.ShloMosaic.Pipeline (Dat)

namespace Cert.KernelIdeal.Hand

open Cert.KernelIdeal Cert.KernelIdeal.Gen Cert.Hand.Spec

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the fifty grid points: the row-blocked windows sit at block row `t`, the
    weights and the bias at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer's result as one function of the arrays the region finds. -/
abbrev layer1 (c : Dev nD) : S100000x256.Idx → EReal :=
  sageAt (N := 100000) (V c main_v37) (V c main_arg13) (fun q => V c main_v40 (ix2 0 q)) (V c main_arg2) (V c main_arg15)

/-- The aggregated-neighbour block at point `t` is rows 2000·t … of its array. -/
theorem blk1_0 (c : Dev nD) (t : Fin cfg1.N) (x : S2000x128.Idx) (k : S100000x128.Idx)
    (hk0 : (k 0).val = 2000 * t.val + (x 0).val) (hk1 : (k 1).val = (x 1).val) :
    (iblk1 V c 0 t : Vec Ideal S2000x128 .f32) x = (V c main_v37 : S100000x128.Idx → Elt Ideal .f32) k := by
  obtain ⟨e00, e01, -⟩ := idx1 t
  unfold iblk1
  rw [View.read_apply]
  show V c main_v37 _ = V c main_v37 _
  congr 1
  funext a
  apply Fin.ext
  match a with
  | ⟨0, _⟩ => show win1_0.index t 0 * 2000 + 1 * (x 0).val = (k 0).val; rw [e00, hk0]; omega
  | ⟨1, _⟩ => show win1_0.index t 1 * 128 + 1 * (x 1).val = (k 1).val; rw [e01, hk1]; omega

/-- The root-feature block at point `t` is rows 2000·t … of its array. -/
theorem blk1_1 (c : Dev nD) (t : Fin cfg1.N) (x : S2000x128.Idx) (k : S100000x128.Idx)
    (hk0 : (k 0).val = 2000 * t.val + (x 0).val) (hk1 : (k 1).val = (x 1).val) :
    (iblk1 V c 1 t : Vec Ideal S2000x128 .f32) x = (V c main_arg2 : S100000x128.Idx → Elt Ideal .f32) k := by
  obtain ⟨-, -, e10, e11, -⟩ := idx1 t
  unfold iblk1
  rw [View.read_apply]
  show V c main_arg2 _ = V c main_arg2 _
  congr 1
  funext a
  apply Fin.ext
  match a with
  | ⟨0, _⟩ => show win1_1.index t 0 * 2000 + 1 * (x 0).val = (k 0).val; rw [e10, hk0]; omega
  | ⟨1, _⟩ => show win1_1.index t 1 * 128 + 1 * (x 1).val = (k 1).val; rw [e11, hk1]; omega

/-- The neighbour weight is fetched whole at every point. -/
theorem blk1_2 (c : Dev nD) (t : Fin cfg1.N) (x : S256x128.Idx) :
    (iblk1 V c 2 t : Vec Ideal S256x128 .f32) x = (V c main_arg13 : S256x128.Idx → Elt Ideal .f32) x := by
  obtain ⟨-, -, -, -, e20, e21, -⟩ := idx1 t
  unfold iblk1
  rw [View.read_apply]
  show V c main_arg13 _ = V c main_arg13 _
  congr 1
  funext a
  apply Fin.ext
  match a with
  | ⟨0, _⟩ => show win1_2.index t 0 * 256 + 1 * (x 0).val = (x 0).val; rw [e20]; omega
  | ⟨1, _⟩ => show win1_2.index t 1 * 128 + 1 * (x 1).val = (x 1).val; rw [e21]; omega

/-- The bias row is fetched whole at every point. -/
theorem blk1_3 (c : Dev nD) (t : Fin cfg1.N) (x : S1x256.Idx) :
    (iblk1 V c 3 t : Vec Ideal S1x256 .f32) x = (V c main_v40 : S1x256.Idx → Elt Ideal .f32) x := by
  obtain ⟨-, -, -, -, -, -, e30, e31, -⟩ := idx1 t
  unfold iblk1
  rw [View.read_apply]
  show V c main_v40 _ = V c main_v40 _
  congr 1
  funext a
  apply Fin.ext
  match a with
  | ⟨0, _⟩ => show win1_3.index t 0 * 1 + 1 * (x 0).val = (x 0).val; rw [e30]; omega
  | ⟨1, _⟩ => show win1_3.index t 1 * 256 + 1 * (x 1).val = (x 1).val; rw [e31]; omega

/-- The root weight is fetched whole at every point. -/
theorem blk1_4 (c : Dev nD) (t : Fin cfg1.N) (x : S256x128.Idx) :
    (iblk1 V c 4 t : Vec Ideal S256x128 .f32) x = (V c main_arg15 : S256x128.Idx → Elt Ideal .f32) x := by
  obtain ⟨-, -, -, -, -, -, -, -, e40, e41, -⟩ := idx1 t
  unfold iblk1
  rw [View.read_apply]
  show V c main_arg15 _ = V c main_arg15 _
  congr 1
  funext a
  apply Fin.ext
  match a with
  | ⟨0, _⟩ => show win1_4.index t 0 * 256 + 1 * (x 0).val = (x 0).val; rw [e40]; omega
  | ⟨1, _⟩ => show win1_4.index t 1 * 128 + 1 * (x 1).val = (x 1).val; rw [e41]; omega

/-- What point `t` writes back is block `t` of the layer's result. -/
theorem flushed1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz1]
  simp only [View.ld_unit_zero (S := S2000x128) hz1, View.ld_unit_zero (S := S256x128) hz1, View.ld_unit_zero (S := S1x256) hz1]
  rw [pay1_eq]
  obtain ⟨-, -, -, -, -, -, -, -, -, -, e50, e51⟩ := idx1 t
  funext j
  have hj0 : (j 0).val < 2000 := (j 0).isLt
  have hj1 : (j 1).val < 256 := (j 1).isLt
  have r0 : ((((cfg1.win 5).blk t).view.emb j) 0).val = 2000 * t.val + (j 0).val := by
    show win1_5.index t 0 * 2000 + 1 * (j 0).val = _; rw [e50]; omega
  have r1 : ((((cfg1.win 5).blk t).view.emb j) 1).val = (j 1).val := by
    show win1_5.index t 1 * 256 + 1 * (j 1).val = _; rw [e51]; omega
  show sageAt (N := 2000) (iblk1 V c 0 t) (iblk1 V c 2 t) (fun q => iblk1 V c 3 t (ix2 0 q)) (iblk1 V c 1 t) (iblk1 V c 4 t) j
    = layer1 V c (((cfg1.win 5).blk t).view.emb j)
  unfold layer1 sageAt
  refine congrArg₂ max (congrArg₂ (· + ·) (congrArg₂ (· + ·)
    (Finset.sum_congr rfl fun k _ => congrArg₂ (· * ·) ?_ ?_) ?_)
    (Finset.sum_congr rfl fun k _ => congrArg₂ (· * ·) ?_ ?_)) rfl
  · exact blk1_0 V c t _ _ r0 rfl
  · exact (blk1_2 V c t _).trans (congrArg (V c main_arg13) (funext fun a => Fin.ext (by
      match a with
      | ⟨0, _⟩ => exact r1.symm
      | ⟨1, _⟩ => rfl)))
  · exact (blk1_3 V c t _).trans (congrArg (V c main_v40) (funext fun a => Fin.ext (by
      match a with
      | ⟨0, _⟩ => rfl
      | ⟨1, _⟩ => exact r1.symm)))
  · exact blk1_1 V c t _ _ r0 rfl
  · exact (blk1_4 V c t _).trans (congrArg (V c main_arg15) (funext fun a => Fin.ext (by
      match a with
      | ⟨0, _⟩ => exact r1.symm
      | ⟨1, _⟩ => rfl)))

/-- Every row of the result lies in the block of the point that handles its two thousand. -/
theorem cover1 (i : S100000x256.Idx) : ∃ t : Fin cfg1.N, (cfg1.win 5).flush t = true ∧ i ∈ ((cfg1.win 5).blk t).view.set := by
  have h0 : (i 0).val < 100000 := (i 0).isLt
  have h1 : (i 1).val < 256 := (i 1).isLt
  have hN : cfg1.N = 50 := N_1
  obtain ⟨t0, ht0⟩ : ∃ t0 : Fin cfg1.N, t0.val = (i 0).val / 2000 := ⟨⟨(i 0).val / 2000, by rw [hN]; omega⟩, rfl⟩
  refine ⟨t0, flush1_5 t0, ?_⟩
  obtain ⟨-, -, -, -, -, -, -, -, -, -, e50, e51⟩ := idx1 t0
  show i ∈ ((View.whole main_v41).slice (win1_5.rect t0)).set
  rw [View.set_slice_whole, Rect.mem_set_unit]
  intro a
  match a with
  | ⟨0, _⟩ =>
    show win1_5.index t0 0 * 2000 ≤ (i 0).val ∧ (i 0).val < win1_5.index t0 0 * 2000 + 2000
    rw [e50, ht0]; omega
  | ⟨1, _⟩ =>
    show win1_5.index t0 1 * 256 ≤ (i 1).val ∧ (i 1).val < win1_5.index t0 1 * 256 + 256
    rw [e51]; omega

/-- The array the region leaves: the layer's function of the arrays it found. -/
theorem arr1 (c : Dev nD) : (dat1 V c).arrAt 5 cfg1.N = layer1 V c :=
  (dat1 V c).arrAt_eq_of_cover 5 (layer1 V c) (fun t _ => flushed1 V c t) (cover1)

end Cert.KernelIdeal.Hand

end
-- ==== Proof.SpecHead.lean ====
/-
  The head on one block, with the three column blocks of the first head weight given as three separate
  256 × 256 arrays (as the kernel receives them), and its agreement with the head stated over the whole
  256 × 768 weight when the three arrays ARE its column blocks.
-/
import proofs.«175308_j62130996904304_1_alg».proof.Proof.Spec

noncomputable section

namespace Cert.Hand.Spec

open Idealize.ShloMosaic Idealize.ShloMosaic.ValueIdx

/-- Hidden unit `j` at row `r` before the bias, from three separate weight blocks. -/
def hiddenPre3 {N : Nat} (hp hm ht : (⟨2, ![N, 256]⟩ : Shape).Idx → EReal) (wp wm wt : (⟨2, ![256, 256]⟩ : Shape).Idx → EReal)
    (r : Fin N) (j : Fin 256) : EReal :=
  ((∑ k : Fin 256, hp (ix2 r k) * wp (ix2 j k)) + ∑ k : Fin 256, hm (ix2 r k) * wm (ix2 j k))
    + ∑ k : Fin 256, ht (ix2 r k) * wt (ix2 j k)

/-- The head's output column (one entry per row), from three separate weight blocks. -/
def headAt3 {N : Nat} (hp hm ht : (⟨2, ![N, 256]⟩ : Shape).Idx → EReal) (wp wm wt : (⟨2, ![256, 256]⟩ : Shape).Idx → EReal)
    (b1 w2 : Fin 256 → EReal) (b2 : EReal) : (⟨2, ![N, 1]⟩ : Shape).Idx → EReal :=
  fun i => (∑ j : Fin 256, max (hiddenPre3 hp hm ht wp wm wt (i 0) j + b1 j) zeroWord * w2 j) + b2

/-- When the three blocks are columns 0…255, 256…511, 512…767 of one weight, this is the head over that weight. -/
theorem headAt3_blocks {N : Nat} (hp hm ht : (⟨2, ![N, 256]⟩ : Shape).Idx → EReal) (w1 : (⟨2, ![256, 768]⟩ : Shape).Idx → EReal)
    (b1 w2 : Fin 256 → EReal) (b2 : EReal) (i : (⟨2, ![N, 1]⟩ : Shape).Idx) :
    headAt3 hp hm ht (fun x => w1 (ix2 (x 0) (col 0 (by omega) (x 1)))) (fun x => w1 (ix2 (x 0) (col 256 (by omega) (x 1))))
      (fun x => w1 (ix2 (x 0) (col 512 (by omega) (x 1)))) b1 w2 b2 i = headAt hp hm ht w1 b1 w2 b2 (i 0) := rfl

end Cert.Hand.Spec

end
-- ==== Proof.Ref0.lean ====
/-
  The reference's first graph layer for the MHC nodes, read index by index: its matrix product against the
  transposed neighbour weight, the bias broadcast along rows, the product of the root features against the
  transposed root weight, and the rectifier are the layer's function of the aggregated neighbour features,
  the two weights, the bias and the root features. A transposed weight read at (k, j) is the weight at (j, k).
-/
import proofs.«175308_j62130996904304_1_alg».proof.Proof.Gen.ReferenceIdeal.Read
import proofs.«175308_j62130996904304_1_alg».proof.Proof.SpecHead
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.ReferenceIdeal.Hand

open Cert.ReferenceIdeal Cert.ReferenceIdeal.Read Cert.Hand.Spec

/-- The first layer for the MHC nodes is the layer's function. -/
theorem ref_layer0 (x0 : (⟨S20000x128, .f32⟩ : BufTy).Contents (Elt Ideal)) (x1 : (⟨S5000x128, .f32⟩ : BufTy).Contents (Elt Ideal)) (x3 : (⟨S200000, .i32⟩ : BufTy).Contents (Elt Ideal)) (x4 : (⟨S200000, .i32⟩ : BufTy).Contents (Elt Ideal)) (x10 : (⟨S256x128, .f32⟩ : BufTy).Contents (Elt Ideal)) (x11 : (⟨S256, .f32⟩ : BufTy).Contents (Elt Ideal)) (x12 : (⟨S256x128, .f32⟩ : BufTy).Contents (Elt Ideal)) :
    val_main_v27 (F := Ideal) x0 x1 x3 x4 x10 x11 x12
      = sageAt (N := 5000) (val_main_v18 (F := Ideal) x0 x3 x4) x10 (fun q => x11 (ix1 q)) x1 x12 := by
  funext i
  rw [val_main_v27_apply, val_main_v26_apply, val_main_v23_apply, val_main_v20_apply, val_main_v25_apply, val_main_v22_apply,
    val_main_v21_apply, val_main_call0_v0_apply, val_main_call0_cst_apply]
  unfold sageAt
  refine congrArg₂ max (congrArg₂ (· + ·) (congrArg₂ (· + ·)
    (Finset.sum_congr rfl fun k _ => congrArg₂ (· * ·) ?_ ?_) ?_)
    (Finset.sum_congr rfl fun k _ => congrArg₂ (· * ·) ?_ ?_)) rfl
  · exact congrArg _ (funext fun a => Fin.ext (by
      match a with
      | ⟨0, _⟩ => rfl
      | ⟨1, _⟩ => rfl))
  · rw [val_main_v19_apply]
    exact congrArg x10 (funext fun a => Fin.ext (by
      match a with
      | ⟨0, _⟩ => rfl
      | ⟨1, _⟩ => rfl))
  · exact congrArg x11 (funext fun a => Fin.ext (by
      match a with
      | ⟨0, _⟩ => rfl))
  · exact congrArg x1 (funext fun a => Fin.ext (by
      match a with
      | ⟨0, _⟩ => rfl
      | ⟨1, _⟩ => rfl))
  · rw [val_main_v24_apply]
    exact congrArg x12 (funext fun a => Fin.ext (by
      match a with
      | ⟨0, _⟩ => rfl
      | ⟨1, _⟩ => rfl))

end Cert.ReferenceIdeal.Hand

end
-- ==== Proof.Ref1.lean ====
/-
  The reference's first graph layer for the receptor nodes, read index by index: its matrix product against the
  transposed neighbour weight, the bias broadcast along rows, the product of the root features against the
  transposed root weight, and the rectifier are the layer's function of the aggregated neighbour features,
  the two weights, the bias and the root features. A transposed weight read at (k, j) is the weight at (j, k).
-/
import proofs.«175308_j62130996904304_1_alg».proof.Proof.Gen.ReferenceIdeal.Read
import proofs.«175308_j62130996904304_1_alg».proof.Proof.SpecHead
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.ReferenceIdeal.Hand

open Cert.ReferenceIdeal Cert.ReferenceIdeal.Read Cert.Hand.Spec

/-- The first layer for the receptor nodes is the layer's function. -/
theorem ref_layer1 (x1 : (⟨S5000x128, .f32⟩ : BufTy).Contents (Elt Ideal)) (x2 : (⟨S100000x128, .f32⟩ : BufTy).Contents (Elt Ideal)) (x5 : (⟨S400000, .i32⟩ : BufTy).Contents (Elt Ideal)) (x6 : (⟨S400000, .i32⟩ : BufTy).Contents (Elt Ideal)) (x13 : (⟨S256x128, .f32⟩ : BufTy).Contents (Elt Ideal)) (x14 : (⟨S256, .f32⟩ : BufTy).Contents (Elt Ideal)) (x15 : (⟨S256x128, .f32⟩ : BufTy).Contents (Elt Ideal)) :
    val_main_v55 (F := Ideal) x1 x2 x5 x6 x13 x14 x15
      = sageAt (N := 100000) (val_main_v46 (F := Ideal) x1 x5 x6) x13 (fun q => x14 (ix1 q)) x2 x15 := by
  funext i
  rw [val_main_v55_apply, val_main_v54_apply, val_main_v51_apply, val_main_v48_apply, val_main_v53_apply, val_main_v50_apply,
    val_main_v49_apply, val_main_call1_v0_apply, val_main_call1_cst_apply]
  unfold sageAt
  refine congrArg₂ max (congrArg₂ (· + ·) (congrArg₂ (· + ·)
    (Finset.sum_congr rfl fun k _ => congrArg₂ (· * ·) ?_ ?_) ?_)
    (Finset.sum_congr rfl fun k _ => congrArg₂ (· * ·) ?_ ?_)) rfl
  · exact congrArg _ (funext fun a => Fin.ext (by
      match a with
      | ⟨0, _⟩ => rfl
      | ⟨1, _⟩ => rfl))
  · rw [val_main_v47_apply]
    exact congrArg x13 (funext fun a => Fin.ext (by
      match a with
      | ⟨0, _⟩ => rfl
      | ⟨1, _⟩ => rfl))
  · exact congrArg x14 (funext fun a => Fin.ext (by
      match a with
      | ⟨0, _⟩ => rfl))
  · exact congrArg x2 (funext fun a => Fin.ext (by
      match a with
      | ⟨0, _⟩ => rfl
      | ⟨1, _⟩ => rfl))
  · rw [val_main_v52_apply]
    exact congrArg x15 (funext fun a => Fin.ext (by
      match a with
      | ⟨0, _⟩ => rfl
      | ⟨1, _⟩ => rfl))

end Cert.ReferenceIdeal.Hand

end
-- ==== Proof.ChainA.lean ====
/-
  The buffers' contents at the first four boundaries of the idealized kernel's @main, named by the reference's
  stages. Before the first region the host operations aggregate neighbour features (a gather, two scatter-adds,
  a division): the same operations on the same arguments as the reference's, so their result IS the reference's
  stage. The first region then leaves the first layer's function of those contents, which is the reference's
  first-layer stage; likewise the second region for the receptor nodes. A buffer that a stretch of host
  operations does not write, and that a region does not write back, keeps its contents across it. The bias is
  handed to a region as a 1 × 256 row: entry (0, q) of that row is entry q of the bias.
-/
import proofs.«175308_j62130996904304_1_alg».proof.Proof.KRun
import proofs.«175308_j62130996904304_1_alg».proof.Proof.Reg0
import proofs.«175308_j62130996904304_1_alg».proof.Proof.Reg1
import proofs.«175308_j62130996904304_1_alg».proof.Proof.Ref0
import proofs.«175308_j62130996904304_1_alg».proof.Proof.Ref1
import Idealize.ShloMosaic.Lib.StableHlo.Run
import Idealize.ShloMosaic.Lib.Pipeline.Value

set_option maxRecDepth 16384

noncomputable section

open Idealize.ShloMosaic Idealize.ShloMosaic.TcCoe Idealize.ShloMosaic.ValueIdx Idealize.SL.Sem Idealize.ShloMosaic.StableHlo

namespace Cert.KernelIdeal.Hand

open Cert.KernelIdeal Cert.KernelIdeal.Gen Cert.Hand.Spec Cert.ReferenceIdeal.Hand

variable (m : (ℓ : Loc nD τ sig) → Buf (Elt Ideal) ℓ) (ρ : Dev nD → PrngReg)

/-- One stretch of host operations back, for a buffer none of them writes. -/
macro "host_back" : tactic => `(tactic| (
  refine (StableHlo.after_of_forall_not_mem _ _ (List.forall_iff_forall_mem.mp ?_)).trans ?_
  · simp only [hostOps0, hostOps1, hostOps2, hostOps3, hostOps4, hostOps5, hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A 256-vector reshaped to a 1 × 256 row, read at (0, q). -/
theorem row_of_vector (v : S256.Idx → EReal) (q : Fin 256) :
    shapeCast S1x256 v shapeCasts_S256_S1x256 (ix2 0 q) = v (ix1 q) :=
  shapeCast_apply v shapeCasts_S256_S1x256 (ix2 0 q) (ix1 q) (by
    rw [Shape.rowMajor_val_one, Shape.rowMajor_val_two]
    show q.val = 0 * 256 + q.val
    omega)

section
variable (c : Dev nD)

/-! ## At the first region's entry -/

theorem w1_v18 : W1 m ρ c (Proc.devRef .tc main_v18) = Cert.ReferenceIdeal.Read.val_main_v18 (F := Ideal) (m ((c : Thread nD τ).loc main_arg0)) (m ((c : Thread nD τ).loc main_arg3)) (m ((c : Thread nD τ).loc main_arg4)) := by
  show StableHlo.after hostOps0 (W0 m ρ c) (Proc.devRef .tc main_v18) = _
  dsimp only [hostOps0]
  after_results_simp
  rfl

theorem w1_v37 : W1 m ρ c (Proc.devRef .tc main_v37) = Cert.ReferenceIdeal.Read.val_main_v46 (F := Ideal) (m ((c : Thread nD τ).loc main_arg1)) (m ((c : Thread nD τ).loc main_arg5)) (m ((c : Thread nD τ).loc main_arg6)) := by
  show StableHlo.after hostOps0 (W0 m ρ c) (Proc.devRef .tc main_v37) = _
  dsimp only [hostOps0]
  after_results_simp
  rfl

theorem w1_v38 : W1 m ρ c (Proc.devRef .tc main_v38) = shapeCast S1x256 (m ((c : Thread nD τ).loc main_arg11)) shapeCasts_S256_S1x256 := by
  show StableHlo.after hostOps0 (W0 m ρ c) (Proc.devRef .tc main_v38) = _
  dsimp only [hostOps0]
  after_results_simp
  rfl

theorem w1_arg1 : W1 m ρ c (Proc.devRef .tc main_arg1) = (m ((c : Thread nD τ).loc main_arg1)) := by host_back; rfl
theorem w1_arg10 : W1 m ρ c (Proc.devRef .tc main_arg10) = (m ((c : Thread nD τ).loc main_arg10)) := by host_back; rfl
theorem w1_arg12 : W1 m ρ c (Proc.devRef .tc main_arg12) = (m ((c : Thread nD τ).loc main_arg12)) := by host_back; rfl

/-! ## The first layer for the MHC nodes -/

theorem w2_v39 : W2 m ρ c (Proc.devRef .tc main_v39)
    = Cert.ReferenceIdeal.Read.val_main_v27 (F := Ideal) (m ((c : Thread nD τ).loc main_arg0)) (m ((c : Thread nD τ).loc main_arg1)) (m ((c : Thread nD τ).loc main_arg3)) (m ((c : Thread nD τ).loc main_arg4)) (m ((c : Thread nD τ).loc main_arg10)) (m ((c : Thread nD τ).loc main_arg11)) (m ((c : Thread nD τ).loc main_arg12)) := by
  refine (W2_arr m ρ c 5).trans ((arr0 (V1 m ρ) c).trans ?_)
  show sageAt (N := 5000) (W1 m ρ c (Proc.devRef .tc main_v18)) (W1 m ρ c (Proc.devRef .tc main_arg10))
      (fun q => W1 m ρ c (Proc.devRef .tc main_v38) (ix2 0 q)) (W1 m ρ c (Proc.devRef .tc main_arg1)) (W1 m ρ c (Proc.devRef .tc main_arg12)) = _
  rw [w1_v18, w1_arg10, w1_v38, w1_arg1, w1_arg12, ref_layer0]
  exact congrArg (fun b => sageAt (N := 5000) _ _ b _ _) (funext fun q => row_of_vector _ q)

/-! ## At the second region's entry -/

theorem w3_v37 : W3 m ρ c (Proc.devRef .tc main_v37) = Cert.ReferenceIdeal.Read.val_main_v46 (F := Ideal) (m ((c : Thread nD τ).loc main_arg1)) (m ((c : Thread nD τ).loc main_arg5)) (m ((c : Thread nD τ).loc main_arg6)) := by
  host_back
  exact (W2_of_ne m ρ c _ (by decide)).trans (w1_v37 m ρ c)

theorem w3_v40 : W3 m ρ c (Proc.devRef .tc main_v40) = shapeCast S1x256 (m ((c : Thread nD τ).loc main_arg14)) shapeCasts_S256_S1x256 := by
  show StableHlo.after hostOps1 (W2 m ρ c) (Proc.devRef .tc main_v40) = _
  dsimp only [hostOps1]
  after_results_simp
  refine congrArg (fun v => shapeCast S1x256 v shapeCasts_S256_S1x256) ?_
  refine (W2_of_ne m ρ c _ (by decide)).trans ?_
  host_back
  rfl

theorem w3_arg2 : W3 m ρ c (Proc.devRef .tc main_arg2) = (m ((c : Thread nD τ).loc main_arg2)) := by
  host_back; refine (W2_of_ne m ρ c _ (by decide)).trans ?_; host_back; rfl
theorem w3_arg13 : W3 m ρ c (Proc.devRef .tc main_arg13) = (m ((c : Thread nD τ).loc main_arg13)) := by
  host_back; refine (W2_of_ne m ρ c _ (by decide)).trans ?_; host_back; rfl
theorem w3_arg15 : W3 m ρ c (Proc.devRef .tc main_arg15) = (m ((c : Thread nD τ).loc main_arg15)) := by
  host_back; refine (W2_of_ne m ρ c _ (by decide)).trans ?_; host_back; rfl

/-! ## The first layer for the receptor nodes -/

theorem w4_v41 : W4 m ρ c (Proc.devRef .tc main_v41)
    = Cert.ReferenceIdeal.Read.val_main_v55 (F := Ideal) (m ((c : Thread nD τ).loc main_arg1)) (m ((c : Thread nD τ).loc main_arg2)) (m ((c : Thread nD τ).loc main_arg5)) (m ((c : Thread nD τ).loc main_arg6)) (m ((c : Thread nD τ).loc main_arg13)) (m ((c : Thread nD τ).loc main_arg14)) (m ((c : Thread nD τ).loc main_arg15)) := by
  refine (W4_arr m ρ c 5).trans ((arr1 (V3 m ρ) c).trans ?_)
  show sageAt (N := 100000) (W3 m ρ c (Proc.devRef .tc main_v37)) (W3 m ρ c (Proc.devRef .tc main_arg13))
      (fun q => W3 m ρ c (Proc.devRef .tc main_v40) (ix2 0 q)) (W3 m ρ c (Proc.devRef .tc main_arg2)) (W3 m ρ c (Proc.devRef .tc main_arg15)) = _
  rw [w3_v37, w3_arg13, w3_v40, w3_arg2, w3_arg15, ref_layer1]
  exact congrArg (fun b => sageAt (N := 100000) _ _ b _ _) (funext fun q => row_of_vector _ q)

end

end Cert.KernelIdeal.Hand

end
-- ==== Proof.PaySage2.lean ====
/-
  The second graph layer's kernel body for the MHC nodes, on one block of 1000 rows; the root operand is now the first layer's 256-wide result: two matrix products against transposed
  weights, the bias row added between them, rectified. Changes of float format are the identity on the
  extended reals, and a product into a zero accumulator is the plain sum over the shared coordinate, so
  the stored block is the layer's function of the loaded blocks, index by index.
-/
import proofs.«175308_j62130996904304_1_alg».proof.Proof.Gen.KernelIdeal.Skeleton
import proofs.«175308_j62130996904304_1_alg».proof.Proof.Spec
import proofs.«175308_j62130996904304_1_alg».proof.Proof.LibMatmulNT
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.KernelIdeal.Hand

open Cert.KernelIdeal Cert.KernelIdeal.Gen Cert.Hand.Spec Cert.Hand.Lib

/-- The bias row broadcast down the block, read at row `p`, column `q`, is the row's entry `q`. -/
theorem bias_row_1000b (b : Vec Ideal S1x256 .f32) (p : Fin 1000) (q : Fin 256) :
    broadcastTo S1000x256 b broadcasts_S1x256_S1000x256 (ix2 p q) = b (ix2 0 q) := by
  exact broadcastTo_apply b broadcasts_S1x256_S1000x256 (ix2 p q) (ix2 0 q) (fun a => by
    match a with
    | ⟨0, _⟩ => rfl
    | ⟨1, _⟩ => rfl)

/-- The body's stored block is the layer's function of its five loaded blocks. -/
theorem pay2_eq (x0 : Vec Ideal S1000x128 .f32) (x1 : Vec Ideal S1000x256 .f32) (x2 : Vec Ideal S256x128 .f32) (x4 : Vec Ideal S256x256 .f32) (x3 : Vec Ideal S1x256 .f32) :
    k2_pay1 (F := Ideal) x0 x1 x2 x4 x3 = sageAt (N := 1000) x0 x2 (fun q => x3 (ix2 0 q)) x1 x4 := by
  funext i
  obtain ⟨p, q, rfl⟩ : ∃ (p : Fin 1000) (q : Fin 256), i = ix2 p q := ⟨i 0, i 1, eq_ix2 i⟩
  unfold k2_pay1 sageAt
  dsimp only
  simp only [shapeCast_self]
  refine congrArg₂ max (congrArg₂ (· + ·) (congrArg₂ (· + ·) ?_ ?_) ?_) rfl
  · exact matmul_transposedRhs_apply (M := 1000) (K := 128) (N := 256) _ _ p q
  · exact bias_row_1000b x3 p q
  · exact matmul_transposedRhs_apply (M := 1000) (K := 256) (N := 256) _ _ p q

end Cert.KernelIdeal.Hand

end
-- ==== Proof.Reg2.lean ====
/-
  The second graph layer's region for the MHC nodes (the peptide-to-MHC layer over the first layer's features as root operand): five grid points, point `t` handling rows
  1000·t … 1000·t + 999 of the 5000-row result. The two row-blocked operands move with the output; the two
  weights and the bias row are fetched whole. A block's coordinate is always block index × block size + the
  coordinate inside the block, so the layer's function of the blocks at point `t` is the layer's function of
  the whole arrays restricted to the point's rows. The five row blocks tile the result, hence the array the
  region leaves is the layer's function of the arrays the region found.
-/
import proofs.«175308_j62130996904304_1_alg».proof.Proof.Gen.KernelIdeal.Frame
import proofs.«175308_j62130996904304_1_alg».proof.Proof.PaySage2
import Idealize.ShloMosaic.Lib.Pipeline.Value

set_option maxRecDepth 16384

noncomputable section

open Idealize.ShloMosaic Idealize.ShloMosaic.TcCoe Idealize.ShloMosaic.ValueIdx Idealize.SL.Sem

open Idealize.ShloMosaic.Pipeline (Dat)

namespace Cert.KernelIdeal.Hand

open Cert.KernelIdeal Cert.KernelIdeal.Gen Cert.Hand.Spec

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the five grid points: the row-blocked windows sit at block row `t`, the
    weights and the bias at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer's result as one function of the arrays the region finds. -/
abbrev layer2 (c : Dev nD) : S5000x256.Idx → EReal :=
  sageAt (N := 5000) (V c main_v18) (V c main_arg16) (fun q => V c main_v61 (ix2 0 q)) (V c main_v39) (V c main_arg18)

/-- The aggregated-neighbour block at point `t` is rows 1000·t … of its array. -/
theorem blk2_0 (c : Dev nD) (t : Fin cfg2.N) (x : S1000x128.Idx) (k : S5000x128.Idx)
    (hk0 : (k 0).val = 1000 * t.val + (x 0).val) (hk1 : (k 1).val = (x 1).val) :
    (iblk2 V c 0 t : Vec Ideal S1000x128 .f32) x = (V c main_v18 : S5000x128.Idx → Elt Ideal .f32) k := by
  obtain ⟨e00, e01, -⟩ := idx2 t
  unfold iblk2
  rw [View.read_apply]
  show V c main_v18 _ = V c main_v18 _
  congr 1
  funext a
  apply Fin.ext
  match a with
  | ⟨0, _⟩ => show win2_0.index t 0 * 1000 + 1 * (x 0).val = (k 0).val; rw [e00, hk0]; omega
  | ⟨1, _⟩ => show win2_0.index t 1 * 128 + 1 * (x 1).val = (k 1).val; rw [e01, hk1]; omega

/-- The root-feature block at point `t` is rows 1000·t … of its array. -/
theorem blk2_1 (c : Dev nD) (t : Fin cfg2.N) (x : S1000x256.Idx) (k : S5000x256.Idx)
    (hk0 : (k 0).val = 1000 * t.val + (x 0).val) (hk1 : (k 1).val = (x 1).val) :
    (iblk2 V c 1 t : Vec Ideal S1000x256 .f32) x = (V c main_v39 : S5000x256.Idx → Elt Ideal .f32) k := by
  obtain ⟨-, -, e10, e11, -⟩ := idx2 t
  unfold iblk2
  rw [View.read_apply]
  show V c main_v39 _ = V c main_v39 _
  congr 1
  funext a
  apply Fin.ext
  match a with
  | ⟨0, _⟩ => show win2_1.index t 0 * 1000 + 1 * (x 0).val = (k 0).val; rw [e10, hk0]; omega
  | ⟨1, _⟩ => show win2_1.index t 1 * 256 + 1 * (x 1).val = (k 1).val; rw [e11, hk1]; omega

/-- The neighbour weight is fetched whole at every point. -/
theorem blk2_2 (c : Dev nD) (t : Fin cfg2.N) (x : S256x128.Idx) :
    (iblk2 V c 2 t : Vec Ideal S256x128 .f32) x = (V c main_arg16 : S256x128.Idx → Elt Ideal .f32) x := by
  obtain ⟨-, -, -, -, e20, e21, -⟩ := idx2 t
  unfold iblk2
  rw [View.read_apply]
  show V c main_arg16 _ = V c main_arg16 _
  congr 1
  funext a
  apply Fin.ext
  match a with
  | ⟨0, _⟩ => show win2_2.index t 0 * 256 + 1 * (x 0).val = (x 0).val; rw [e20]; omega
  | ⟨1, _⟩ => show win2_2.index t 1 * 128 + 1 * (x 1).val = (x 1).val; rw [e21]; omega

/-- The bias row is fetched whole at every point. -/
theorem blk2_3 (c : Dev nD) (t : Fin cfg2.N) (x : S1x256.Idx) :
    (iblk2 V c 3 t : Vec Ideal S1x256 .f32) x = (V c main_v61 : S1x256.Idx → Elt Ideal .f32) x := by
  obtain ⟨-, -, -, -, -, -, e30, e31, -⟩ := idx2 t
  unfold iblk2
  rw [View.read_apply]
  show V c main_v61 _ = V c main_v61 _
  congr 1
  funext a
  apply Fin.ext
  match a with
  | ⟨0, _⟩ => show win2_3.index t 0 * 1 + 1 * (x 0).val = (x 0).val; rw [e30]; omega
  | ⟨1, _⟩ => show win2_3.index t 1 * 256 + 1 * (x 1).val = (x 1).val; rw [e31]; omega

/-- The root weight is fetched whole at every point. -/
theorem blk2_4 (c : Dev nD) (t : Fin cfg2.N) (x : S256x256.Idx) :
    (iblk2 V c 4 t : Vec Ideal S256x256 .f32) x = (V c main_arg18 : S256x256.Idx → Elt Ideal .f32) x := by
  obtain ⟨-, -, -, -, -, -, -, -, e40, e41, -⟩ := idx2 t
  unfold iblk2
  rw [View.read_apply]
  show V c main_arg18 _ = V c main_arg18 _
  congr 1
  funext a
  apply Fin.ext
  match a with
  | ⟨0, _⟩ => show win2_4.index t 0 * 256 + 1 * (x 0).val = (x 0).val; rw [e40]; omega
  | ⟨1, _⟩ => show win2_4.index t 1 * 256 + 1 * (x 1).val = (x 1).val; rw [e41]; omega

/-- What point `t` writes back is block `t` of the layer's result. -/
theorem flushed2 (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero hz2]
  simp only [View.ld_unit_zero (S := S1000x128) hz2, View.ld_unit_zero (S := S1000x256) hz2, View.ld_unit_zero (S := S256x128) hz2, View.ld_unit_zero (S := S256x256) hz2, View.ld_unit_zero (S := S1x256) hz2]
  rw [pay2_eq]
  obtain ⟨-, -, -, -, -, -, -, -, -, -, e50, e51⟩ := idx2 t
  funext j
  have hj0 : (j 0).val < 1000 := (j 0).isLt
  have hj1 : (j 1).val < 256 := (j 1).isLt
  have r0 : ((((cfg2.win 5).blk t).view.emb j) 0).val = 1000 * t.val + (j 0).val := by
    show win2_5.index t 0 * 1000 + 1 * (j 0).val = _; rw [e50]; omega
  have r1 : ((((cfg2.win 5).blk t).view.emb j) 1).val = (j 1).val := by
    show win2_5.index t 1 * 256 + 1 * (j 1).val = _; rw [e51]; omega
  show sageAt (N := 1000) (iblk2 V c 0 t) (iblk2 V c 2 t) (fun q => iblk2 V c 3 t (ix2 0 q)) (iblk2 V c 1 t) (iblk2 V c 4 t) j
    = layer2 V c (((cfg2.win 5).blk t).view.emb j)
  unfold layer2 sageAt
  refine congrArg₂ max (congrArg₂ (· + ·) (congrArg₂ (· + ·)
    (Finset.sum_congr rfl fun k _ => congrArg₂ (· * ·) ?_ ?_) ?_)
    (Finset.sum_congr rfl fun k _ => congrArg₂ (· * ·) ?_ ?_)) rfl
  · exact blk2_0 V c t _ _ r0 rfl
  · exact (blk2_2 V c t _).trans (congrArg (V c main_arg16) (funext fun a => Fin.ext (by
      match a with
      | ⟨0, _⟩ => exact r1.symm
      | ⟨1, _⟩ => rfl)))
  · exact (blk2_3 V c t _).trans (congrArg (V c main_v61) (funext fun a => Fin.ext (by
      match a with
      | ⟨0, _⟩ => rfl
      | ⟨1, _⟩ => exact r1.symm)))
  · exact blk2_1 V c t _ _ r0 rfl
  · exact (blk2_4 V c t _).trans (congrArg (V c main_arg18) (funext fun a => Fin.ext (by
      match a with
      | ⟨0, _⟩ => exact r1.symm
      | ⟨1, _⟩ => rfl)))

/-- Every row of the result lies in the block of the point that handles its thousand. -/
theorem cover2 (i : S5000x256.Idx) : ∃ t : Fin cfg2.N, (cfg2.win 5).flush t = true ∧ i ∈ ((cfg2.win 5).blk t).view.set := by
  have h0 : (i 0).val < 5000 := (i 0).isLt
  have h1 : (i 1).val < 256 := (i 1).isLt
  have hN : cfg2.N = 5 := N_2
  obtain ⟨t0, ht0⟩ : ∃ t0 : Fin cfg2.N, t0.val = (i 0).val / 1000 := ⟨⟨(i 0).val / 1000, by rw [hN]; omega⟩, rfl⟩
  refine ⟨t0, flush2_5 t0, ?_⟩
  obtain ⟨-, -, -, -, -, -, -, -, -, -, e50, e51⟩ := idx2 t0
  show i ∈ ((View.whole main_v62).slice (win2_5.rect t0)).set
  rw [View.set_slice_whole, Rect.mem_set_unit]
  intro a
  match a with
  | ⟨0, _⟩ =>
    show win2_5.index t0 0 * 1000 ≤ (i 0).val ∧ (i 0).val < win2_5.index t0 0 * 1000 + 1000
    rw [e50, ht0]; omega
  | ⟨1, _⟩ =>
    show win2_5.index t0 1 * 256 ≤ (i 1).val ∧ (i 1).val < win2_5.index t0 1 * 256 + 256
    rw [e51]; omega

/-- The array the region leaves: the layer's function of the arrays it found. -/
theorem arr2 (c : Dev nD) : (dat2 V c).arrAt 5 cfg2.N = layer2 V c :=
  (dat2 V c).arrAt_eq_of_cover 5 (layer2 V c) (fun t _ => flushed2 V c t) (cover2)

end Cert.KernelIdeal.Hand

end
-- ==== Proof.PaySage3.lean ====
/-
  The second graph layer's kernel body for the receptor nodes, on one block of 2000 rows: two matrix products against transposed
  weights, the bias row added between them, rectified. Changes of float format are the identity on the
  extended reals, and a product into a zero accumulator is the plain sum over the shared coordinate, so
  the stored block is the layer's function of the loaded blocks, index by index.
-/
import proofs.«175308_j62130996904304_1_alg».proof.Proof.Gen.KernelIdeal.Skeleton
import proofs.«175308_j62130996904304_1_alg».proof.Proof.Spec
import proofs.«175308_j62130996904304_1_alg».proof.Proof.LibMatmulNT
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.KernelIdeal.Hand

open Cert.KernelIdeal Cert.KernelIdeal.Gen Cert.Hand.Spec Cert.Hand.Lib

/-- The bias row broadcast down the block, read at row `p`, column `q`, is the row's entry `q`. -/
theorem bias_row_2000c (b : Vec Ideal S1x256 .f32) (p : Fin 2000) (q : Fin 256) :
    broadcastTo S2000x256 b broadcasts_S1x256_S2000x256 (ix2 p q) = b (ix2 0 q) := by
  exact broadcastTo_apply b broadcasts_S1x256_S2000x256 (ix2 p q) (ix2 0 q) (fun a => by
    match a with
    | ⟨0, _⟩ => rfl
    | ⟨1, _⟩ => rfl)

/-- The body's stored block is the layer's function of its five loaded blocks. -/
theorem pay3_eq (x0 x1 : Vec Ideal S2000x256 .f32) (x2 x4 : Vec Ideal S256x256 .f32) (x3 : Vec Ideal S1x256 .f32) :
    k3_pay1 (F := Ideal) x0 x1 x2 x4 x3 = sageAt (N := 2000) x0 x2 (fun q => x3 (ix2 0 q)) x1 x4 := by
  funext i
  obtain ⟨p, q, rfl⟩ : ∃ (p : Fin 2000) (q : Fin 256), i = ix2 p q := ⟨i 0, i 1, eq_ix2 i⟩
  unfold k3_pay1 sageAt
  dsimp only
  simp only [shapeCast_self]
  refine congrArg₂ max (congrArg₂ (· + ·) (congrArg₂ (· + ·) ?_ ?_) ?_) rfl
  · exact matmul_transposedRhs_apply (M := 2000) (K := 256) (N := 256) _ _ p q
  · exact bias_row_2000c x3 p q
  · exact matmul_transposedRhs_apply (M := 2000) (K := 256) (N := 256) _ _ p q

end Cert.KernelIdeal.Hand

end
-- ==== Proof.Reg3.lean ====
/-
  The second graph layer's region for the receptor nodes (the MHC-to-receptor layer over the first layer's features): fifty grid points, point `t` handling rows
  2000·t … 2000·t + 1999 of the 100000-row result. The two row-blocked operands move with the output; the two
  weights and the bias row are fetched whole. A block's coordinate is always block index × block size + the
  coordinate inside the block, so the layer's function of the blocks at point `t` is the layer's function of
  the whole arrays restricted to the point's rows. The fifty row blocks tile the result, hence the array the
  region leaves is the layer's function of the arrays the region found.
-/
import proofs.«175308_j62130996904304_1_alg».proof.Proof.Gen.KernelIdeal.Frame
import proofs.«175308_j62130996904304_1_alg».proof.Proof.PaySage3
import Idealize.ShloMosaic.Lib.Pipeline.Value

set_option maxRecDepth 16384

noncomputable section

open Idealize.ShloMosaic Idealize.ShloMosaic.TcCoe Idealize.ShloMosaic.ValueIdx Idealize.SL.Sem

open Idealize.ShloMosaic.Pipeline (Dat)

namespace Cert.KernelIdeal.Hand

open Cert.KernelIdeal Cert.KernelIdeal.Gen Cert.Hand.Spec

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the fifty grid points: the row-blocked windows sit at block row `t`, the
    weights and the bias at block (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The layer's result as one function of the arrays the region finds. -/
abbrev layer3 (c : Dev nD) : S100000x256.Idx → EReal :=
  sageAt (N := 100000) (V c main_v60) (V c main_arg19) (fun q => V c main_v63 (ix2 0 q)) (V c main_v41) (V c main_arg21)

/-- The aggregated-neighbour block at point `t` is rows 2000·t … of its array. -/
theorem blk3_0 (c : Dev nD) (t : Fin cfg3.N) (x : S2000x256.Idx) (k : S100000x256.Idx)
    (hk0 : (k 0).val = 2000 * t.val + (x 0).val) (hk1 : (k 1).val = (x 1).val) :
    (iblk3 V c 0 t : Vec Ideal S2000x256 .f32) x = (V c main_v60 : S100000x256.Idx → Elt Ideal .f32) k := by
  obtain ⟨e00, e01, -⟩ := idx3 t
  unfold iblk3
  rw [View.read_apply]
  show V c main_v60 _ = V c main_v60 _
  congr 1
  funext a
  apply Fin.ext
  match a with
  | ⟨0, _⟩ => show win3_0.index t 0 * 2000 + 1 * (x 0).val = (k 0).val; rw [e00, hk0]; omega
  | ⟨1, _⟩ => show win3_0.index t 1 * 256 + 1 * (x 1).val = (k 1).val; rw [e01, hk1]; omega

/-- The root-feature block at point `t` is rows 2000·t … of its array. -/
theorem blk3_1 (c : Dev nD) (t : Fin cfg3.N) (x : S2000x256.Idx) (k : S100000x256.Idx)
    (hk0 : (k 0).val = 2000 * t.val + (x 0).val) (hk1 : (k 1).val = (x 1).val) :
    (iblk3 V c 1 t : Vec Ideal S2000x256 .f32) x = (V c main_v41 : S100000x256.Idx → Elt Ideal .f32) k := by
  obtain ⟨-, -, e10, e11, -⟩ := idx3 t
  unfold iblk3
  rw [View.read_apply]
  show V c main_v41 _ = V c main_v41 _
  congr 1
  funext a
  apply Fin.ext
  match a with
  | ⟨0, _⟩ => show win3_1.index t 0 * 2000 + 1 * (x 0).val = (k 0).val; rw [e10, hk0]; omega
  | ⟨1, _⟩ => show win3_1.index t 1 * 256 + 1 * (x 1).val = (k 1).val; rw [e11, hk1]; omega

/-- The neighbour weight is fetched whole at every point. -/
theorem blk3_2 (c : Dev nD) (t : Fin cfg3.N) (x : S256x256.Idx) :
    (iblk3 V c 2 t : Vec Ideal S256x256 .f32) x = (V c main_arg19 : S256x256.Idx → Elt Ideal .f32) x := by
  obtain ⟨-, -, -, -, e20, e21, -⟩ := idx3 t
  unfold iblk3
  rw [View.read_apply]
  show V c main_arg19 _ = V c main_arg19 _
  congr 1
  funext a
  apply Fin.ext
  match a with
  | ⟨0, _⟩ => show win3_2.index t 0 * 256 + 1 * (x 0).val = (x 0).val; rw [e20]; omega
  | ⟨1, _⟩ => show win3_2.index t 1 * 256 + 1 * (x 1).val = (x 1).val; rw [e21]; omega

/-- The bias row is fetched whole at every point. -/
theorem blk3_3 (c : Dev nD) (t : Fin cfg3.N) (x : S1x256.Idx) :
    (iblk3 V c 3 t : Vec Ideal S1x256 .f32) x = (V c main_v63 : S1x256.Idx → Elt Ideal .f32) x := by
  obtain ⟨-, -, -, -, -, -, e30, e31, -⟩ := idx3 t
  unfold iblk3
  rw [View.read_apply]
  show V c main_v63 _ = V c main_v63 _
  congr 1
  funext a
  apply Fin.ext
  match a with
  | ⟨0, _⟩ => show win3_3.index t 0 * 1 + 1 * (x 0).val = (x 0).val; rw [e30]; omega
  | ⟨1, _⟩ => show win3_3.index t 1 * 256 + 1 * (x 1).val = (x 1).val; rw [e31]; omega

/-- The root weight is fetched whole at every point. -/
theorem blk3_4 (c : Dev nD) (t : Fin cfg3.N) (x : S256x256.Idx) :
    (iblk3 V c 4 t : Vec Ideal S256x256 .f32) x = (V c main_arg21 : S256x256.Idx → Elt Ideal .f32) x := by
  obtain ⟨-, -, -, -, -, -, -, -, e40, e41, -⟩ := idx3 t
  unfold iblk3
  rw [View.read_apply]
  show V c main_arg21 _ = V c main_arg21 _
  congr 1
  funext a
  apply Fin.ext
  match a with
  | ⟨0, _⟩ => show win3_4.index t 0 * 256 + 1 * (x 0).val = (x 0).val; rw [e40]; omega
  | ⟨1, _⟩ => show win3_4.index t 1 * 256 + 1 * (x 1).val = (x 1).val; rw [e41]; omega

/-- What point `t` writes back is block `t` of the layer's result. -/
theorem flushed3 (c : Dev nD) (t : Fin cfg3.N) :
    (dat3 V c).flushed 5 t = ((cfg3.win 5).blk t).view.read (Elt Ideal) (layer3 V c) := by
  show (cfg3.win 5).cut (grid3.coords t) ((dat3 V c).after 5 t) = _
  rw [after3_5]
  unfold out3_5
  rw [View.canon_unit_zero hz3]
  simp only [View.ld_unit_zero (S := S2000x256) hz3, View.ld_unit_zero (S := S256x256) hz3, View.ld_unit_zero (S := S1x256) hz3]
  rw [pay3_eq]
  obtain ⟨-, -, -, -, -, -, -, -, -, -, e50, e51⟩ := idx3 t
  funext j
  have hj0 : (j 0).val < 2000 := (j 0).isLt
  have hj1 : (j 1).val < 256 := (j 1).isLt
  have r0 : ((((cfg3.win 5).blk t).view.emb j) 0).val = 2000 * t.val + (j 0).val := by
    show win3_5.index t 0 * 2000 + 1 * (j 0).val = _; rw [e50]; omega
  have r1 : ((((cfg3.win 5).blk t).view.emb j) 1).val = (j 1).val := by
    show win3_5.index t 1 * 256 + 1 * (j 1).val = _; rw [e51]; omega
  show sageAt (N := 2000) (iblk3 V c 0 t) (iblk3 V c 2 t) (fun q => iblk3 V c 3 t (ix2 0 q)) (iblk3 V c 1 t) (iblk3 V c 4 t) j
    = layer3 V c (((cfg3.win 5).blk t).view.emb j)
  unfold layer3 sageAt
  refine congrArg₂ max (congrArg₂ (· + ·) (congrArg₂ (· + ·)
    (Finset.sum_congr rfl fun k _ => congrArg₂ (· * ·) ?_ ?_) ?_)
    (Finset.sum_congr rfl fun k _ => congrArg₂ (· * ·) ?_ ?_)) rfl
  · exact blk3_0 V c t _ _ r0 rfl
  · exact (blk3_2 V c t _).trans (congrArg (V c main_arg19) (funext fun a => Fin.ext (by
      match a with
      | ⟨0, _⟩ => exact r1.symm
      | ⟨1, _⟩ => rfl)))
  · exact (blk3_3 V c t _).trans (congrArg (V c main_v63) (funext fun a => Fin.ext (by
      match a with
      | ⟨0, _⟩ => rfl
      | ⟨1, _⟩ => exact r1.symm)))
  · exact blk3_1 V c t _ _ r0 rfl
  · exact (blk3_4 V c t _).trans (congrArg (V c main_arg21) (funext fun a => Fin.ext (by
      match a with
      | ⟨0, _⟩ => exact r1.symm
      | ⟨1, _⟩ => rfl)))

/-- Every row of the result lies in the block of the point that handles its two thousand. -/
theorem cover3 (i : S100000x256.Idx) : ∃ t : Fin cfg3.N, (cfg3.win 5).flush t = true ∧ i ∈ ((cfg3.win 5).blk t).view.set := by
  have h0 : (i 0).val < 100000 := (i 0).isLt
  have h1 : (i 1).val < 256 := (i 1).isLt
  have hN : cfg3.N = 50 := N_3
  obtain ⟨t0, ht0⟩ : ∃ t0 : Fin cfg3.N, t0.val = (i 0).val / 2000 := ⟨⟨(i 0).val / 2000, by rw [hN]; omega⟩, rfl⟩
  refine ⟨t0, flush3_5 t0, ?_⟩
  obtain ⟨-, -, -, -, -, -, -, -, -, -, e50, e51⟩ := idx3 t0
  show i ∈ ((View.whole main_v64).slice (win3_5.rect t0)).set
  rw [View.set_slice_whole, Rect.mem_set_unit]
  intro a
  match a with
  | ⟨0, _⟩ =>
    show win3_5.index t0 0 * 2000 ≤ (i 0).val ∧ (i 0).val < win3_5.index t0 0 * 2000 + 2000
    rw [e50, ht0]; omega
  | ⟨1, _⟩ =>
    show win3_5.index t0 1 * 256 ≤ (i 1).val ∧ (i 1).val < win3_5.index t0 1 * 256 + 256
    rw [e51]; omega

/-- The array the region leaves: the layer's function of the arrays it found. -/
theorem arr3 (c : Dev nD) : (dat3 V c).arrAt 5 cfg3.N = layer3 V c :=
  (dat3 V c).arrAt_eq_of_cover 5 (layer3 V c) (fun t _ => flushed3 V c t) (cover3)

end Cert.KernelIdeal.Hand

end
-- ==== Proof.Ref2.lean ====
/-
  The reference's second graph layer for the MHC nodes, read index by index: its matrix product against the
  transposed neighbour weight, the bias broadcast along rows, the product of the root features against the
  transposed root weight, and the rectifier are the layer's function of the aggregated neighbour features,
  the two weights, the bias and the root features. A transposed weight read at (k, j) is the weight at (j, k).
-/
import proofs.«175308_j62130996904304_1_alg».proof.Proof.Gen.ReferenceIdeal.Read
import proofs.«175308_j62130996904304_1_alg».proof.Proof.SpecHead
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.ReferenceIdeal.Hand

open Cert.ReferenceIdeal Cert.ReferenceIdeal.Read Cert.Hand.Spec

/-- The second layer for the MHC nodes is the layer's function, its root operand the first layer's result. -/
theorem ref_layer2 (x0 : (⟨S20000x128, .f32⟩ : BufTy).Contents (Elt Ideal)) (x1 : (⟨S5000x128, .f32⟩ : BufTy).Contents (Elt Ideal)) (x3 : (⟨S200000, .i32⟩ : BufTy).Contents (Elt Ideal)) (x4 : (⟨S200000, .i32⟩ : BufTy).Contents (Elt Ideal)) (x10 : (⟨S256x128, .f32⟩ : BufTy).Contents (Elt Ideal)) (x11 : (⟨S256, .f32⟩ : BufTy).Contents (Elt Ideal)) (x12 : (⟨S256x128, .f32⟩ : BufTy).Contents (Elt Ideal)) (x16 : (⟨S256x128, .f32⟩ : BufTy).Contents (Elt Ideal)) (x17 : (⟨S256, .f32⟩ : BufTy).Contents (Elt Ideal)) (x18 : (⟨S256x256, .f32⟩ : BufTy).Contents (Elt Ideal)) :
    val_main_v83 (F := Ideal) x0 x1 x3 x4 x10 x11 x12 x16 x17 x18
      = sageAt (N := 5000) (val_main_v74 (F := Ideal) x0 x3 x4) x16 (fun q => x17 (ix1 q)) (val_main_v27 (F := Ideal) x0 x1 x3 x4 x10 x11 x12) x18 := by
  funext i
  rw [val_main_v83_apply, val_main_v82_apply, val_main_v79_apply, val_main_v76_apply, val_main_v81_apply, val_main_v78_apply,
    val_main_v77_apply, val_main_call2_v0_apply, val_main_call2_cst_apply]
  unfold sageAt
  refine congrArg₂ max (congrArg₂ (· + ·) (congrArg₂ (· + ·)
    (Finset.sum_congr rfl fun k _ => congrArg₂ (· * ·) ?_ ?_) ?_)
    (Finset.sum_congr rfl fun k _ => congrArg₂ (· * ·) ?_ ?_)) rfl
  · exact congrArg _ (funext fun a => Fin.ext (by
      match a with
      | ⟨0, _⟩ => rfl
      | ⟨1, _⟩ => rfl))
  · rw [val_main_v75_apply]
    exact congrArg x16 (funext fun a => Fin.ext (by
      match a with
      | ⟨0, _⟩ => rfl
      | ⟨1, _⟩ => rfl))
  · exact congrArg x17 (funext fun a => Fin.ext (by
      match a with
      | ⟨0, _⟩ => rfl))
  · exact congrArg (val_main_v27 (F := Ideal) x0 x1 x3 x4 x10 x11 x12) (funext fun a => Fin.ext (by
      match a with
      | ⟨0, _⟩ => rfl
      | ⟨1, _⟩ => rfl))
  · rw [val_main_v80_apply]
    exact congrArg x18 (funext fun a => Fin.ext (by
      match a with
      | ⟨0, _⟩ => rfl
      | ⟨1, _⟩ => rfl))

end Cert.ReferenceIdeal.Hand

end
-- ==== Proof.Ref3.lean ====
/-
  The reference's second graph layer for the receptor nodes, read index by index: its matrix product against the
  transposed neighbour weight, the bias broadcast along rows, the product of the root features against the
  transposed root weight, and the rectifier are the layer's function of the aggregated neighbour features,
  the two weights, the bias and the root features. A transposed weight read at (k, j) is the weight at (j, k).
-/
import proofs.«175308_j62130996904304_1_alg».proof.Proof.Gen.ReferenceIdeal.Read
import proofs.«175308_j62130996904304_1_alg».proof.Proof.SpecHead
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.ReferenceIdeal.Hand

open Cert.ReferenceIdeal Cert.ReferenceIdeal.Read Cert.Hand.Spec

/-- The second layer for the receptor nodes is the layer's function, its root operand the first layer's result. -/
theorem ref_layer3 (x0 : (⟨S20000x128, .f32⟩ : BufTy).Contents (Elt Ideal)) (x1 : (⟨S5000x128, .f32⟩ : BufTy).Contents (Elt Ideal)) (x2 : (⟨S100000x128, .f32⟩ : BufTy).Contents (Elt Ideal)) (x3 : (⟨S200000, .i32⟩ : BufTy).Contents (Elt Ideal)) (x4 : (⟨S200000, .i32⟩ : BufTy).Contents (Elt Ideal)) (x5 : (⟨S400000, .i32⟩ : BufTy).Contents (Elt Ideal)) (x6 : (⟨S400000, .i32⟩ : BufTy).Contents (Elt Ideal)) (x10 : (⟨S256x128, .f32⟩ : BufTy).Contents (Elt Ideal)) (x11 : (⟨S256, .f32⟩ : BufTy).Contents (Elt Ideal)) (x12 : (⟨S256x128, .f32⟩ : BufTy).Contents (Elt Ideal)) (x13 : (⟨S256x128, .f32⟩ : BufTy).Contents (Elt Ideal)) (x14 : (⟨S256, .f32⟩ : BufTy).Contents (Elt Ideal)) (x15 : (⟨S256x128, .f32⟩ : BufTy).Contents (Elt Ideal)) (x19 : (⟨S256x256, .f32⟩ : BufTy).Contents (Elt Ideal)) (x20 : (⟨S256, .f32⟩ : BufTy).Contents (Elt Ideal)) (x21 : (⟨S256x256, .f32⟩ : BufTy).Contents (Elt Ideal)) :
    val_main_v111 (F := Ideal) x0 x1 x2 x3 x4 x5 x6 x10 x11 x12 x13 x14 x15 x19 x20 x21
      = sageAt (N := 100000) (val_main_v102 (F := Ideal) x0 x1 x3 x4 x5 x6 x10 x11 x12) x19 (fun q => x20 (ix1 q)) (val_main_v55 (F := Ideal) x1 x2 x5 x6 x13 x14 x15) x21 := by
  funext i
  rw [val_main_v111_apply, val_main_v110_apply, val_main_v107_apply, val_main_v104_apply, val_main_v109_apply, val_main_v106_apply,
    val_main_v105_apply, val_main_call3_v0_apply, val_main_call3_cst_apply]
  unfold sageAt
  refine congrArg₂ max (congrArg₂ (· + ·) (congrArg₂ (· + ·)
    (Finset.sum_congr rfl fun k _ => congrArg₂ (· * ·) ?_ ?_) ?_)
    (Finset.sum_congr rfl fun k _ => congrArg₂ (· * ·) ?_ ?_)) rfl
  · exact congrArg _ (funext fun a => Fin.ext (by
      match a with
      | ⟨0, _⟩ => rfl
      | ⟨1, _⟩ => rfl))
  · rw [val_main_v103_apply]
    exact congrArg x19 (funext fun a => Fin.ext (by
      match a with
      | ⟨0, _⟩ => rfl
      | ⟨1, _⟩ => rfl))
  · exact congrArg x20 (funext fun a => Fin.ext (by
      match a with
      | ⟨0, _⟩ => rfl))
  · exact congrArg (val_main_v55 (F := Ideal) x1 x2 x5 x6 x13 x14 x15) (funext fun a => Fin.ext (by
      match a with
      | ⟨0, _⟩ => rfl
      | ⟨1, _⟩ => rfl))
  · rw [val_main_v108_apply]
    exact congrArg x21 (funext fun a => Fin.ext (by
      match a with
      | ⟨0, _⟩ => rfl
      | ⟨1, _⟩ => rfl))

end Cert.ReferenceIdeal.Hand

end
-- ==== Proof.ChainB.lean ====
/-
  The buffers' contents at the fifth to eighth boundaries, named by the reference's stages. The host
  operations between the second and third regions aggregate the first layer's MHC features for the receptor
  nodes: the reference's operations on the reference's first-layer stage. The third region (second layer,
  MHC nodes) reuses the aggregated peptide features computed before the first region, where the reference
  computes them a second time by the same operations on the same arguments: one value. The fourth region
  (second layer, receptor nodes) takes the new aggregate and the first layer's receptor features.
-/
import proofs.«175308_j62130996904304_1_alg».proof.Proof.ChainA
import proofs.«175308_j62130996904304_1_alg».proof.Proof.Reg2
import proofs.«175308_j62130996904304_1_alg».proof.Proof.Reg3
import proofs.«175308_j62130996904304_1_alg».proof.Proof.Ref2
import proofs.«175308_j62130996904304_1_alg».proof.Proof.Ref3
import Idealize.ShloMosaic.Lib.StableHlo.Run
import Idealize.ShloMosaic.Lib.Pipeline.Value

set_option maxRecDepth 16384

noncomputable section

open Idealize.ShloMosaic Idealize.ShloMosaic.TcCoe Idealize.ShloMosaic.ValueIdx Idealize.SL.Sem Idealize.ShloMosaic.StableHlo

namespace Cert.KernelIdeal.Hand

open Cert.KernelIdeal Cert.KernelIdeal.Gen Cert.Hand.Spec Cert.ReferenceIdeal.Hand

variable (m : (ℓ : Loc nD τ sig) → Buf (Elt Ideal) ℓ) (ρ : Dev nD → PrngReg)

/-- One region back, for a buffer that is none of its arrays. -/
macro "region_back" : tactic => `(tactic| first
  | refine (W12_of_ne _ _ _ _ (by decide)).trans ?_
  | refine (W10_of_ne _ _ _ _ (by decide)).trans ?_
  | refine (W8_of_ne _ _ _ _ (by decide)).trans ?_
  | refine (W6_of_ne _ _ _ _ (by decide)).trans ?_
  | refine (W4_of_ne _ _ _ _ (by decide)).trans ?_
  | refine (W2_of_ne _ _ _ _ (by decide)).trans ?_)

/-- Back to the launch memory, for a buffer nothing writes. -/
macro "to_launch" : tactic => `(tactic| (repeat (first | host_back | region_back); rfl))

section
variable (c : Dev nD)

/-! ## At the entry of the host operations before the third region -/

theorem w4_v39 : W4 m ρ c (Proc.devRef .tc main_v39)
    = Cert.ReferenceIdeal.Read.val_main_v27 (F := Ideal) (m ((c : Thread nD τ).loc main_arg0)) (m ((c : Thread nD τ).loc main_arg1)) (m ((c : Thread nD τ).loc main_arg3)) (m ((c : Thread nD τ).loc main_arg4)) (m ((c : Thread nD τ).loc main_arg10)) (m ((c : Thread nD τ).loc main_arg11)) (m ((c : Thread nD τ).loc main_arg12)) := by
  region_back
  host_back
  exact w2_v39 m ρ c

theorem w4_arg5 : W4 m ρ c (Proc.devRef .tc main_arg5) = (m ((c : Thread nD τ).loc main_arg5)) := by to_launch
theorem w4_arg6 : W4 m ρ c (Proc.devRef .tc main_arg6) = (m ((c : Thread nD τ).loc main_arg6)) := by to_launch
theorem w4_arg17 : W4 m ρ c (Proc.devRef .tc main_arg17) = (m ((c : Thread nD τ).loc main_arg17)) := by to_launch

/-! ## At the third region's entry -/

theorem w5_v60 : W5 m ρ c (Proc.devRef .tc main_v60)
    = Cert.ReferenceIdeal.Read.val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) := by
  show StableHlo.after hostOps2 (W4 m ρ c) (Proc.devRef .tc main_v60) = _
  dsimp only [hostOps2]
  after_results_simp
  rw [w4_v39, w4_arg5, w4_arg6]
  rfl

theorem w5_v61 : W5 m ρ c (Proc.devRef .tc main_v61) = shapeCast S1x256 (m ((c : Thread nD τ).loc main_arg17)) shapeCasts_S256_S1x256 := by
  show StableHlo.after hostOps2 (W4 m ρ c) (Proc.devRef .tc main_v61) = _
  dsimp only [hostOps2]
  after_results_simp
  rw [w4_arg17]
  rfl

theorem w5_v18 : W5 m ρ c (Proc.devRef .tc main_v18) = Cert.ReferenceIdeal.Read.val_main_v18 (F := Ideal) (m ((c : Thread nD τ).loc main_arg0)) (m ((c : Thread nD τ).loc main_arg3)) (m ((c : Thread nD τ).loc main_arg4)) := by
  host_back
  region_back
  host_back
  exact ((W2_arr m ρ c 0).trans (((dat0 (V1 m ρ) c).arrAt_in 0 rfl _).trans (A_eq0 (V1 m ρ) c 0))).trans (w1_v18 m ρ c)

theorem w5_v39 : W5 m ρ c (Proc.devRef .tc main_v39)
    = Cert.ReferenceIdeal.Read.val_main_v27 (F := Ideal) (m ((c : Thread nD τ).loc main_arg0)) (m ((c : Thread nD τ).loc main_arg1)) (m ((c : Thread nD τ).loc main_arg3)) (m ((c : Thread nD τ).loc main_arg4)) (m ((c : Thread nD τ).loc main_arg10)) (m ((c : Thread nD τ).loc main_arg11)) (m ((c : Thread nD τ).loc main_arg12)) := by
  host_back
  exact w4_v39 m ρ c

theorem w5_arg16 : W5 m ρ c (Proc.devRef .tc main_arg16) = (m ((c : Thread nD τ).loc main_arg16)) := by to_launch
theorem w5_arg18 : W5 m ρ c (Proc.devRef .tc main_arg18) = (m ((c : Thread nD τ).loc main_arg18)) := by to_launch

/-! ## The second layer for the MHC nodes -/

theorem w6_v62 : W6 m ρ c (Proc.devRef .tc main_v62)
    = Cert.ReferenceIdeal.Read.val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg10)) (m ((c : Thread nD τ).loc main_arg11)) (m ((c : Thread nD τ).loc main_arg12)) (m ((c : Thread nD τ).loc main_arg16)) (m ((c : Thread nD τ).loc main_arg17)) (m ((c : Thread nD τ).loc main_arg18)) := by
  refine (W6_arr m ρ c 5).trans ((arr2 (V5 m ρ) c).trans ?_)
  show sageAt (N := 5000) (W5 m ρ c (Proc.devRef .tc main_v18)) (W5 m ρ c (Proc.devRef .tc main_arg16))
      (fun q => W5 m ρ c (Proc.devRef .tc main_v61) (ix2 0 q)) (W5 m ρ c (Proc.devRef .tc main_v39)) (W5 m ρ c (Proc.devRef .tc main_arg18)) = _
  rw [w5_v18, w5_arg16, w5_v61, w5_v39, w5_arg18, ref_layer2]
  have e : Cert.ReferenceIdeal.Read.val_main_v74 (F := Ideal) (m ((c : Thread nD τ).loc main_arg0)) (m ((c : Thread nD τ).loc main_arg3)) (m ((c : Thread nD τ).loc main_arg4)) = Cert.ReferenceIdeal.Read.val_main_v18 (F := Ideal) (m ((c : Thread nD τ).loc main_arg0)) (m ((c : Thread nD τ).loc main_arg3)) (m ((c : Thread nD τ).loc main_arg4)) := rfl
  rw [e]
  exact congrArg (fun b => sageAt (N := 5000) _ _ b _ _) (funext fun q => row_of_vector _ q)

/-! ## At the fourth region's entry -/

theorem w7_v60 : W7 m ρ c (Proc.devRef .tc main_v60)
    = Cert.ReferenceIdeal.Read.val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) := by
  host_back
  region_back
  exact w5_v60 m ρ c

theorem w7_v41 : W7 m ρ c (Proc.devRef .tc main_v41)
    = Cert.ReferenceIdeal.Read.val_main_v55 (F := Ideal) (m ((c : Thread nD τ).loc main_arg1)) (m ((c : Thread nD τ).loc main_arg2)) (m ((c : Thread nD τ).loc main_arg5)) (m ((c : Thread nD τ).loc main_arg6)) (m ((c : Thread nD τ).loc main_arg13)) (m ((c : Thread nD τ).loc main_arg14)) (m ((c : Thread nD τ).loc main_arg15)) := by
  host_back
  region_back
  host_back
  exact w4_v41 m ρ c

theorem w6_arg20 : W6 m ρ c (Proc.devRef .tc main_arg20) = (m ((c : Thread nD τ).loc main_arg20)) := by to_launch

theorem w7_v63 : W7 m ρ c (Proc.devRef .tc main_v63) = shapeCast S1x256 (m ((c : Thread nD τ).loc main_arg20)) shapeCasts_S256_S1x256 := by
  show StableHlo.after hostOps3 (W6 m ρ c) (Proc.devRef .tc main_v63) = _
  dsimp only [hostOps3]
  after_results_simp
  rw [w6_arg20]
  rfl

theorem w7_arg19 : W7 m ρ c (Proc.devRef .tc main_arg19) = (m ((c : Thread nD τ).loc main_arg19)) := by to_launch
theorem w7_arg21 : W7 m ρ c (Proc.devRef .tc main_arg21) = (m ((c : Thread nD τ).loc main_arg21)) := by to_launch

/-! ## The second layer for the receptor nodes -/

theorem w8_v64 : W8 m ρ c (Proc.devRef .tc main_v64)
    = Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg19)) (m ((c : Thread nD τ).loc main_arg20)) (m ((c : Thread nD τ).loc main_arg21)) := by
  refine (W8_arr m ρ c 5).trans ((arr3 (V7 m ρ) c).trans ?_)
  show sageAt (N := 100000) (W7 m ρ c (Proc.devRef .tc main_v60)) (W7 m ρ c (Proc.devRef .tc main_arg19))
      (fun q => W7 m ρ c (Proc.devRef .tc main_v63) (ix2 0 q)) (W7 m ρ c (Proc.devRef .tc main_v41)) (W7 m ρ c (Proc.devRef .tc main_arg21)) = _
  rw [w7_v60, w7_arg19, w7_v63, w7_v41, w7_arg21, ref_layer3]
  exact congrArg (fun b => sageAt (N := 100000) _ _ b _ _) (funext fun q => row_of_vector _ q)

end

end Cert.KernelIdeal.Hand

end
-- ==== Proof.PayProj.lean ====
/-
  The projection's kernel body on one block of 2000 rows: one matrix product against the transposed weight
  and the bias row added. On the extended reals the stored block is the projection's function of the loaded
  blocks, index by index.
-/
import proofs.«175308_j62130996904304_1_alg».proof.Proof.Gen.KernelIdeal.Skeleton
import proofs.«175308_j62130996904304_1_alg».proof.Proof.Spec
import proofs.«175308_j62130996904304_1_alg».proof.Proof.LibMatmulNT
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.KernelIdeal.Hand

open Cert.KernelIdeal Cert.KernelIdeal.Gen Cert.Hand.Spec Cert.Hand.Lib

/-- The bias row broadcast down a block of 2000 rows, read at row `p`, column `q`, is the row's entry `q`. -/
theorem bias_row_proj (b : Vec Ideal S1x256 .f32) (p : Fin 2000) (q : Fin 256) :
    broadcastTo S2000x256 b broadcasts_S1x256_S2000x256 (ix2 p q) = b (ix2 0 q) := by
  exact broadcastTo_apply b broadcasts_S1x256_S2000x256 (ix2 p q) (ix2 0 q) (fun a => by
    match a with
    | ⟨0, _⟩ => rfl
    | ⟨1, _⟩ => rfl)

/-- The body's stored block is the projection's function of its three loaded blocks. -/
theorem pay4_eq (x0 : Vec Ideal S2000x128 .f32) (x1 : Vec Ideal S256x128 .f32) (x2 : Vec Ideal S1x256 .f32) :
    k4_pay1 (F := Ideal) x0 x1 x2 = projAt (N := 2000) x0 x1 (fun q => x2 (ix2 0 q)) := by
  funext i
  obtain ⟨p, q, rfl⟩ : ∃ (p : Fin 2000) (q : Fin 256), i = ix2 p q := ⟨i 0, i 1, eq_ix2 i⟩
  unfold k4_pay1 projAt
  dsimp only
  simp only [shapeCast_self]
  refine congrArg₂ (· + ·) ?_ ?_
  · exact matmul_transposedRhs_apply (M := 2000) (K := 128) (N := 256) _ _ p q
  · exact bias_row_proj x2 p q

end Cert.KernelIdeal.Hand

end
-- ==== Proof.Reg4.lean ====
/-
  The projection's region: ten grid points, point `t` handling rows 2000·t … 2000·t + 1999 of the
  20000-row result. The peptide features move with the output; the weight and the bias row are fetched
  whole. The projection's function of the blocks at point `t` is its function of the whole arrays
  restricted to the point's rows, and the ten row blocks tile the result.
-/
import proofs.«175308_j62130996904304_1_alg».proof.Proof.Gen.KernelIdeal.Frame
import proofs.«175308_j62130996904304_1_alg».proof.Proof.PayProj
import Idealize.ShloMosaic.Lib.Pipeline.Value

set_option maxRecDepth 16384

noncomputable section

open Idealize.ShloMosaic Idealize.ShloMosaic.TcCoe Idealize.ShloMosaic.ValueIdx Idealize.SL.Sem

open Idealize.ShloMosaic.Pipeline (Dat)

namespace Cert.KernelIdeal.Hand

open Cert.KernelIdeal Cert.KernelIdeal.Gen Cert.Hand.Spec

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the ten grid points. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The projection's result as one function of the arrays the region finds. -/
abbrev layer4 (c : Dev nD) : S20000x256.Idx → EReal :=
  projAt (N := 20000) (V c main_arg0) (V c main_arg22) (fun q => V c main_v65 (ix2 0 q))

/-- The feature block at point `t` is rows 2000·t … of its array. -/
theorem blk4_0 (c : Dev nD) (t : Fin cfg4.N) (x : S2000x128.Idx) (k : S20000x128.Idx)
    (hk0 : (k 0).val = 2000 * t.val + (x 0).val) (hk1 : (k 1).val = (x 1).val) :
    (iblk4 V c 0 t : Vec Ideal S2000x128 .f32) x = (V c main_arg0 : S20000x128.Idx → Elt Ideal .f32) k := by
  obtain ⟨e00, e01, -⟩ := idx4 t
  unfold iblk4
  rw [View.read_apply]
  show V c main_arg0 _ = V c main_arg0 _
  congr 1
  funext a
  apply Fin.ext
  match a with
  | ⟨0, _⟩ => show win4_0.index t 0 * 2000 + 1 * (x 0).val = (k 0).val; rw [e00, hk0]; omega
  | ⟨1, _⟩ => show win4_0.index t 1 * 128 + 1 * (x 1).val = (k 1).val; rw [e01, hk1]; omega

/-- The weight is fetched whole at every point. -/
theorem blk4_1 (c : Dev nD) (t : Fin cfg4.N) (x : S256x128.Idx) :
    (iblk4 V c 1 t : Vec Ideal S256x128 .f32) x = (V c main_arg22 : S256x128.Idx → Elt Ideal .f32) x := by
  obtain ⟨-, -, e10, e11, -⟩ := idx4 t
  unfold iblk4
  rw [View.read_apply]
  show V c main_arg22 _ = V c main_arg22 _
  congr 1
  funext a
  apply Fin.ext
  match a with
  | ⟨0, _⟩ => show win4_1.index t 0 * 256 + 1 * (x 0).val = (x 0).val; rw [e10]; omega
  | ⟨1, _⟩ => show win4_1.index t 1 * 128 + 1 * (x 1).val = (x 1).val; rw [e11]; omega

/-- The bias row is fetched whole at every point. -/
theorem blk4_2 (c : Dev nD) (t : Fin cfg4.N) (x : S1x256.Idx) :
    (iblk4 V c 2 t : Vec Ideal S1x256 .f32) x = (V c main_v65 : S1x256.Idx → Elt Ideal .f32) x := by
  obtain ⟨-, -, -, -, e20, e21, -⟩ := idx4 t
  unfold iblk4
  rw [View.read_apply]
  show V c main_v65 _ = V c main_v65 _
  congr 1
  funext a
  apply Fin.ext
  match a with
  | ⟨0, _⟩ => show win4_2.index t 0 * 1 + 1 * (x 0).val = (x 0).val; rw [e20]; omega
  | ⟨1, _⟩ => show win4_2.index t 1 * 256 + 1 * (x 1).val = (x 1).val; rw [e21]; omega

/-- What point `t` writes back is block `t` of the projection's result. -/
theorem flushed4 (c : Dev nD) (t : Fin cfg4.N) :
    (dat4 V c).flushed 3 t = ((cfg4.win 3).blk t).view.read (Elt Ideal) (layer4 V c) := by
  show (cfg4.win 3).cut (grid4.coords t) ((dat4 V c).after 3 t) = _
  rw [after4_3]
  unfold out4_3
  rw [View.canon_unit_zero hz4]
  simp only [View.ld_unit_zero (S := S2000x128) hz4, View.ld_unit_zero (S := S256x128) hz4, View.ld_unit_zero (S := S1x256) hz4]
  rw [pay4_eq]
  obtain ⟨-, -, -, -, -, -, e30, e31⟩ := idx4 t
  funext j
  have hj0 : (j 0).val < 2000 := (j 0).isLt
  have hj1 : (j 1).val < 256 := (j 1).isLt
  have r0 : ((((cfg4.win 3).blk t).view.emb j) 0).val = 2000 * t.val + (j 0).val := by
    show win4_3.index t 0 * 2000 + 1 * (j 0).val = _; rw [e30]; omega
  have r1 : ((((cfg4.win 3).blk t).view.emb j) 1).val = (j 1).val := by
    show win4_3.index t 1 * 256 + 1 * (j 1).val = _; rw [e31]; omega
  show projAt (N := 2000) (iblk4 V c 0 t) (iblk4 V c 1 t) (fun q => iblk4 V c 2 t (ix2 0 q)) j
    = layer4 V c (((cfg4.win 3).blk t).view.emb j)
  unfold layer4 projAt
  refine congrArg₂ (· + ·) (Finset.sum_congr rfl fun k _ => congrArg₂ (· * ·) ?_ ?_) ?_
  · exact blk4_0 V c t _ _ r0 rfl
  · exact (blk4_1 V c t _).trans (congrArg (V c main_arg22) (funext fun a => Fin.ext (by
      match a with
      | ⟨0, _⟩ => exact r1.symm
      | ⟨1, _⟩ => rfl)))
  · exact (blk4_2 V c t _).trans (congrArg (V c main_v65) (funext fun a => Fin.ext (by
      match a with
      | ⟨0, _⟩ => rfl
      | ⟨1, _⟩ => exact r1.symm)))

/-- Every row of the result lies in the block of the point that handles its two thousand. -/
theorem cover4 (i : S20000x256.Idx) : ∃ t : Fin cfg4.N, (cfg4.win 3).flush t = true ∧ i ∈ ((cfg4.win 3).blk t).view.set := by
  have h0 : (i 0).val < 20000 := (i 0).isLt
  have h1 : (i 1).val < 256 := (i 1).isLt
  have hN : cfg4.N = 10 := N_4
  obtain ⟨t0, ht0⟩ : ∃ t0 : Fin cfg4.N, t0.val = (i 0).val / 2000 := ⟨⟨(i 0).val / 2000, by rw [hN]; omega⟩, rfl⟩
  refine ⟨t0, flush4_3 t0, ?_⟩
  obtain ⟨-, -, -, -, -, -, e30, e31⟩ := idx4 t0
  show i ∈ ((View.whole main_v66).slice (win4_3.rect t0)).set
  rw [View.set_slice_whole, Rect.mem_set_unit]
  intro a
  match a with
  | ⟨0, _⟩ =>
    show win4_3.index t0 0 * 2000 ≤ (i 0).val ∧ (i 0).val < win4_3.index t0 0 * 2000 + 2000
    rw [e30, ht0]; omega
  | ⟨1, _⟩ =>
    show win4_3.index t0 1 * 256 ≤ (i 1).val ∧ (i 1).val < win4_3.index t0 1 * 256 + 256
    rw [e31]; omega

/-- The array the region leaves: the projection's function of the arrays it found. -/
theorem arr4 (c : Dev nD) : (dat4 V c).arrAt 3 cfg4.N = layer4 V c :=
  (dat4 V c).arrAt_eq_of_cover 3 (layer4 V c) (fun t _ => flushed4 V c t) (cover4)

end Cert.KernelIdeal.Hand

end
-- ==== Proof.PayHead.lean ====
/-
  The head's kernel body on one block of 2000 rows: three matrix products against transposed weight blocks
  added in order, the first bias row added, rectified, multiplied by the second weight's row, summed along
  the 256 lanes, and the scalar bias added. A lane sum on the extended reals is the plain sum over the lane
  coordinate, and reshaping a vector of 2000 sums into a 2000 × 1 column keeps entry `p` at row `p`.
-/
import proofs.«175308_j62130996904304_1_alg».proof.Proof.Gen.KernelIdeal.Skeleton
import proofs.«175308_j62130996904304_1_alg».proof.Proof.SpecHead
import proofs.«175308_j62130996904304_1_alg».proof.Proof.LibMatmulNT
import proofs.«175308_j62130996904304_1_alg».proof.Proof.PayProj
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.KernelIdeal.Hand

open Cert.KernelIdeal Cert.KernelIdeal.Gen Cert.Hand.Spec Cert.Hand.Lib

/-- The column reshape of a vector of 2000 entries, read at row `p`. -/
theorem column_of_vector (v : FVec Ideal S2000 .f32) (p : Fin 2000) (z : Fin 1) :
    shapeCast S2000x1 v shapeCasts_S2000_S2000x1 (ix2 p z) = v (ix1 p) :=
  shapeCast_apply v shapeCasts_S2000_S2000x1 (ix2 p z) (ix1 p) (by
    rw [Shape.rowMajor_val_one, Shape.rowMajor_val_two]
    have hz : z.val = 0 := by have := z.isLt; omega
    show p.val = p.val * 1 + z.val
    omega)

/-- The index the lane sum reads at row `p`, lane `j`. -/
theorem lane_index (p : Fin 2000) (j : Fin 256) : reduces_S2000x256_S2000.lift (ix1 p) j = ix2 p j :=
  funext fun a => Fin.ext (by
    match a with
    | ⟨0, _⟩ => rfl
    | ⟨1, _⟩ => rfl)

/-- The body's stored column is the head's function of its nine loaded blocks. -/
theorem pay5_eq (x0 x1 x2 : Vec Ideal S2000x256 .f32) (x3 x4 x5 : Vec Ideal S256x256 .f32) (x6 x7 : Vec Ideal S1x256 .f32)
    (x8 : Vec Ideal S1x1 .f32) :
    k5_pay1 (F := Ideal) (k5_pay2 x0 x1 x2 x3 x4 x5 x6 x7) (k5_pay3 x8)
      = headAt3 (N := 2000) x0 x1 x2 x3 x4 x5 (fun q => x6 (ix2 0 q)) (fun q => x7 (ix2 0 q)) (x8 (ix2 0 0)) := by
  funext i
  obtain ⟨p, z, rfl⟩ : ∃ (p : Fin 2000) (z : Fin 1), i = ix2 p z := ⟨i 0, i 1, eq_ix2 i⟩
  unfold k5_pay1 k5_pay2 k5_pay3 headAt3 hiddenPre3
  dsimp only
  simp only [shapeCast_self]
  refine congrArg₂ (· + ·) ?_ ?_
  · refine (column_of_vector _ p z).trans ?_
    refine (Ideal.multiReduction_add_single _ _ _ _ _ (ix1 p)).trans ?_
    refine Finset.sum_congr rfl fun j _ => ?_
    rw [lane_index p j]
    refine congrArg₂ (· * ·) (congrArg₂ max (congrArg₂ (· + ·) (congrArg₂ (· + ·) (congrArg₂ (· + ·) ?_ ?_) ?_) ?_) rfl) ?_
    · exact matmul_transposedRhs_apply (M := 2000) (K := 256) (N := 256) _ _ p j
    · exact matmul_transposedRhs_apply (M := 2000) (K := 256) (N := 256) _ _ p j
    · exact matmul_transposedRhs_apply (M := 2000) (K := 256) (N := 256) _ _ p j
    · exact bias_row_proj x6 p j
    · exact bias_row_proj x7 p j
  · exact broadcastTo_apply x8 broadcasts_S1x1_S2000x1 (ix2 p z) (ix2 0 0) (fun a => by
      match a with
      | ⟨0, _⟩ => rfl
      | ⟨1, _⟩ => rfl)

end Cert.KernelIdeal.Hand

end
-- ==== Proof.Reg5.lean ====
/-
  The head's region: 25 grid points, point `t` handling rows 2000·t … 2000·t + 1999 of the 50000-row
  result column. The three gathered feature arrays move with the output; the three weight blocks, the two
  rows and the scalar bias are fetched whole. The head's function of the blocks at point `t` is its
  function of the whole arrays restricted to the point's rows, and the 25 row blocks tile the column.
-/
import proofs.«175308_j62130996904304_1_alg».proof.Proof.Gen.KernelIdeal.Frame
import proofs.«175308_j62130996904304_1_alg».proof.Proof.PayHead
import Idealize.ShloMosaic.Lib.Pipeline.Value

set_option maxRecDepth 16384

noncomputable section

open Idealize.ShloMosaic Idealize.ShloMosaic.TcCoe Idealize.ShloMosaic.ValueIdx Idealize.SL.Sem

open Idealize.ShloMosaic.Pipeline (Dat)

namespace Cert.KernelIdeal.Hand

open Cert.KernelIdeal Cert.KernelIdeal.Gen Cert.Hand.Spec

variable (V : (c : Dev nD) → (b : Ref sig .tc) → Buf (Elt Ideal) ((c : Thread nD τ).loc b))

theorem hz5 : (![0, 0] : Fin 2 → Nat) = fun _ => 0 := funext fun a => by fin_cases a <;> rfl

/-- Where each of the ten windows sits at a grid point: block row and block column. -/
structure Idx5 (t : Fin cfg5.N) : Prop where
  w0 : win5_0.index t (0 : Fin 2) = t.val ∧ win5_0.index t (1 : Fin 2) = 0
  w1 : win5_1.index t (0 : Fin 2) = t.val ∧ win5_1.index t (1 : Fin 2) = 0
  w2 : win5_2.index t (0 : Fin 2) = t.val ∧ win5_2.index t (1 : Fin 2) = 0
  w3 : win5_3.index t (0 : Fin 2) = 0 ∧ win5_3.index t (1 : Fin 2) = 0
  w4 : win5_4.index t (0 : Fin 2) = 0 ∧ win5_4.index t (1 : Fin 2) = 0
  w5 : win5_5.index t (0 : Fin 2) = 0 ∧ win5_5.index t (1 : Fin 2) = 0
  w6 : win5_6.index t (0 : Fin 2) = 0 ∧ win5_6.index t (1 : Fin 2) = 0
  w7 : win5_7.index t (0 : Fin 2) = 0 ∧ win5_7.index t (1 : Fin 2) = 0
  w8 : win5_8.index t (0 : Fin 2) = 0 ∧ win5_8.index t (1 : Fin 2) = 0
  w9 : win5_9.index t (0 : Fin 2) = t.val ∧ win5_9.index t (1 : Fin 2) = 0

/-- The printed index maps over the 25 grid points: the row-blocked windows sit at block row `t`, everything
    else at block (0, 0). -/
theorem idx5 : ∀ t : Fin cfg5.N, Idx5 t := fun t =>
  have h : ∀ t : Fin cfg5.N,
      (win5_0.index t (0 : Fin 2) = t.val ∧ win5_0.index t (1 : Fin 2) = 0)
      ∧ (win5_1.index t (0 : Fin 2) = t.val ∧ win5_1.index t (1 : Fin 2) = 0)
      ∧ (win5_2.index t (0 : Fin 2) = t.val ∧ win5_2.index t (1 : Fin 2) = 0)
      ∧ (win5_3.index t (0 : Fin 2) = 0 ∧ win5_3.index t (1 : Fin 2) = 0)
      ∧ (win5_4.index t (0 : Fin 2) = 0 ∧ win5_4.index t (1 : Fin 2) = 0)
      ∧ (win5_5.index t (0 : Fin 2) = 0 ∧ win5_5.index t (1 : Fin 2) = 0)
      ∧ (win5_6.index t (0 : Fin 2) = 0 ∧ win5_6.index t (1 : Fin 2) = 0)
      ∧ (win5_7.index t (0 : Fin 2) = 0 ∧ win5_7.index t (1 : Fin 2) = 0)
      ∧ (win5_8.index t (0 : Fin 2) = 0 ∧ win5_8.index t (1 : Fin 2) = 0)
      ∧ (win5_9.index t (0 : Fin 2) = t.val ∧ win5_9.index t (1 : Fin 2) = 0) :=
    (by decide +kernel : ∀ t : Fin grid5.N, _)
  ⟨(h t).1, (h t).2.1, (h t).2.2.1, (h t).2.2.2.1, (h t).2.2.2.2.1, (h t).2.2.2.2.2.1, (h t).2.2.2.2.2.2.1,
    (h t).2.2.2.2.2.2.2.1, (h t).2.2.2.2.2.2.2.2.1, (h t).2.2.2.2.2.2.2.2.2⟩

/-- The head's result column as one function of the arrays the region finds. -/
abbrev layer5 (c : Dev nD) : S50000x1.Idx → EReal :=
  headAt3 (N := 50000) (V c main_v73) (V c main_v80) (V c main_v87) (V c main_v88) (V c main_v89) (V c main_v90)
    (fun q => V c main_v91 (ix2 0 q)) (fun q => V c main_arg26 (ix2 0 q)) (V c main_v92 (ix2 0 0))

/-- The gathered peptide features' block at point `t` is rows 2000·t … of its array. -/
theorem blk5_0 (c : Dev nD) (t : Fin cfg5.N) (x : S2000x256.Idx) (k : S50000x256.Idx)
    (hk0 : (k 0).val = 2000 * t.val + (x 0).val) (hk1 : (k 1).val = (x 1).val) :
    (iblk5 V c 0 t : Vec Ideal S2000x256 .f32) x = (V c main_v73 : S50000x256.Idx → Elt Ideal .f32) k := by
  have e := idx5 t
  unfold iblk5
  rw [View.read_apply]
  show V c main_v73 _ = V c main_v73 _
  congr 1
  funext a
  apply Fin.ext
  match a with
  | ⟨0, _⟩ => show win5_0.index t 0 * 2000 + 1 * (x 0).val = (k 0).val; rw [(e.w0).1, hk0]; omega
  | ⟨1, _⟩ => show win5_0.index t 1 * 256 + 1 * (x 1).val = (k 1).val; rw [(e.w0).2, hk1]; omega

/-- The gathered MHC features' block at point `t` is rows 2000·t … of its array. -/
theorem blk5_1 (c : Dev nD) (t : Fin cfg5.N) (x : S2000x256.Idx) (k : S50000x256.Idx)
    (hk0 : (k 0).val = 2000 * t.val + (x 0).val) (hk1 : (k 1).val = (x 1).val) :
    (iblk5 V c 1 t : Vec Ideal S2000x256 .f32) x = (V c main_v80 : S50000x256.Idx → Elt Ideal .f32) k := by
  have e := idx5 t
  unfold iblk5
  rw [View.read_apply]
  show V c main_v80 _ = V c main_v80 _
  congr 1
  funext a
  apply Fin.ext
  match a with
  | ⟨0, _⟩ => show win5_1.index t 0 * 2000 + 1 * (x 0).val = (k 0).val; rw [(e.w1).1, hk0]; omega
  | ⟨1, _⟩ => show win5_1.index t 1 * 256 + 1 * (x 1).val = (k 1).val; rw [(e.w1).2, hk1]; omega

/-- The gathered receptor features' block at point `t` is rows 2000·t … of its array. -/
theorem blk5_2 (c : Dev nD) (t : Fin cfg5.N) (x : S2000x256.Idx) (k : S50000x256.Idx)
    (hk0 : (k 0).val = 2000 * t.val + (x 0).val) (hk1 : (k 1).val = (x 1).val) :
    (iblk5 V c 2 t : Vec Ideal S2000x256 .f32) x = (V c main_v87 : S50000x256.Idx → Elt Ideal .f32) k := by
  have e := idx5 t
  unfold iblk5
  rw [View.read_apply]
  show V c main_v87 _ = V c main_v87 _
  congr 1
  funext a
  apply Fin.ext
  match a with
  | ⟨0, _⟩ => show win5_2.index t 0 * 2000 + 1 * (x 0).val = (k 0).val; rw [(e.w2).1, hk0]; omega
  | ⟨1, _⟩ => show win5_2.index t 1 * 256 + 1 * (x 1).val = (k 1).val; rw [(e.w2).2, hk1]; omega

/-- The first weight block is fetched whole at every point. -/
theorem blk5_3 (c : Dev nD) (t : Fin cfg5.N) (x : S256x256.Idx) :
    (iblk5 V c 3 t : Vec Ideal S256x256 .f32) x = (V c main_v88 : S256x256.Idx → Elt Ideal .f32) x := by
  have e := idx5 t
  unfold iblk5
  rw [View.read_apply]
  show V c main_v88 _ = V c main_v88 _
  congr 1
  funext a
  apply Fin.ext
  match a with
  | ⟨0, _⟩ => show win5_3.index t 0 * 256 + 1 * (x 0).val = (x 0).val; rw [(e.w3).1]; omega
  | ⟨1, _⟩ => show win5_3.index t 1 * 256 + 1 * (x 1).val = (x 1).val; rw [(e.w3).2]; omega

/-- The second weight block is fetched whole at every point. -/
theorem blk5_4 (c : Dev nD) (t : Fin cfg5.N) (x : S256x256.Idx) :
    (iblk5 V c 4 t : Vec Ideal S256x256 .f32) x = (V c main_v89 : S256x256.Idx → Elt Ideal .f32) x := by
  have e := idx5 t
  unfold iblk5
  rw [View.read_apply]
  show V c main_v89 _ = V c main_v89 _
  congr 1
  funext a
  apply Fin.ext
  match a with
  | ⟨0, _⟩ => show win5_4.index t 0 * 256 + 1 * (x 0).val = (x 0).val; rw [(e.w4).1]; omega
  | ⟨1, _⟩ => show win5_4.index t 1 * 256 + 1 * (x 1).val = (x 1).val; rw [(e.w4).2]; omega

/-- The third weight block is fetched whole at every point. -/
theorem blk5_5 (c : Dev nD) (t : Fin cfg5.N) (x : S256x256.Idx) :
    (iblk5 V c 5 t : Vec Ideal S256x256 .f32) x = (V c main_v90 : S256x256.Idx → Elt Ideal .f32) x := by
  have e := idx5 t
  unfold iblk5
  rw [View.read_apply]
  show V c main_v90 _ = V c main_v90 _
  congr 1
  funext a
  apply Fin.ext
  match a with
  | ⟨0, _⟩ => show win5_5.index t 0 * 256 + 1 * (x 0).val = (x 0).val; rw [(e.w5).1]; omega
  | ⟨1, _⟩ => show win5_5.index t 1 * 256 + 1 * (x 1).val = (x 1).val; rw [(e.w5).2]; omega

/-- The first bias row is fetched whole at every point. -/
theorem blk5_6 (c : Dev nD) (t : Fin cfg5.N) (x : S1x256.Idx) :
    (iblk5 V c 6 t : Vec Ideal S1x256 .f32) x = (V c main_v91 : S1x256.Idx → Elt Ideal .f32) x := by
  have e := idx5 t
  unfold iblk5
  rw [View.read_apply]
  show V c main_v91 _ = V c main_v91 _
  congr 1
  funext a
  apply Fin.ext
  match a with
  | ⟨0, _⟩ => show win5_6.index t 0 * 1 + 1 * (x 0).val = (x 0).val; rw [(e.w6).1]; omega
  | ⟨1, _⟩ => show win5_6.index t 1 * 256 + 1 * (x 1).val = (x 1).val; rw [(e.w6).2]; omega

/-- The second weight's row is fetched whole at every point. -/
theorem blk5_7 (c : Dev nD) (t : Fin cfg5.N) (x : S1x256.Idx) :
    (iblk5 V c 7 t : Vec Ideal S1x256 .f32) x = (V c main_arg26 : S1x256.Idx → Elt Ideal .f32) x := by
  have e := idx5 t
  unfold iblk5
  rw [View.read_apply]
  show V c main_arg26 _ = V c main_arg26 _
  congr 1
  funext a
  apply Fin.ext
  match a with
  | ⟨0, _⟩ => show win5_7.index t 0 * 1 + 1 * (x 0).val = (x 0).val; rw [(e.w7).1]; omega
  | ⟨1, _⟩ => show win5_7.index t 1 * 256 + 1 * (x 1).val = (x 1).val; rw [(e.w7).2]; omega

/-- The scalar bias is fetched whole at every point. -/
theorem blk5_8 (c : Dev nD) (t : Fin cfg5.N) (x : S1x1.Idx) :
    (iblk5 V c 8 t : Vec Ideal S1x1 .f32) x = (V c main_v92 : S1x1.Idx → Elt Ideal .f32) x := by
  have e := idx5 t
  unfold iblk5
  rw [View.read_apply]
  show V c main_v92 _ = V c main_v92 _
  congr 1
  funext a
  apply Fin.ext
  match a with
  | ⟨0, _⟩ => show win5_8.index t 0 * 1 + 1 * (x 0).val = (x 0).val; rw [(e.w8).1]; omega
  | ⟨1, _⟩ => show win5_8.index t 1 * 1 + 1 * (x 1).val = (x 1).val; rw [(e.w8).2]; omega

/-- What point `t` writes back is block `t` of the head's result column. -/
theorem flushed5 (c : Dev nD) (t : Fin cfg5.N) :
    (dat5 V c).flushed 9 t = ((cfg5.win 9).blk t).view.read (Elt Ideal) (layer5 V c) := by
  show (cfg5.win 9).cut (grid5.coords t) ((dat5 V c).after 9 t) = _
  rw [after5_9]
  unfold out5_9
  rw [View.canon_unit_zero hz5]
  simp only [View.ld_unit_zero (S := S2000x256) hz5, View.ld_unit_zero (S := S256x256) hz5, View.ld_unit_zero (S := S1x256) hz5,
    View.ld_unit_zero (S := S1x1) hz5]
  rw [pay5_eq]
  have e := idx5 t
  funext j
  have hj0 : (j 0).val < 2000 := (j 0).isLt
  have r0 : ((((cfg5.win 9).blk t).view.emb j) 0).val = 2000 * t.val + (j 0).val := by
    show win5_9.index t 0 * 2000 + 1 * (j 0).val = _; rw [e.w9.1]; omega
  show headAt3 (N := 2000) (iblk5 V c 0 t) (iblk5 V c 1 t) (iblk5 V c 2 t) (iblk5 V c 3 t) (iblk5 V c 4 t) (iblk5 V c 5 t)
      (fun q => iblk5 V c 6 t (ix2 0 q)) (fun q => iblk5 V c 7 t (ix2 0 q)) (iblk5 V c 8 t (ix2 0 0)) j
    = layer5 V c (((cfg5.win 9).blk t).view.emb j)
  unfold layer5 headAt3 hiddenPre3
  refine congrArg₂ (· + ·) (Finset.sum_congr rfl fun q _ => congrArg₂ (· * ·) (congrArg₂ max (congrArg₂ (· + ·)
    (congrArg₂ (· + ·) (congrArg₂ (· + ·)
      (Finset.sum_congr rfl fun k _ => congrArg₂ (· * ·) ?_ ?_)
      (Finset.sum_congr rfl fun k _ => congrArg₂ (· * ·) ?_ ?_))
      (Finset.sum_congr rfl fun k _ => congrArg₂ (· * ·) ?_ ?_)) ?_) rfl) ?_) ?_
  · exact blk5_0 V c t _ _ r0 rfl
  · exact blk5_3 V c t _
  · exact blk5_1 V c t _ _ r0 rfl
  · exact blk5_4 V c t _
  · exact blk5_2 V c t _ _ r0 rfl
  · exact blk5_5 V c t _
  · exact blk5_6 V c t _
  · exact blk5_7 V c t _
  · exact blk5_8 V c t _

/-- Every row of the result column lies in the block of the point that handles its two thousand. -/
theorem cover5 (i : S50000x1.Idx) : ∃ t : Fin cfg5.N, (cfg5.win 9).flush t = true ∧ i ∈ ((cfg5.win 9).blk t).view.set := by
  have h0 : (i 0).val < 50000 := (i 0).isLt
  have h1 : (i 1).val < 1 := (i 1).isLt
  have hN : cfg5.N = 25 := N_5
  obtain ⟨t0, ht0⟩ : ∃ t0 : Fin cfg5.N, t0.val = (i 0).val / 2000 := ⟨⟨(i 0).val / 2000, by rw [hN]; omega⟩, rfl⟩
  refine ⟨t0, flush5_9 t0, ?_⟩
  have e := idx5 t0
  show i ∈ ((View.whole main_v93).slice (win5_9.rect t0)).set
  rw [View.set_slice_whole, Rect.mem_set_unit]
  intro a
  match a with
  | ⟨0, _⟩ =>
    show win5_9.index t0 0 * 2000 ≤ (i 0).val ∧ (i 0).val < win5_9.index t0 0 * 2000 + 2000
    rw [e.w9.1, ht0]; omega
  | ⟨1, _⟩ =>
    show win5_9.index t0 1 * 1 ≤ (i 1).val ∧ (i 1).val < win5_9.index t0 1 * 1 + 1
    rw [e.w9.2]; omega

/-- The array the region leaves: the head's function of the arrays it found. -/
theorem arr5 (c : Dev nD) : (dat5 V c).arrAt 9 cfg5.N = layer5 V c :=
  (dat5 V c).arrAt_eq_of_cover 9 (layer5 V c) (fun t _ => flushed5 V c t) (cover5)

end Cert.KernelIdeal.Hand

end
-- ==== Proof.Ref4.lean ====
/-
  The reference's projection of the peptide features, read index by index: the matrix product against the
  transposed weight plus the bias broadcast along rows is the projection's function of the features, the
  weight and the bias.
-/
import proofs.«175308_j62130996904304_1_alg».proof.Proof.Gen.ReferenceIdeal.Read
import proofs.«175308_j62130996904304_1_alg».proof.Proof.SpecHead
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.ReferenceIdeal.Hand

open Cert.ReferenceIdeal Cert.ReferenceIdeal.Read Cert.Hand.Spec

/-- The projection is the projection's function. -/
theorem ref_proj (x0 : (⟨S20000x128, .f32⟩ : BufTy).Contents (Elt Ideal)) (x22 : (⟨S256x128, .f32⟩ : BufTy).Contents (Elt Ideal)) (x23 : (⟨S256, .f32⟩ : BufTy).Contents (Elt Ideal)) :
    val_main_v116 (F := Ideal) x0 x22 x23 = projAt (N := 20000) x0 x22 (fun q => x23 (ix1 q)) := by
  funext i
  rw [val_main_v116_apply, val_main_v113_apply, val_main_v115_apply, val_main_v114_apply]
  unfold projAt
  refine congrArg₂ (· + ·) (Finset.sum_congr rfl fun k _ => congrArg₂ (· * ·) ?_ ?_) ?_
  · exact congrArg x0 (funext fun a => Fin.ext (by
      match a with
      | ⟨0, _⟩ => rfl
      | ⟨1, _⟩ => rfl))
  · rw [val_main_v112_apply]
    exact congrArg x22 (funext fun a => Fin.ext (by
      match a with
      | ⟨0, _⟩ => rfl
      | ⟨1, _⟩ => rfl))
  · exact congrArg x23 (funext fun a => Fin.ext (by
      match a with
      | ⟨0, _⟩ => rfl))

end Cert.ReferenceIdeal.Hand

end
-- ==== Proof.RefConcat.lean ====
/-
  Three arrays of 256 columns laid side by side into 768 columns, read at an index: column `off + k` of the
  joined array, for `off` = 0, 256, 512 and `k < 256`, is column `k` of the first, second, third array, in
  the same row. The piece that holds a column is the one whose span (the extents of the pieces before it up to
  its own) contains the column.
-/
import proofs.«175308_j62130996904304_1_alg».proof.Proof.Gen.ReferenceIdeal.Read
import proofs.«175308_j62130996904304_1_alg».proof.Proof.SpecHead
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.ReferenceIdeal.Hand

open Cert.ReferenceIdeal Cert.ReferenceIdeal.Read Cert.Hand.Spec

section
variable {α : Type}

/-- Columns 0 … 255 of the joined array are the first array. -/
theorem joined_first (a b c : S50000x256.Idx → α)
    (h : Shape.Concatenates [S50000x256, S50000x256, S50000x256] S50000x768 1) (j : S50000x768.Idx) (r : Fin 50000) (k : Fin 256)
    (h0 : (j 0).val = r.val) (h1 : (j 1).val = 0 + k.val) :
    concatenate S50000x768 1 [⟨S50000x256, a⟩, ⟨S50000x256, b⟩, ⟨S50000x256, c⟩] h j = a (ix2 r k) :=
  concatenate_apply_piece (t := S50000x768) 1 [⟨S50000x256, a⟩, ⟨S50000x256, b⟩, ⟨S50000x256, c⟩] h j
    0 (by show (0 : Nat) < 3; omega) S50000x256 a rfl rfl 0 rfl (ix2 r k)
    (fun b' hb => by
      match b' with
      | ⟨0, _⟩ => exact h0.symm
      | ⟨1, _⟩ => exact absurd rfl hb)
    (by show 0 + k.val = (j 1).val; omega)

/-- Columns 256 … 511 of the joined array are the second array. -/
theorem joined_second (a b c : S50000x256.Idx → α)
    (h : Shape.Concatenates [S50000x256, S50000x256, S50000x256] S50000x768 1) (j : S50000x768.Idx) (r : Fin 50000) (k : Fin 256)
    (h0 : (j 0).val = r.val) (h1 : (j 1).val = 256 + k.val) :
    concatenate S50000x768 1 [⟨S50000x256, a⟩, ⟨S50000x256, b⟩, ⟨S50000x256, c⟩] h j = b (ix2 r k) :=
  concatenate_apply_piece (t := S50000x768) 1 [⟨S50000x256, a⟩, ⟨S50000x256, b⟩, ⟨S50000x256, c⟩] h j
    1 (by show (1 : Nat) < 3; omega) S50000x256 b rfl rfl 256 rfl (ix2 r k)
    (fun b' hb => by
      match b' with
      | ⟨0, _⟩ => exact h0.symm
      | ⟨1, _⟩ => exact absurd rfl hb)
    (by show 256 + k.val = (j 1).val; omega)

/-- Columns 512 … 767 of the joined array are the third array. -/
theorem joined_third (a b c : S50000x256.Idx → α)
    (h : Shape.Concatenates [S50000x256, S50000x256, S50000x256] S50000x768 1) (j : S50000x768.Idx) (r : Fin 50000) (k : Fin 256)
    (h0 : (j 0).val = r.val) (h1 : (j 1).val = 512 + k.val) :
    concatenate S50000x768 1 [⟨S50000x256, a⟩, ⟨S50000x256, b⟩, ⟨S50000x256, c⟩] h j = c (ix2 r k) :=
  concatenate_apply_piece (t := S50000x768) 1 [⟨S50000x256, a⟩, ⟨S50000x256, b⟩, ⟨S50000x256, c⟩] h j
    2 (by show (2 : Nat) < 3; omega) S50000x256 c rfl rfl 512 rfl (ix2 r k)
    (fun b' hb => by
      match b' with
      | ⟨0, _⟩ => exact h0.symm
      | ⟨1, _⟩ => exact absurd rfl hb)
    (by show 512 + k.val = (j 1).val; omega)

end

end Cert.ReferenceIdeal.Hand

end
-- ==== Proof.Ref5.lean ====
/-
  The reference's head, read index by index. The three gathered feature arrays are laid side by side into
  768 columns and multiplied ONCE against the transposed first head weight; a sum over 768 consecutive
  columns is the sum of its three blocks of 256, and in each block the joined array is one of the three
  feature arrays while the weight's columns are the block's columns. So the hidden unit is the three
  blocks' products added in order, as the kernel computes it. The rest is the bias, the rectifier, the
  product with the second weight (a transposed 1 × 256 row read at (k, 0) is the row at (0, k)) and the
  scalar bias.
-/
import proofs.«175308_j62130996904304_1_alg».proof.Proof.Gen.ReferenceIdeal.Read
import proofs.«175308_j62130996904304_1_alg».proof.Proof.SpecHead
import proofs.«175308_j62130996904304_1_alg».proof.Proof.RefConcat
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem

namespace Cert.ReferenceIdeal.Hand

open Cert.ReferenceIdeal Cert.ReferenceIdeal.Read Cert.Hand.Spec

/-- The head's output column is the head's function of the three gathered feature arrays, the first weight's
    three column blocks, the two bias terms and the second weight. -/
theorem ref_head (x0 : (⟨S20000x128, .f32⟩ : BufTy).Contents (Elt Ideal)) (x1 : (⟨S5000x128, .f32⟩ : BufTy).Contents (Elt Ideal)) (x2 : (⟨S100000x128, .f32⟩ : BufTy).Contents (Elt Ideal)) (x3 : (⟨S200000, .i32⟩ : BufTy).Contents (Elt Ideal)) (x4 : (⟨S200000, .i32⟩ : BufTy).Contents (Elt Ideal)) (x5 : (⟨S400000, .i32⟩ : BufTy).Contents (Elt Ideal)) (x6 : (⟨S400000, .i32⟩ : BufTy).Contents (Elt Ideal)) (x7 : (⟨S50000, .i32⟩ : BufTy).Contents (Elt Ideal)) (x8 : (⟨S50000, .i32⟩ : BufTy).Contents (Elt Ideal)) (x9 : (⟨S50000, .i32⟩ : BufTy).Contents (Elt Ideal)) (x10 : (⟨S256x128, .f32⟩ : BufTy).Contents (Elt Ideal)) (x11 : (⟨S256, .f32⟩ : BufTy).Contents (Elt Ideal)) (x12 : (⟨S256x128, .f32⟩ : BufTy).Contents (Elt Ideal)) (x13 : (⟨S256x128, .f32⟩ : BufTy).Contents (Elt Ideal)) (x14 : (⟨S256, .f32⟩ : BufTy).Contents (Elt Ideal)) (x15 : (⟨S256x128, .f32⟩ : BufTy).Contents (Elt Ideal)) (x16 : (⟨S256x128, .f32⟩ : BufTy).Contents (Elt Ideal)) (x17 : (⟨S256, .f32⟩ : BufTy).Contents (Elt Ideal)) (x18 : (⟨S256x256, .f32⟩ : BufTy).Contents (Elt Ideal)) (x19 : (⟨S256x256, .f32⟩ : BufTy).Contents (Elt Ideal)) (x20 : (⟨S256, .f32⟩ : BufTy).Contents (Elt Ideal)) (x21 : (⟨S256x256, .f32⟩ : BufTy).Contents (Elt Ideal)) (x22 : (⟨S256x128, .f32⟩ : BufTy).Contents (Elt Ideal)) (x23 : (⟨S256, .f32⟩ : BufTy).Contents (Elt Ideal)) (x24 : (⟨S256x768, .f32⟩ : BufTy).Contents (Elt Ideal)) (x25 : (⟨S256, .f32⟩ : BufTy).Contents (Elt Ideal)) (x26 : (⟨S1x256, .f32⟩ : BufTy).Contents (Elt Ideal)) (x27 : (⟨S1, .f32⟩ : BufTy).Contents (Elt Ideal)) :
    val_main_v149 (F := Ideal) x0 x1 x2 x3 x4 x5 x6 x7 x8 x9 x10 x11 x12 x13 x14 x15 x16 x17 x18 x19 x20 x21 x22 x23 x24 x25 x26 x27
      = headAt3 (N := 50000) (val_main_v123 (F := Ideal) x0 x7 x22 x23) (val_main_v130 (F := Ideal) x0 x1 x3 x4 x8 x10 x11 x12 x16 x17 x18)
          (val_main_v137 (F := Ideal) x0 x1 x2 x3 x4 x5 x6 x9 x10 x11 x12 x13 x14 x15 x19 x20 x21)
          (fun x => x24 (ix2 (x 0) (col 0 (by omega) (x 1)))) (fun x => x24 (ix2 (x 0) (col 256 (by omega) (x 1))))
          (fun x => x24 (ix2 (x 0) (col 512 (by omega) (x 1))))
          (fun q => x25 (ix1 q)) (fun q => x26 (ix2 0 q)) (x27 (ix1 0)) := by
  funext i
  have hi1 : (i 1).val = 0 := by have h : (i 1).val < 1 := (i 1).isLt; omega
  rw [val_main_v149_apply, val_main_v146_apply, val_main_v148_apply, val_main_v147_apply]
  unfold headAt3
  refine congrArg₂ (· + ·) (Finset.sum_congr rfl fun j _ => congrArg₂ (· * ·) ?_ ?_) ?_
  · rw [val_main_v144_apply, val_main_v143_apply, val_main_v140_apply, val_main_v142_apply, val_main_v141_apply,
      val_main_call4_v0_apply, val_main_call4_cst_apply]
    refine congrArg₂ max (congrArg₂ (· + ·) ?_ ?_) rfl
    · rw [sum_three_blocks]
      unfold hiddenPre3 val_main_v138
      refine congrArg₂ (· + ·) (congrArg₂ (· + ·)
        (Finset.sum_congr rfl fun k _ => congrArg₂ (· * ·) ?_ ?_)
        (Finset.sum_congr rfl fun k _ => congrArg₂ (· * ·) ?_ ?_))
        (Finset.sum_congr rfl fun k _ => congrArg₂ (· * ·) ?_ ?_)
      · exact joined_first _ _ _ _ _ (i 0) k rfl rfl
      · rw [val_main_v139_apply]
        exact congrArg x24 (funext fun a => Fin.ext (by
          match a with
          | ⟨0, _⟩ => rfl
          | ⟨1, _⟩ => rfl))
      · exact joined_second _ _ _ _ _ (i 0) k rfl rfl
      · rw [val_main_v139_apply]
        exact congrArg x24 (funext fun a => Fin.ext (by
          match a with
          | ⟨0, _⟩ => rfl
          | ⟨1, _⟩ => rfl))
      · exact joined_third _ _ _ _ _ (i 0) k rfl rfl
      · rw [val_main_v139_apply]
        exact congrArg x24 (funext fun a => Fin.ext (by
          match a with
          | ⟨0, _⟩ => rfl
          | ⟨1, _⟩ => rfl))
    · exact congrArg x25 (funext fun a => Fin.ext (by
        match a with
        | ⟨0, _⟩ => rfl))
  · rw [val_main_v145_apply]
    exact congrArg x26 (funext fun a => Fin.ext (by
      match a with
      | ⟨0, _⟩ => exact hi1
      | ⟨1, _⟩ => rfl))
  · exact congrArg x27 (funext fun a => Fin.ext (by
      match a with
      | ⟨0, _⟩ => rfl))

end Cert.ReferenceIdeal.Hand

end
-- ==== Proof.ChainC.lean ====
/-
  The buffers' contents at the last boundaries, named by the reference's stages, and the result. The fifth
  region leaves the projection's function of the peptide features, which is the reference's projection
  stage. The host operations before the last region gather rows of the projection and of the two second-layer
  results by the pack indices: the reference's gathers of the reference's stages. They also cut the first head
  weight into its three column blocks: entry (j, k) of the block at offset `off` is entry (j, off + k) of the
  weight. The last region leaves the head's function of these, which is the reference's head stage, and the
  final reshape of the 50000 × 1 column to a vector is the reference's.
-/
import proofs.«175308_j62130996904304_1_alg».proof.Proof.ChainB
import proofs.«175308_j62130996904304_1_alg».proof.Proof.Reg4
import proofs.«175308_j62130996904304_1_alg».proof.Proof.Reg5
import proofs.«175308_j62130996904304_1_alg».proof.Proof.Ref4
import proofs.«175308_j62130996904304_1_alg».proof.Proof.Ref5
import Idealize.ShloMosaic.Lib.StableHlo.Run
import Idealize.ShloMosaic.Lib.Pipeline.Value

set_option maxRecDepth 16384

noncomputable section

open Idealize.ShloMosaic Idealize.ShloMosaic.TcCoe Idealize.ShloMosaic.ValueIdx Idealize.SL.Sem Idealize.ShloMosaic.StableHlo

namespace Cert.KernelIdeal.Hand

open Cert.KernelIdeal Cert.KernelIdeal.Gen Cert.Hand.Spec Cert.ReferenceIdeal.Hand

variable (m : (ℓ : Loc nD τ sig) → Buf (Elt Ideal) ℓ) (ρ : Dev nD → PrngReg)

/-- A column block of the 256 × 768 weight, read at (j, k). -/
theorem weight_block (w : S256x768.Idx → EReal) (off : Nat) (hoff : off ≤ 512) (h : S256x768.Slices ![0, off] S256x256)
    (x : S256x256.Idx) : extractStridedSlice S256x256 ![0, off] w h x = w (ix2 (x 0) (col off hoff (x 1))) :=
  extractStridedSlice_apply ![0, off] w h x (ix2 (x 0) (col off hoff (x 1))) (fun a => by
    match a with
    | ⟨0, _⟩ => exact (Nat.zero_add _).symm
    | ⟨1, _⟩ => rfl)

/-- A one-entry vector reshaped to 1 × 1, read at (0, 0). -/
theorem scalar_of_vector (v : S1.Idx → EReal) : shapeCast S1x1 v shapeCasts_S1_S1x1 (ix2 0 0) = v (ix1 0) :=
  shapeCast_apply v shapeCasts_S1_S1x1 (ix2 0 0) (ix1 0) (by
    rw [Shape.rowMajor_val_one, Shape.rowMajor_val_two]
    rfl)

section
variable (c : Dev nD)

/-! ## The projection -/

theorem w8_arg23 : W8 m ρ c (Proc.devRef .tc main_arg23) = (m ((c : Thread nD τ).loc main_arg23)) := by to_launch

theorem w9_v65 : W9 m ρ c (Proc.devRef .tc main_v65) = shapeCast S1x256 (m ((c : Thread nD τ).loc main_arg23)) shapeCasts_S256_S1x256 := by
  show StableHlo.after hostOps4 (W8 m ρ c) (Proc.devRef .tc main_v65) = _
  dsimp only [hostOps4]
  after_results_simp
  rw [w8_arg23]
  rfl

theorem w9_arg0 : W9 m ρ c (Proc.devRef .tc main_arg0) = (m ((c : Thread nD τ).loc main_arg0)) := by to_launch
theorem w9_arg22 : W9 m ρ c (Proc.devRef .tc main_arg22) = (m ((c : Thread nD τ).loc main_arg22)) := by to_launch

theorem w10_v66 : W10 m ρ c (Proc.devRef .tc main_v66) = Cert.ReferenceIdeal.Read.val_main_v116 (F := Ideal) (m ((c : Thread nD τ).loc main_arg0)) (m ((c : Thread nD τ).loc main_arg22)) (m ((c : Thread nD τ).loc main_arg23)) := by
  refine (W10_arr m ρ c 3).trans ((arr4 (V9 m ρ) c).trans ?_)
  show projAt (N := 20000) (W9 m ρ c (Proc.devRef .tc main_arg0)) (W9 m ρ c (Proc.devRef .tc main_arg22))
      (fun q => W9 m ρ c (Proc.devRef .tc main_v65) (ix2 0 q)) = _
  rw [w9_arg0, w9_arg22, w9_v65, ref_proj]
  exact congrArg (fun b => projAt (N := 20000) _ _ b) (funext fun q => row_of_vector _ q)

/-! ## At the entry of the host operations before the last region -/

theorem w10_v62 : W10 m ρ c (Proc.devRef .tc main_v62)
    = Cert.ReferenceIdeal.Read.val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg10)) (m ((c : Thread nD τ).loc main_arg11)) (m ((c : Thread nD τ).loc main_arg12)) (m ((c : Thread nD τ).loc main_arg16)) (m ((c : Thread nD τ).loc main_arg17)) (m ((c : Thread nD τ).loc main_arg18)) := by
  region_back
  host_back
  region_back
  host_back
  exact w6_v62 m ρ c

theorem w10_v64 : W10 m ρ c (Proc.devRef .tc main_v64)
    = Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg19)) (m ((c : Thread nD τ).loc main_arg20)) (m ((c : Thread nD τ).loc main_arg21)) := by
  region_back
  host_back
  exact w8_v64 m ρ c

theorem w10_arg7 : W10 m ρ c (Proc.devRef .tc main_arg7) = (m ((c : Thread nD τ).loc main_arg7)) := by to_launch
theorem w10_arg8 : W10 m ρ c (Proc.devRef .tc main_arg8) = (m ((c : Thread nD τ).loc main_arg8)) := by to_launch
theorem w10_arg9 : W10 m ρ c (Proc.devRef .tc main_arg9) = (m ((c : Thread nD τ).loc main_arg9)) := by to_launch
theorem w10_arg24 : W10 m ρ c (Proc.devRef .tc main_arg24) = (m ((c : Thread nD τ).loc main_arg24)) := by to_launch
theorem w10_arg25 : W10 m ρ c (Proc.devRef .tc main_arg25) = (m ((c : Thread nD τ).loc main_arg25)) := by to_launch
theorem w10_arg27 : W10 m ρ c (Proc.devRef .tc main_arg27) = (m ((c : Thread nD τ).loc main_arg27)) := by to_launch

/-! ## At the last region's entry -/

theorem w11_v73 : W11 m ρ c (Proc.devRef .tc main_v73) = Cert.ReferenceIdeal.Read.val_main_v123 (F := Ideal) (m ((c : Thread nD τ).loc main_arg0)) (m ((c : Thread nD τ).loc main_arg7)) (m ((c : Thread nD τ).loc main_arg22)) (m ((c : Thread nD τ).loc main_arg23)) := by
  show StableHlo.after hostOps5 (W10 m ρ c) (Proc.devRef .tc main_v73) = _
  dsimp only [hostOps5]
  after_results_simp
  rw [w10_v66, w10_arg7]
  rfl

theorem w11_v80 : W11 m ρ c (Proc.devRef .tc main_v80)
    = Cert.ReferenceIdeal.Read.val_main_v130 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg10)) (m ((c : Thread nD τ).loc main_arg11)) (m ((c : Thread nD τ).loc main_arg12)) (m ((c : Thread nD τ).loc main_arg16)) (m ((c : Thread nD τ).loc main_arg17)) (m ((c : Thread nD τ).loc main_arg18)) := by
  show StableHlo.after hostOps5 (W10 m ρ c) (Proc.devRef .tc main_v80) = _
  dsimp only [hostOps5]
  after_results_simp
  rw [w10_v62, w10_arg8]
  rfl

theorem w11_v87 : W11 m ρ c (Proc.devRef .tc main_v87)
    = Cert.ReferenceIdeal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg19)) (m ((c : Thread nD τ).loc main_arg20)) (m ((c : Thread nD τ).loc main_arg21)) := by
  show StableHlo.after hostOps5 (W10 m ρ c) (Proc.devRef .tc main_v87) = _
  dsimp only [hostOps5]
  after_results_simp
  rw [w10_v64, w10_arg9]
  rfl

theorem w11_v88 : W11 m ρ c (Proc.devRef .tc main_v88) = extractStridedSlice S256x256 ![0, 0] (m ((c : Thread nD τ).loc main_arg24)) slices_S256x768_S256x256_0_0 := by
  show StableHlo.after hostOps5 (W10 m ρ c) (Proc.devRef .tc main_v88) = _
  dsimp only [hostOps5]
  after_results_simp
  rw [w10_arg24]

theorem w11_v89 : W11 m ρ c (Proc.devRef .tc main_v89) = extractStridedSlice S256x256 ![0, 256] (m ((c : Thread nD τ).loc main_arg24)) slices_S256x768_S256x256_0_256 := by
  show StableHlo.after hostOps5 (W10 m ρ c) (Proc.devRef .tc main_v89) = _
  dsimp only [hostOps5]
  after_results_simp
  rw [w10_arg24]

theorem w11_v90 : W11 m ρ c (Proc.devRef .tc main_v90) = extractStridedSlice S256x256 ![0, 512] (m ((c : Thread nD τ).loc main_arg24)) slices_S256x768_S256x256_0_512 := by
  show StableHlo.after hostOps5 (W10 m ρ c) (Proc.devRef .tc main_v90) = _
  dsimp only [hostOps5]
  after_results_simp
  rw [w10_arg24]

theorem w11_v91 : W11 m ρ c (Proc.devRef .tc main_v91) = shapeCast S1x256 (m ((c : Thread nD τ).loc main_arg25)) shapeCasts_S256_S1x256 := by
  show StableHlo.after hostOps5 (W10 m ρ c) (Proc.devRef .tc main_v91) = _
  dsimp only [hostOps5]
  after_results_simp
  rw [w10_arg25]
  rfl

theorem w11_v92 : W11 m ρ c (Proc.devRef .tc main_v92) = shapeCast S1x1 (m ((c : Thread nD τ).loc main_arg27)) shapeCasts_S1_S1x1 := by
  show StableHlo.after hostOps5 (W10 m ρ c) (Proc.devRef .tc main_v92) = _
  dsimp only [hostOps5]
  after_results_simp
  rw [w10_arg27]
  rfl

theorem w11_arg26 : W11 m ρ c (Proc.devRef .tc main_arg26) = (m ((c : Thread nD τ).loc main_arg26)) := by to_launch

/-! ## The head and the result -/

theorem w12_v93 : W12 m ρ c (Proc.devRef .tc main_v93) = Cert.ReferenceIdeal.Read.val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  refine (W12_arr m ρ c 9).trans ((arr5 (V11 m ρ) c).trans ?_)
  show headAt3 (N := 50000) (W11 m ρ c (Proc.devRef .tc main_v73)) (W11 m ρ c (Proc.devRef .tc main_v80)) (W11 m ρ c (Proc.devRef .tc main_v87))
      (W11 m ρ c (Proc.devRef .tc main_v88)) (W11 m ρ c (Proc.devRef .tc main_v89)) (W11 m ρ c (Proc.devRef .tc main_v90))
      (fun q => W11 m ρ c (Proc.devRef .tc main_v91) (ix2 0 q)) (fun q => W11 m ρ c (Proc.devRef .tc main_arg26) (ix2 0 q))
      (W11 m ρ c (Proc.devRef .tc main_v92) (ix2 0 0)) = _
  rw [w11_v73, w11_v80, w11_v87, w11_v88, w11_v89, w11_v90, w11_v91, w11_arg26, w11_v92, ref_head]
  have e0 : (extractStridedSlice S256x256 ![0, 0] (m ((c : Thread nD τ).loc main_arg24)) slices_S256x768_S256x256_0_0 : S256x256.Idx → EReal)
      = fun x => (m ((c : Thread nD τ).loc main_arg24)) (ix2 (x 0) (col 0 (by omega) (x 1))) := funext fun x => weight_block _ 0 (by omega) _ x
  have e1 : (extractStridedSlice S256x256 ![0, 256] (m ((c : Thread nD τ).loc main_arg24)) slices_S256x768_S256x256_0_256 : S256x256.Idx → EReal)
      = fun x => (m ((c : Thread nD τ).loc main_arg24)) (ix2 (x 0) (col 256 (by omega) (x 1))) := funext fun x => weight_block _ 256 (by omega) _ x
  have e2 : (extractStridedSlice S256x256 ![0, 512] (m ((c : Thread nD τ).loc main_arg24)) slices_S256x768_S256x256_0_512 : S256x256.Idx → EReal)
      = fun x => (m ((c : Thread nD τ).loc main_arg24)) (ix2 (x 0) (col 512 (by omega) (x 1))) := funext fun x => weight_block _ 512 (by omega) _ x
  have e3 : (fun q : Fin 256 => shapeCast S1x256 (m ((c : Thread nD τ).loc main_arg25)) shapeCasts_S256_S1x256 (ix2 0 q)) = fun q => (m ((c : Thread nD τ).loc main_arg25)) (ix1 q) :=
    funext fun q => row_of_vector _ q
  rw [e0, e1, e2, e3, scalar_of_vector]

/-- The result array of the idealized kernel's run is the reference's result stage of the argument arrays. -/
theorem w13_v94 : W13 m ρ c (Proc.devRef .tc main_v94) = Cert.ReferenceIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  show StableHlo.after hostOps6 (W12 m ρ c) (Proc.devRef .tc main_v94) = _
  dsimp only [hostOps6]
  after_results_simp
  rw [w12_v93]
  rfl

end

end Cert.KernelIdeal.Hand

end
-- ==== Proof.Claims.lean ====
/-
  The five claims. The word-level kernel and its idealization run, fault-free, with their arguments unchanged
  (the frames over the pipelined regions); the reference runs with its arguments unchanged (its run read back);
  the idealization rewrote nothing, so it preserves the kernel trivially. For the value claim both programs'
  results are posted at ONE term, the reference's result stage of the kernel's argument arrays: the kernel's
  run ends there because each host stretch is the reference's operations on the same values and each region
  leaves its layer's function, which is the reference's stage for that layer; the reference's run ends there
  because its arguments agree with the kernel's. No law beyond commutativity and associativity of addition
  is used, so the precondition is never opened.
-/
import proofs.«175308_j62130996904304_1_alg».proof.Defs
import proofs.«175308_j62130996904304_1_alg».proof.Proof.Gen.Kernel.Frame
import proofs.«175308_j62130996904304_1_alg».proof.Proof.Gen.KernelIdeal.Frame
import proofs.«175308_j62130996904304_1_alg».proof.Proof.Gen.ReferenceIdeal.Run
import proofs.«175308_j62130996904304_1_alg».proof.Proof.Gen.ReferenceIdeal.Read
import proofs.«175308_j62130996904304_1_alg».proof.Proof.Gen.Pre_finite_inputs
import proofs.«175308_j62130996904304_1_alg».proof.Proof.KRun
import proofs.«175308_j62130996904304_1_alg».proof.Proof.ChainC

set_option maxRecDepth 16384

noncomputable section

open Idealize.ShloMosaic Idealize.ShloMosaic.TcCoe Idealize.SL.Sem

namespace Cert.Proof.Claims

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the reference's result stage of the kernel's arguments. -/
theorem algebraic : Cert.algebraic_KernelIdeal_ReferenceIdeal := by
  intro m ρ m' ρ' _ hagree
  refine ⟨fun c => Cert.ReferenceIdeal.Read.val_main_v150 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)), ?_, ?_⟩
  · exact (θ_run Cert.KernelIdeal.defs _ _).mono
      (fun r h c => ⟨(h c).1.trans (Cert.KernelIdeal.Hand.w13_v94 m ρ c), (h c).2⟩)
      (Cert.KernelIdeal.Hand.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v150_eq]
    obtain ⟨h0, h1, h2, h3, h4, h5, h6, h7, h8, h9, h10, h11, h12, h13, h14, h15, h16, h17, h18, h19, h20, h21, h22, h23, h24, h25, h26, h27⟩ := hagree c
    rw [h0, h1, h2, h3, h4, h5, h6, h7, h8, h9, h10, h11, h12, h13, h14, h15, h16, h17, h18, h19, h20, h21, h22, h23, h24, h25, h26, h27]

end Cert.Proof.Claims

end
-- ==== Proof.lean ====
/-
  The certificate's claim: the witnesses of the programs' stated side conditions, then the five claims
  (Proof/Claims.lean). The value claim rests on the six regions' results (Proof/Reg0 … Reg5, over the bodies'
  arithmetic in Proof/PaySage0 … PayHead), the reference's stages in the same index form (Proof/Ref0 … Ref5)
  and the buffers' contents at every boundary of the kernel's @main (Proof/ChainA … ChainC).
-/
import proofs.«175308_j62130996904304_1_alg».proof.Defs
import proofs.«175308_j62130996904304_1_alg».proof.Proof.Gen.Kernel
import proofs.«175308_j62130996904304_1_alg».proof.Proof.Gen.Kernel.Skeleton
import proofs.«175308_j62130996904304_1_alg».proof.Proof.Gen.Kernel.Launch
import proofs.«175308_j62130996904304_1_alg».proof.Proof.Gen.Kernel.Points
import proofs.«175308_j62130996904304_1_alg».proof.Proof.Gen.Kernel.Frame
import proofs.«175308_j62130996904304_1_alg».proof.Proof.Gen.KernelIdeal
import proofs.«175308_j62130996904304_1_alg».proof.Proof.Gen.KernelIdeal.Skeleton
import proofs.«175308_j62130996904304_1_alg».proof.Proof.Gen.KernelIdeal.Launch
import proofs.«175308_j62130996904304_1_alg».proof.Proof.Gen.KernelIdeal.Points
import proofs.«175308_j62130996904304_1_alg».proof.Proof.Gen.KernelIdeal.Frame
import proofs.«175308_j62130996904304_1_alg».proof.Proof.Gen.ReferenceIdeal
import proofs.«175308_j62130996904304_1_alg».proof.Proof.Gen.Pre_finite_inputs
import proofs.«175308_j62130996904304_1_alg».proof.Proof.Gen.ReferenceIdeal.Run
import proofs.«175308_j62130996904304_1_alg».proof.Proof.Gen.ReferenceIdeal.Read
import proofs.«175308_j62130996904304_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_kernel, Cert.Proof.Claims.frame_kernel_ideal, Cert.Proof.Claims.frame_reference_ideal,
  Cert.Proof.Claims.preserves, Cert.Proof.Claims.algebraic⟩

end Cert.Proof

end
